-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x1024 : Shape := ⟨2, ![128, 1024]⟩
abbrev S1024 : Shape := ⟨1, ![1024]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S4096x4096 : Shape := ⟨2, ![4096, 4096]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg7 : FVec F S4096x4096 .f32) (main_arg8 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S2048 .f32) (main_arg5 : FVec F S2048x4096 .f32) (main_arg6 : FVec F S4096 .f32) (main_arg7 : FVec F S4096x4096 .f32) (main_arg8 : FVec F S4096 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S8192x128 .f32) (main_arg1 : FVec F S128x1024 .f32) (main_arg2 : FVec F S1024 .f32) (main_arg3 : FVec F S1024x2048 .f32) (main_arg4 : FVec F S2048 .f32) (main_arg5 : FVec F S2048x4096 .f32) (main_arg6 : FVec F S4096 .f32) (main_arg7 : FVec F S4096x4096 .f32) (main_arg8 : FVec F S4096 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_v13 main_v16
-- ==== Kernel.lean ====
abbrev S8192x128 : Shape := ⟨2, ![8192, 128]⟩
abbrev S128x1024 : Shape := ⟨2, ![128, 1024]⟩
abbrev S1024 : Shape := ⟨1, ![1024]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S4096x4096 : Shape := ⟨2, ![4096, 4096]⟩
abbrev S_ : Shape := ⟨0, ![]⟩
abbrev S1x1024 : Shape := ⟨2, ![1, 1024]⟩
abbrev S8192x1024 : Shape := ⟨2, ![8192, 1024]⟩
abbrev S1024x128 : Shape := ⟨2, ![1024, 128]⟩
abbrev S1024x1024 : Shape := ⟨2, ![1024, 1024]⟩
abbrev S1x2048 : Shape := ⟨2, ![1, 2048]⟩
abbrev S8192x2048 : Shape := ⟨2, ![8192, 2048]⟩
abbrev S1x4096 : Shape := ⟨2, ![1, 4096]⟩
abbrev S8192x4096 : Shape := ⟨2, ![8192, 4096]⟩

abbrev nBuf : Space → Nat
  | .hbm => 140
  | .vmem => 34
  | .smem => 0
  | _ => 0

abbrev hbmTy0_0 (i : Nat) : BufTy := match i % 128 with
  | 0 => ⟨S8192x128, .f32⟩
  | 1 => ⟨S128x1024, .f32⟩
  | 2 => ⟨S1024, .f32⟩
  | 3 => ⟨S1024x2048, .f32⟩
  | 4 => ⟨S2048, .f32⟩
  | 5 => ⟨S2048x4096, .f32⟩
  | 6 => ⟨S4096, .f32⟩
  | 7 => ⟨S4096x4096, .f32⟩
  | 8 => ⟨S4096, .f32⟩
  | 9 => ⟨S_, .f32⟩
  | 10 => ⟨S128x1024, .f32⟩
  | 11 => ⟨S128x1024, .f32⟩
  | 12 => ⟨S128x1024, .f32⟩
  | 13 => ⟨S_, .f32⟩
  | 14 => ⟨S_, .f32⟩
  | 15 => ⟨S_, .f32⟩
  | 16 => ⟨S128x1024, .f32⟩
  | 17 => ⟨S128x1024, .f32⟩
  | 18 => ⟨S_, .f32⟩
  | 19 => ⟨S128x1024, .f32⟩
  | 20 => ⟨S128x1024, .f32⟩
  | 21 => ⟨S_, .f32⟩
  | 22 => ⟨S128x1024, .f32⟩
  | 23 => ⟨S128x1024, .f32⟩
  | 24 => ⟨S_, .f32⟩
  | 25 => ⟨S1024x2048, .f32⟩
  | 26 => ⟨S1024x2048, .f32⟩
  | 27 => ⟨S1024x2048, .f32⟩
  | 28 => ⟨S_, .f32⟩
  | 29 => ⟨S_, .f32⟩
  | 30 => ⟨S_, .f32⟩
  | 31 => ⟨S1024x2048, .f32⟩
  | 32 => ⟨S1024x2048, .f32⟩
  | 33 => ⟨S_, .f32⟩
  | 34 => ⟨S1024x2048, .f32⟩
  | 35 => ⟨S1024x2048, .f32⟩
  | 36 => ⟨S_, .f32⟩
  | 37 => ⟨S1024x2048, .f32⟩
  | 38 => ⟨S1024x2048, .f32⟩
  | 39 => ⟨S1024x2048, .bf16⟩
  | 40 => ⟨S_, .f32⟩
  | 41 => ⟨S2048x4096, .f32⟩
  | 42 => ⟨S2048x4096, .f32⟩
  | 43 => ⟨S2048x4096, .f32⟩
  | 44 => ⟨S_, .f32⟩
  | 45 => ⟨S_, .f32⟩
  | 46 => ⟨S_, .f32⟩
  | 47 => ⟨S2048x4096, .f32⟩
  | 48 => ⟨S2048x4096, .f32⟩
  | 49 => ⟨S_, .f32⟩
  | 50 => ⟨S2048x4096, .f32⟩
  | 51 => ⟨S2048x4096, .f32⟩
  | 52 => ⟨S_, .f32⟩
  | 53 => ⟨S2048x4096, .f32⟩
  | 54 => ⟨S2048x4096, .f32⟩
  | 55 => ⟨S2048x4096, .bf16⟩
  | 56 => ⟨S_, .f32⟩
  | 57 => ⟨S4096x4096, .f32⟩
  | 58 => ⟨S4096x4096, .f32⟩
  | 59 => ⟨S4096x4096, .f32⟩
  | 60 => ⟨S_, .f32⟩
  | 61 => ⟨S_, .f32⟩
  | 62 => ⟨S_, .f32⟩
  | 63 => ⟨S4096x4096, .f32⟩
  | 64 => ⟨S4096x4096, .f32⟩
  | 65 => ⟨S_, .f32⟩
  | 66 => ⟨S4096x4096, .f32⟩
  | 67 => ⟨S4096x4096, .f32⟩
  | 68 => ⟨S_, .f32⟩
  | 69 => ⟨S4096x4096, .f32⟩
  | 70 => ⟨S4096x4096, .f32⟩
  | 71 => ⟨S4096x4096, .bf16⟩
  | 72 => ⟨S_, .f32⟩
  | 73 => ⟨S1024, .f32⟩
  | 74 => ⟨S1024, .f32⟩
  | 75 => ⟨S1024, .f32⟩
  | 76 => ⟨S_, .f32⟩
  | 77 => ⟨S_, .f32⟩
  | 78 => ⟨S_, .f32⟩
  | 79 => ⟨S1024, .f32⟩
  | 80 => ⟨S1024, .f32⟩
  | 81 => ⟨S_, .f32⟩
  | 82 => ⟨S1024, .f32⟩
  | 83 => ⟨S1024, .f32⟩
  | 84 => ⟨S_, .f32⟩
  | 85 => ⟨S1024, .f32⟩
  | 86 => ⟨S1024, .f32⟩
  | 87 => ⟨S_, .f32⟩
  | 88 => ⟨S2048, .f32⟩
  | 89 => ⟨S2048, .f32⟩
  | 90 => ⟨S2048, .f32⟩
  | 91 => ⟨S_, .f32⟩
  | 92 => ⟨S_, .f32⟩
  | 93 => ⟨S_, .f32⟩
  | 94 => ⟨S2048, .f32⟩
  | 95 => ⟨S2048, .f32⟩
  | 96 => ⟨S_, .f32⟩
  | 97 => ⟨S2048, .f32⟩
  | 98 => ⟨S2048, .f32⟩
  | 99 => ⟨S_, .f32⟩
  | 100 => ⟨S2048, .f32⟩
  | 101 => ⟨S2048, .f32⟩
  | 102 => ⟨S_, .f32⟩
  | 103 => ⟨S4096, .f32⟩
  | 104 => ⟨S4096, .f32⟩
  | 105 => ⟨S4096, .f32⟩
  | 106 => ⟨S_, .f32⟩
  | 107 => ⟨S_, .f32⟩
  | 108 => ⟨S_, .f32⟩
  | 109 => ⟨S4096, .f32⟩
  | 110 => ⟨S4096, .f32⟩
  | 111 => ⟨S_, .f32⟩
  | 112 => ⟨S4096, .f32⟩
  | 113 => ⟨S4096, .f32⟩
  | 114 => ⟨S_, .f32⟩
  | 115 => ⟨S4096, .f32⟩
  | 116 => ⟨S4096, .f32⟩
  | 117 => ⟨S_, .f32⟩
  | 118 => ⟨S4096, .f32⟩
  | 119 => ⟨S4096, .f32⟩
  | 120 => ⟨S4096, .f32⟩
  | 121 => ⟨S_, .f32⟩
  | 122 => ⟨S_, .f32⟩
  | 123 => ⟨S_, .f32⟩
  | 124 => ⟨S4096, .f32⟩
  | 125 => ⟨S4096, .f32⟩
  | 126 => ⟨S_, .f32⟩
  | 127 => ⟨S4096, .f32⟩
  | _ => ⟨S8192x128, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S1x1024, .f32⟩
  | 5 => ⟨S8192x1024, .bf16⟩
  | 6 => ⟨S1x2048, .f32⟩
  | 7 => ⟨S8192x2048, .bf16⟩
  | 8 => ⟨S1x4096, .f32⟩
  | 9 => ⟨S8192x4096, .bf16⟩
  | 10 => ⟨S1x4096, .f32⟩
  | 11 => ⟨S8192x4096, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1x1024, .f32⟩
  | .local _ .vmem, ⟨30, _⟩ => ⟨S1x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v3 : Ref sig .tc := ⟨.hbm, 20, rfl⟩
abbrev main_cst_2 : Ref sig .tc := ⟨.hbm, 21, rfl⟩
abbrev main_v4 : Ref sig .tc := ⟨.hbm, 22, rfl⟩
abbrev main_v5 : Ref sig .tc := ⟨.hbm, 23, rfl⟩
abbrev main_cst_3 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_4 : Ref sig .tc := ⟨.hbm, 28, rfl⟩
abbrev main_cst_5 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_v9 : Ref sig .tc := ⟨.hbm, 35, rfl⟩
abbrev main_cst_6 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_7 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_8 : Ref sig .tc := ⟨.hbm, 44, rfl⟩
abbrev main_cst_9 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v16 : Ref sig .tc := ⟨.hbm, 51, rfl⟩
abbrev main_cst_10 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_11 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_12 : Ref sig .tc := ⟨.hbm, 60, rfl⟩
abbrev main_cst_13 : Ref sig .tc := ⟨.hbm, 61, rfl⟩
abbrev main_call7_v0 : Ref sig .tc := ⟨.hbm, 62, rfl⟩
abbrev main_call7_v1 : Ref sig .tc := ⟨.hbm, 63, rfl⟩
abbrev main_call7_v2 : Ref sig .tc := ⟨.hbm, 64, rfl⟩
abbrev main_call7_v3 : Ref sig .tc := ⟨.hbm, 65, rfl⟩
abbrev main_call7_v4 : Ref sig .tc := ⟨.hbm, 66, rfl⟩
abbrev main_v23 : Ref sig .tc := ⟨.hbm, 67, rfl⟩
abbrev main_cst_14 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_15 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_16 : Ref sig .tc := ⟨.hbm, 76, rfl⟩
abbrev main_cst_17 : Ref sig .tc := ⟨.hbm, 77, rfl⟩
abbrev main_call9_v0 : Ref sig .tc := ⟨.hbm, 78, rfl⟩
abbrev main_call9_v1 : Ref sig .tc := ⟨.hbm, 79, rfl⟩
abbrev main_call9_v2 : Ref sig .tc := ⟨.hbm, 80, rfl⟩
abbrev main_call9_v3 : Ref sig .tc := ⟨.hbm, 81, rfl⟩
abbrev main_call9_v4 : Ref sig .tc := ⟨.hbm, 82, rfl⟩
abbrev main_v30 : Ref sig .tc := ⟨.hbm, 83, rfl⟩
abbrev main_cst_18 : Ref sig .tc := ⟨.hbm, 84, rfl⟩
abbrev main_v31 : Ref sig .tc := ⟨.hbm, 85, rfl⟩
abbrev main_v32 : Ref sig .tc := ⟨.hbm, 86, rfl⟩
abbrev main_cst_19 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst_20 : Ref sig .tc := ⟨.hbm, 91, rfl⟩
abbrev main_cst_21 : Ref sig .tc := ⟨.hbm, 92, rfl⟩
abbrev main_call11_v0 : Ref sig .tc := ⟨.hbm, 93, rfl⟩
abbrev main_call11_v1 : Ref sig .tc := ⟨.hbm, 94, rfl⟩
abbrev main_call11_v2 : Ref sig .tc := ⟨.hbm, 95, rfl⟩
abbrev main_call11_v3 : Ref sig .tc := ⟨.hbm, 96, rfl⟩
abbrev main_call11_v4 : Ref sig .tc := ⟨.hbm, 97, rfl⟩
abbrev main_v36 : Ref sig .tc := ⟨.hbm, 98, rfl⟩
abbrev main_cst_22 : Ref sig .tc := ⟨.hbm, 99, rfl⟩
abbrev main_v37 : Ref sig .tc := ⟨.hbm, 100, rfl⟩
abbrev main_v38 : Ref sig .tc := ⟨.hbm, 101, rfl⟩
abbrev main_cst_23 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_cst_24 : Ref sig .tc := ⟨.hbm, 106, rfl⟩
abbrev main_cst_25 : Ref sig .tc := ⟨.hbm, 107, rfl⟩
abbrev main_call13_v0 : Ref sig .tc := ⟨.hbm, 108, rfl⟩
abbrev main_call13_v1 : Ref sig .tc := ⟨.hbm, 109, rfl⟩
abbrev main_call13_v2 : Ref sig .tc := ⟨.hbm, 110, rfl⟩
abbrev main_call13_v3 : Ref sig .tc := ⟨.hbm, 111, rfl⟩
abbrev main_call13_v4 : Ref sig .tc := ⟨.hbm, 112, rfl⟩
abbrev main_v42 : Ref sig .tc := ⟨.hbm, 113, rfl⟩
abbrev main_cst_26 : Ref sig .tc := ⟨.hbm, 114, rfl⟩
abbrev main_v43 : Ref sig .tc := ⟨.hbm, 115, rfl⟩
abbrev main_v44 : Ref sig .tc := ⟨.hbm, 116, rfl⟩
abbrev main_cst_27 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_cst_28 : Ref sig .tc := ⟨.hbm, 121, rfl⟩
abbrev main_cst_29 : Ref sig .tc := ⟨.hbm, 122, rfl⟩
abbrev main_call15_v0 : Ref sig .tc := ⟨.hbm, 123, rfl⟩
abbrev main_call15_v1 : Ref sig .tc := ⟨.hbm, 124, rfl⟩
abbrev main_call15_v2 : Ref sig .tc := ⟨.hbm, 125, rfl⟩
abbrev main_call15_v3 : Ref sig .tc := ⟨.hbm, 126, rfl⟩
abbrev main_call15_v4 : Ref sig .tc := ⟨.hbm, 127, rfl⟩
abbrev main_v48 : Ref sig .tc := ⟨.hbm, 128, rfl⟩
abbrev main_cst_30 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 1], ![false, false, false]⟩

def k1_cond2 (i : grid1.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 4, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  bcast_S_S128x1024 : S_.BroadcastsInDim S128x1024 (![] : Fin 0 → Fin S128x1024.rank)
  bcast_S_S1024x2048 : S_.BroadcastsInDim S1024x2048 (![] : Fin 0 → Fin S1024x2048.rank)
  bitsLt_bf16_f32 : FTy.bits .bf16 < FTy.bits .f32
  bcast_S_S2048x4096 : S_.BroadcastsInDim S2048x4096 (![] : Fin 0 → Fin S2048x4096.rank)
  bcast_S_S4096x4096 : S_.BroadcastsInDim S4096x4096 (![] : Fin 0 → Fin S4096x4096.rank)
  bcast_S_S1024 : S_.BroadcastsInDim S1024 (![] : Fin 0 → Fin S1024.rank)
  bcast_S_S2048 : S_.BroadcastsInDim S2048 (![] : Fin 0 → Fin S2048.rank)
  bcast_S_S4096 : S_.BroadcastsInDim S4096 (![] : Fin 0 → Fin S4096.rank)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S2048_S1x2048 : S2048.ShapeCasts S1x2048
  shapeCasts_S4096_S1x4096 : S4096.ShapeCasts S1x4096
  dot_S1024x128_S128x1024_S1024x1024_1_0_0_1_n_n_wf : DotDims.WF S1024x128 S128x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x2048.size a
  hwx1_1 : ∀ i : grid1.Coords, EltTy.bits .bf16 = 32 ∨ (Rect.block (s := S1024x2048) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x2048.size a
  hwx1_3 : ∀ i : grid1.Coords, EltTy.bits .bf16 = 32 ∨ (Rect.block (s := S8192x2048) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x2048.size a
  hwx2_0 : ∀ i : grid2.Coords, EltTy.bits .bf16 = 32 ∨ (Rect.block (s := S8192x2048) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S2048x4096.size a
  hwx2_1 : ∀ i : grid2.Coords, EltTy.bits .bf16 = 32 ∨ (Rect.block (s := S2048x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .bf16 = 32 ∨ (Rect.block (s := S8192x4096) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x4096.size a
  hwx3_0 : ∀ i : grid3.Coords, EltTy.bits .bf16 = 32 ∨ (Rect.block (s := S8192x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .bf16 = 32 ∨ (Rect.block (s := S4096x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S8192x4096.size a
  hwx3_3 : ∀ i : grid3.Coords, EltTy.bits .f32 = 32 ∨ (Rect.block (s := S8192x4096) S1024x1024.size (cc3_transform_3 i) (hinb3_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x1024.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x1024.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v52) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v54) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v56) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S128x1024 : Shape := ⟨2, ![128, 1024]⟩
abbrev S1024 : Shape := ⟨1, ![1024]⟩
abbrev S1024x2048 : Shape := ⟨2, ![1024, 2048]⟩
abbrev S2048 : Shape := ⟨1, ![2048]⟩
abbrev S2048x4096 : Shape := ⟨2, ![2048, 4096]⟩
abbrev S4096 : Shape := ⟨1, ![4096]⟩
abbrev S4096x4096 : Shape := ⟨2, ![4096, 4096]⟩
abbrev S_ : Shape := ⟨0, ![]⟩
abbrev S8192x1024 : Shape := ⟨2, ![8192, 1024]⟩
abbrev S1x1024 : Shape := ⟨2, ![1, 1024]⟩
abbrev S8192x2048 : Shape := ⟨2, ![8192, 2048]⟩
abbrev S1x2048 : Shape := ⟨2, ![1, 2048]⟩
abbrev S8192x4096 : Shape := ⟨2, ![8192, 4096]⟩
abbrev S1x4096 : Shape := ⟨2, ![1, 4096]⟩

abbrev nBuf : Space → Nat
  | .hbm => 212
  | .vmem => 0
  | .smem => 0
  | _ => 0

abbrev hbmTy0_0 (i : Nat) : BufTy := match i % 128 with
  | 0 => ⟨S8192x128, .f32⟩
  | 1 => ⟨S128x1024, .f32⟩
  | 2 => ⟨S1024, .f32⟩
  | 3 => ⟨S1024x2048, .f32⟩
  | 4 => ⟨S2048, .f32⟩
  | 5 => ⟨S2048x4096, .f32⟩
  | 6 => ⟨S4096, .f32⟩
  | 7 => ⟨S4096x4096, .f32⟩
  | 8 => ⟨S4096, .f32⟩
  | 9 => ⟨S_, .f32⟩
  | 10 => ⟨S128x1024, .f32⟩
  | 11 => ⟨S128x1024, .f32⟩
  | 12 => ⟨S128x1024, .f32⟩
  | 13 => ⟨S128x1024, .f32⟩
  | 14 => ⟨S128x1024, .f32⟩
  | 15 => ⟨S_, .f32⟩
  | 16 => ⟨S_, .f32⟩
  | 17 => ⟨S_, .f32⟩
  | 18 => ⟨S128x1024, .f32⟩
  | 19 => ⟨S128x1024, .f32⟩
  | 20 => ⟨S_, .f32⟩
  | 21 => ⟨S128x1024, .f32⟩
  | 22 => ⟨S128x1024, .f32⟩
  | 23 => ⟨S_, .f32⟩
  | 24 => ⟨S128x1024, .f32⟩
  | 25 => ⟨S128x1024, .f32⟩
  | 26 => ⟨S_, .f32⟩
  | 27 => ⟨S1024, .f32⟩
  | 28 => ⟨S1024, .f32⟩
  | 29 => ⟨S1024, .f32⟩
  | 30 => ⟨S1024, .f32⟩
  | 31 => ⟨S1024, .f32⟩
  | 32 => ⟨S_, .f32⟩
  | 33 => ⟨S_, .f32⟩
  | 34 => ⟨S_, .f32⟩
  | 35 => ⟨S1024, .f32⟩
  | 36 => ⟨S1024, .f32⟩
  | 37 => ⟨S_, .f32⟩
  | 38 => ⟨S1024, .f32⟩
  | 39 => ⟨S1024, .f32⟩
  | 40 => ⟨S_, .f32⟩
  | 41 => ⟨S1024, .f32⟩
  | 42 => ⟨S1024, .f32⟩
  | 43 => ⟨S8192x1024, .f32⟩
  | 44 => ⟨S1x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S_, .f32⟩
  | 55 => ⟨S_, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S1024x2048, .f32⟩
  | 66 => ⟨S1024x2048, .f32⟩
  | 67 => ⟨S1024x2048, .f32⟩
  | 68 => ⟨S1024x2048, .f32⟩
  | 69 => ⟨S1024x2048, .f32⟩
  | 70 => ⟨S_, .f32⟩
  | 71 => ⟨S_, .f32⟩
  | 72 => ⟨S_, .f32⟩
  | 73 => ⟨S1024x2048, .f32⟩
  | 74 => ⟨S1024x2048, .f32⟩
  | 75 => ⟨S_, .f32⟩
  | 76 => ⟨S1024x2048, .f32⟩
  | 77 => ⟨S1024x2048, .f32⟩
  | 78 => ⟨S_, .f32⟩
  | 79 => ⟨S1024x2048, .f32⟩
  | 80 => ⟨S1024x2048, .f32⟩
  | 81 => ⟨S_, .f32⟩
  | 82 => ⟨S2048, .f32⟩
  | 83 => ⟨S2048, .f32⟩
  | 84 => ⟨S2048, .f32⟩
  | 85 => ⟨S2048, .f32⟩
  | 86 => ⟨S2048, .f32⟩
  | 87 => ⟨S_, .f32⟩
  | 88 => ⟨S_, .f32⟩
  | 89 => ⟨S_, .f32⟩
  | 90 => ⟨S2048, .f32⟩
  | 91 => ⟨S2048, .f32⟩
  | 92 => ⟨S_, .f32⟩
  | 93 => ⟨S2048, .f32⟩
  | 94 => ⟨S2048, .f32⟩
  | 95 => ⟨S_, .f32⟩
  | 96 => ⟨S2048, .f32⟩
  | 97 => ⟨S2048, .f32⟩
  | 98 => ⟨S8192x2048, .f32⟩
  | 99 => ⟨S1x2048, .f32⟩
  | 100 => ⟨S8192x2048, .f32⟩
  | 101 => ⟨S8192x2048, .f32⟩
  | 102 => ⟨S_, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S_, .f32⟩
  | 109 => ⟨S_, .f32⟩
  | 110 => ⟨S_, .f32⟩
  | 111 => ⟨S8192x2048, .f32⟩
  | 112 => ⟨S8192x2048, .f32⟩
  | 113 => ⟨S_, .f32⟩
  | 114 => ⟨S8192x2048, .f32⟩
  | 115 => ⟨S8192x2048, .f32⟩
  | 116 => ⟨S_, .f32⟩
  | 117 => ⟨S8192x2048, .f32⟩
  | 118 => ⟨S8192x2048, .f32⟩
  | 119 => ⟨S_, .f32⟩
  | 120 => ⟨S2048x4096, .f32⟩
  | 121 => ⟨S2048x4096, .f32⟩
  | 122 => ⟨S2048x4096, .f32⟩
  | 123 => ⟨S2048x4096, .f32⟩
  | 124 => ⟨S2048x4096, .f32⟩
  | 125 => ⟨S_, .f32⟩
  | 126 => ⟨S_, .f32⟩
  | 127 => ⟨S_, .f32⟩
  | _ => ⟨S8192x128, .f32⟩

abbrev hbmTy0_1 (i : Nat) : BufTy := match i % 128 with
  | 0 => ⟨S2048x4096, .f32⟩
  | 1 => ⟨S2048x4096, .f32⟩
  | 2 => ⟨S_, .f32⟩
  | 3 => ⟨S2048x4096, .f32⟩
  | 4 => ⟨S2048x4096, .f32⟩
  | 5 => ⟨S_, .f32⟩
  | 6 => ⟨S2048x4096, .f32⟩
  | 7 => ⟨S2048x4096, .f32⟩
  | 8 => ⟨S_, .f32⟩
  | 9 => ⟨S4096, .f32⟩
  | 10 => ⟨S4096, .f32⟩
  | 11 => ⟨S4096, .f32⟩
  | 12 => ⟨S4096, .f32⟩
  | 13 => ⟨S4096, .f32⟩
  | 14 => ⟨S_, .f32⟩
  | 15 => ⟨S_, .f32⟩
  | 16 => ⟨S_, .f32⟩
  | 17 => ⟨S4096, .f32⟩
  | 18 => ⟨S4096, .f32⟩
  | 19 => ⟨S_, .f32⟩
  | 20 => ⟨S4096, .f32⟩
  | 21 => ⟨S4096, .f32⟩
  | 22 => ⟨S_, .f32⟩
  | 23 => ⟨S4096, .f32⟩
  | 24 => ⟨S4096, .f32⟩
  | 25 => ⟨S8192x4096, .f32⟩
  | 26 => ⟨S1x4096, .f32⟩
  | 27 => ⟨S8192x4096, .f32⟩
  | 28 => ⟨S8192x4096, .f32⟩
  | 29 => ⟨S_, .f32⟩
  | 30 => ⟨S8192x4096, .f32⟩
  | 31 => ⟨S8192x4096, .f32⟩
  | 32 => ⟨S8192x4096, .f32⟩
  | 33 => ⟨S8192x4096, .f32⟩
  | 34 => ⟨S8192x4096, .f32⟩
  | 35 => ⟨S_, .f32⟩
  | 36 => ⟨S_, .f32⟩
  | 37 => ⟨S_, .f32⟩
  | 38 => ⟨S8192x4096, .f32⟩
  | 39 => ⟨S8192x4096, .f32⟩
  | 40 => ⟨S_, .f32⟩
  | 41 => ⟨S8192x4096, .f32⟩
  | 42 => ⟨S8192x4096, .f32⟩
  | 43 => ⟨S_, .f32⟩
  | 44 => ⟨S8192x4096, .f32⟩
  | 45 => ⟨S8192x4096, .f32⟩
  | 46 => ⟨S_, .f32⟩
  | 47 => ⟨S4096x4096, .f32⟩
  | 48 => ⟨S4096x4096, .f32⟩
  | 49 => ⟨S4096x4096, .f32⟩
  | 50 => ⟨S4096x4096, .f32⟩
  | 51 => ⟨S4096x4096, .f32⟩
  | 52 => ⟨S_, .f32⟩
  | 53 => ⟨S_, .f32⟩
  | 54 => ⟨S_, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S_, .f32⟩
  | 64 => ⟨S4096, .f32⟩
  | 65 => ⟨S4096, .f32⟩
  | 66 => ⟨S4096, .f32⟩
  | 67 => ⟨S4096, .f32⟩
  | 68 => ⟨S4096, .f32⟩
  | 69 => ⟨S_, .f32⟩
  | 70 => ⟨S_, .f32⟩
  | 71 => ⟨S_, .f32⟩
  | 72 => ⟨S4096, .f32⟩
  | 73 => ⟨S4096, .f32⟩
  | 74 => ⟨S_, .f32⟩
  | 75 => ⟨S4096, .f32⟩
  | 76 => ⟨S4096, .f32⟩
  | 77 => ⟨S_, .f32⟩
  | 78 => ⟨S4096, .f32⟩
  | 79 => ⟨S4096, .f32⟩
  | 80 => ⟨S8192x4096, .f32⟩
  | 81 => ⟨S1x4096, .f32⟩
  | 82 => ⟨S8192x4096, .f32⟩
  | 83 => ⟨S8192x4096, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_cst_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v13 : Ref sig .tc := ⟨.hbm, 39, rfl⟩
abbrev main_cst_6 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_7 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_8 : Ref sig .tc := ⟨.hbm, 53, rfl⟩
abbrev main_cst_9 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_call5_v3 : Ref sig .tc := ⟨.hbm, 58, rfl⟩
abbrev main_call5_v4 : Ref sig .tc := ⟨.hbm, 59, rfl⟩
abbrev main_v25 : Ref sig .tc := ⟨.hbm, 60, rfl⟩
abbrev main_cst_10 : Ref sig .tc := ⟨.hbm, 61, rfl⟩
abbrev main_v26 : Ref sig .tc := ⟨.hbm, 62, rfl⟩
abbrev main_v27 : Ref sig .tc := ⟨.hbm, 63, rfl⟩
abbrev main_cst_11 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_12 : Ref sig .tc := ⟨.hbm, 70, rfl⟩
abbrev main_cst_13 : Ref sig .tc := ⟨.hbm, 71, rfl⟩
abbrev main_call7_v0 : Ref sig .tc := ⟨.hbm, 72, rfl⟩
abbrev main_call7_v1 : Ref sig .tc := ⟨.hbm, 73, rfl⟩
abbrev main_call7_v2 : Ref sig .tc := ⟨.hbm, 74, rfl⟩
abbrev main_call7_v3 : Ref sig .tc := ⟨.hbm, 75, rfl⟩
abbrev main_call7_v4 : Ref sig .tc := ⟨.hbm, 76, rfl⟩
abbrev main_v33 : Ref sig .tc := ⟨.hbm, 77, rfl⟩
abbrev main_cst_14 : Ref sig .tc := ⟨.hbm, 78, rfl⟩
abbrev main_v34 : Ref sig .tc := ⟨.hbm, 79, rfl⟩
abbrev main_v35 : Ref sig .tc := ⟨.hbm, 80, rfl⟩
abbrev main_cst_15 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_16 : Ref sig .tc := ⟨.hbm, 87, rfl⟩
abbrev main_cst_17 : Ref sig .tc := ⟨.hbm, 88, rfl⟩
abbrev main_call9_v0 : Ref sig .tc := ⟨.hbm, 89, rfl⟩
abbrev main_call9_v1 : Ref sig .tc := ⟨.hbm, 90, rfl⟩
abbrev main_call9_v2 : Ref sig .tc := ⟨.hbm, 91, rfl⟩
abbrev main_call9_v3 : Ref sig .tc := ⟨.hbm, 92, rfl⟩
abbrev main_call9_v4 : Ref sig .tc := ⟨.hbm, 93, rfl⟩
abbrev main_v41 : Ref sig .tc := ⟨.hbm, 94, rfl⟩
abbrev main_cst_18 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_19 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_20 : Ref sig .tc := ⟨.hbm, 108, rfl⟩
abbrev main_cst_21 : Ref sig .tc := ⟨.hbm, 109, rfl⟩
abbrev main_call11_v0 : Ref sig .tc := ⟨.hbm, 110, rfl⟩
abbrev main_call11_v1 : Ref sig .tc := ⟨.hbm, 111, rfl⟩
abbrev main_call11_v2 : Ref sig .tc := ⟨.hbm, 112, rfl⟩
abbrev main_call11_v3 : Ref sig .tc := ⟨.hbm, 113, rfl⟩
abbrev main_call11_v4 : Ref sig .tc := ⟨.hbm, 114, rfl⟩
abbrev main_v53 : Ref sig .tc := ⟨.hbm, 115, rfl⟩
abbrev main_cst_22 : Ref sig .tc := ⟨.hbm, 116, rfl⟩
abbrev main_v54 : Ref sig .tc := ⟨.hbm, 117, rfl⟩
abbrev main_v55 : Ref sig .tc := ⟨.hbm, 118, rfl⟩
abbrev main_cst_23 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_cst_24 : Ref sig .tc := ⟨.hbm, 125, rfl⟩
abbrev main_cst_25 : Ref sig .tc := ⟨.hbm, 126, rfl⟩
abbrev main_call13_v0 : Ref sig .tc := ⟨.hbm, 127, rfl⟩
abbrev main_call13_v1 : Ref sig .tc := ⟨.hbm, 128, rfl⟩
abbrev main_call13_v2 : Ref sig .tc := ⟨.hbm, 129, rfl⟩
abbrev main_call13_v3 : Ref sig .tc := ⟨.hbm, 130, rfl⟩
abbrev main_call13_v4 : Ref sig .tc := ⟨.hbm, 131, rfl⟩
abbrev main_v61 : Ref sig .tc := ⟨.hbm, 132, rfl⟩
abbrev main_cst_26 : Ref sig .tc := ⟨.hbm, 133, rfl⟩
abbrev main_v62 : Ref sig .tc := ⟨.hbm, 134, rfl⟩
abbrev main_v63 : Ref sig .tc := ⟨.hbm, 135, rfl⟩
abbrev main_cst_27 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_cst_28 : Ref sig .tc := ⟨.hbm, 142, rfl⟩
abbrev main_cst_29 : Ref sig .tc := ⟨.hbm, 143, rfl⟩
abbrev main_call15_v0 : Ref sig .tc := ⟨.hbm, 144, rfl⟩
abbrev main_call15_v1 : Ref sig .tc := ⟨.hbm, 145, rfl⟩
abbrev main_call15_v2 : Ref sig .tc := ⟨.hbm, 146, rfl⟩
abbrev main_call15_v3 : Ref sig .tc := ⟨.hbm, 147, rfl⟩
abbrev main_call15_v4 : Ref sig .tc := ⟨.hbm, 148, rfl⟩
abbrev main_v69 : Ref sig .tc := ⟨.hbm, 149, rfl⟩
abbrev main_cst_30 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_cst_31 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_cst_32 : Ref sig .tc := ⟨.hbm, 163, rfl⟩
abbrev main_cst_33 : Ref sig .tc := ⟨.hbm, 164, rfl⟩
abbrev main_call17_v0 : Ref sig .tc := ⟨.hbm, 165, rfl⟩
abbrev main_call17_v1 : Ref sig .tc := ⟨.hbm, 166, rfl⟩
abbrev main_call17_v2 : Ref sig .tc := ⟨.hbm, 167, rfl⟩
abbrev main_call17_v3 : Ref sig .tc := ⟨.hbm, 168, rfl⟩
abbrev main_call17_v4 : Ref sig .tc := ⟨.hbm, 169, rfl⟩
abbrev main_v81 : Ref sig .tc := ⟨.hbm, 170, rfl⟩
abbrev main_cst_34 : Ref sig .tc := ⟨.hbm, 171, rfl⟩
abbrev main_v82 : Ref sig .tc := ⟨.hbm, 172, rfl⟩
abbrev main_v83 : Ref sig .tc := ⟨.hbm, 173, rfl⟩
abbrev main_cst_35 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_cst_36 : Ref sig .tc := ⟨.hbm, 180, rfl⟩
abbrev main_cst_37 : Ref sig .tc := ⟨.hbm, 181, rfl⟩
abbrev main_call19_v0 : Ref sig .tc := ⟨.hbm, 182, rfl⟩
abbrev main_call19_v1 : Ref sig .tc := ⟨.hbm, 183, rfl⟩
abbrev main_call19_v2 : Ref sig .tc := ⟨.hbm, 184, rfl⟩
abbrev main_call19_v3 : Ref sig .tc := ⟨.hbm, 185, rfl⟩
abbrev main_call19_v4 : Ref sig .tc := ⟨.hbm, 186, rfl⟩
abbrev main_v89 : Ref sig .tc := ⟨.hbm, 187, rfl⟩
abbrev main_cst_38 : Ref sig .tc := ⟨.hbm, 188, rfl⟩
abbrev main_v90 : Ref sig .tc := ⟨.hbm, 189, rfl⟩
abbrev main_v91 : Ref sig .tc := ⟨.hbm, 190, rfl⟩
abbrev main_cst_39 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_cst_40 : Ref sig .tc := ⟨.hbm, 197, rfl⟩
abbrev main_cst_41 : Ref sig .tc := ⟨.hbm, 198, rfl⟩
abbrev main_call21_v0 : Ref sig .tc := ⟨.hbm, 199, rfl⟩
abbrev main_call21_v1 : Ref sig .tc := ⟨.hbm, 200, rfl⟩
abbrev main_call21_v2 : Ref sig .tc := ⟨.hbm, 201, rfl⟩
abbrev main_call21_v3 : Ref sig .tc := ⟨.hbm, 202, rfl⟩
abbrev main_call21_v4 : Ref sig .tc := ⟨.hbm, 203, rfl⟩
abbrev main_v97 : Ref sig .tc := ⟨.hbm, 204, rfl⟩
abbrev main_cst_42 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S_S1024x2048 : S_.BroadcastsInDim S1024x2048 (![] : Fin 0 → Fin S1024x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S2048x4096 : S_.BroadcastsInDim S2048x4096 (![] : Fin 0 → Fin S2048x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S4096x4096 : S_.BroadcastsInDim S4096x4096 (![] : Fin 0 → Fin S4096x4096.rank)
  dot_S8192x128_S128x1024_S8192x1024_1_0_0_1_n_n_wf : DotDims.WF S8192x128 S128x1024 S8192x1024 [1] [0] [0] [1] [] []
  dot_S8192x1024_S1024x2048_S8192x2048_1_0_0_1_n_n_wf : DotDims.WF S8192x1024 S1024x2048 S8192x2048 [1] [0] [0] [1] [] []
  dot_S8192x2048_S2048x4096_S8192x4096_1_0_0_1_n_n_wf : DotDims.WF S8192x2048 S2048x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KB.Run0.lean ====
/- Region 0 (the first dense layer, a 1024 x 128 by 128 x 1024 product per grid point, one block along the
   contracted axis): the body's two conditionals on the position along the contracted axis both hold at every
   point, so each point clears the accumulator, adds the block product, and stores the activated sum. This
   module states the two conditions, decides them over the grid, and runs the body once on arbitrary whole
   staging buffers: the stores it ends with are found by the run. -/
import proofs.«114415_j6030134084248_2_alg».proof.Proof.Gen.Kernel.Launch
import proofs.«114415_j6030134084248_2_alg».proof.Proof.Gen.Kernel.Skeleton
import proofs.«114415_j6030134084248_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the position along the contracted axis is 0. -/
abbrev c0a (i : grid0.Coords) : Prop := (Scalar.cmpi .ne (Scalar.extui (Scalar.cmpi .eq (BitVec.ofNat 32 (i 2).val) 0#32)) 0#32) = 1#1
/-- The second conditional of the body: the position along the contracted axis is the last one. -/
abbrev c0b (i : grid0.Coords) : Prop := k0_cond2 i = 1#1

theorem hc0a : ∀ t : Fin cfg0.N, c0a (grid0.coords t) :=
  (by decide +kernel : ∀ t : Fin grid0.N, c0a (grid0.coords t))
theorem hc0b : ∀ t : Fin cfg0.N, c0b (grid0.coords t) :=
  (by decide +kernel : ∀ t : Fin grid0.N, c0b (grid0.coords t))

/-- No window is idle at any point: the output is stored at every point. -/
theorem live0 : ∀ (w : Fin cfg0.W) (t : Fin cfg0.N), cfg0.idle w (grid0.coords t) = false := by decide +kernel

set_option maxHeartbeats 4000000 in
/-- The body on whole buffers: the three inputs at given contents, the output and the accumulator at anything;
    it ends with the inputs as they were and the output and the accumulator each with the run's stores written. -/
noncomputable def run0 (c : Dev nD) (i : grid0.Coords)
    (arg3 : Memref sig .tc .vmem S1024x128 .f32) (harg3 : arg3.IsWhole) (arg4 : Memref sig .tc .vmem S128x1024 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c0a i) (hcb : c0b i)
    (x0 : Vec F S1024x128 .f32) (x1 : Vec F S128x1024 .f32) (x2 : Vec F S1x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc0__qdense_kernel i arg3 harg3 arg4 harg4 arg5 harg5 arg6 harg6 arg7 harg7) K } := by
  refine ⟨?_, ?_, fun E K => ?run⟩
  case run =>
    simp only [cc0__qdense_kernel_eq_skeleton]; unfold cc0__qdense_kernel_skel
    unfold owns
    iintro ⟨⟨%f0, %hf0, H0⟩, ⟨%f1, %hf1, H1⟩, ⟨%f2, %hf2, H2⟩, ⟨%d6, %f6, -, H6⟩, ⟨%d7, %f7, -, H7⟩, Hk⟩
    obtain rfl := harg3.eq_unread hf0; obtain rfl := harg4.eq_unread hf1; obtain rfl := harg5.eq_unread hf2
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    iexists _; iexact H7

end Cert.Kernel.Gen

end
-- ==== Proof.KB.Body0.lean ====
/- Region 0: one block along the contracted axis, so every grid point clears the accumulator, adds the block product
   and stores the activated sum. The proof data: each input window's buffer keeps its block, the output window's buffer
   ends at the body's stores read back, the accumulator's contents between points are not tracked (every point
   overwrites it before reading it). The body obligation at every point is the one whole-body run. -/
import proofs.«114415_j6030134084248_2_alg».proof.Proof.KB.Run0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the staging buffers at a point, the accumulator, the windows' blocks -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0
/-- One staging buffer of the output window, through which its contents are stated. -/
abbrev VO0 : View sig .tc .vmem S1024x1024 .bf16 := (Memref.whole cc0_stg3_0 : Memref sig .tc .vmem S1024x1024 .bf16).view
/-- The accumulator as a view. -/
abbrev VS0 : View sig .tc .vmem S1024x1024 .f32 := scM0.view

/-- The class invariant with the accumulator taken out of the scoped rest: the accumulator owned at some contents,
    every other scoped buffer unopened, the generator register at some state. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer: the run's stores read back. -/
def out0 (c : Dev nD) (i : grid0.Coords) (arg3 : Memref sig .tc .vmem S1024x128 .f32) (harg3 : arg3.IsWhole) (arg4 : Memref sig .tc .vmem S128x1024 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c0a i) (hcb : c0b i)
    (x0 : Vec F S1024x128 .f32) (x1 : Vec F S128x1024 .f32) (x2 : Vec F S1x1024 .f32) : Vec F S1024x1024 .bf16 :=
  VO0.read (Elt F) (VO0.writes (Elt F) VO0.junk (run0 c i arg3 harg3 arg4 harg4 arg5 harg5 arg6 harg6 arg7 harg7 hca hcb x0 x1 x2).1)

/-- The body's stores into the output window tile its block, so they cover it. -/
theorem cover0 (c : Dev nD) (i : grid0.Coords) (arg3 : Memref sig .tc .vmem S1024x128 .f32) (harg3 : arg3.IsWhole) (arg4 : Memref sig .tc .vmem S128x1024 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c0a i) (hcb : c0b i)
    (x0 : Vec F S1024x128 .f32) (x1 : Vec F S128x1024 .f32) (x2 : Vec F S1x1024 .f32) (y : S1024x1024.Idx) :
    ∃ pc ∈ (run0 c i arg3 harg3 arg4 harg4 arg5 harg5 arg6 harg6 arg7 harg7 hca hcb x0 x1 x2).1, y ∈ pc.1.set :=
  View.cover_of_tiledL (run0 c i arg3 harg3 arg4 harg4 arg5 harg5 arg6 harg6 arg7 harg7 hca hcb x0 x1 x2).1 S1024x1024.size (by sl_kernel_rfl) y

/-- The proof data of region 0 on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 c (grid0.coords t) (ms0_0 t) (hs0_0 t) (ms0_1 t) (hs0_1 t) (ms0_2 t) (hs0_2 t) (ms0_3 t) (hs0_3 t) scM0 (Memref.isWhole_whole _) (hc0a t) (hc0b t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t
    = out0 c (grid0.coords t) (ms0_0 t) (hs0_0 t) (ms0_1 t) (hs0_1 t) (ms0_2 t) (hs0_2 t) (ms0_3 t) (hs0_3 t) scM0 (Memref.isWhole_whole _) (hc0a t) (hc0b t) (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact; rw [live0 w t]

set_option maxHeartbeats 4000000 in
/-- The body at any point: the inputs' buffers hold their blocks; the invariant hands over the accumulator at some
    contents, and takes it back at some contents; the output window's buffer ends at the run's stores read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [leaves0 V c 0 t, leaves0 V c 1 t, leaves0 V c 2 t, leaves0 V c 3 t, after0_0, after0_1, after0_2, after0_3]
  unfold out0
  iintro ⟨⟨⟨HS, Hrest⟩, Hg⟩, Ho, ⟨%d0, H0⟩, ⟨%d1, H1⟩, ⟨%d2, H2⟩, ⟨%d3, H3⟩⟩
  iapply ((run0 c (grid0.coords t) _ _ _ _ _ _ _ _ _ _ (hc0a t) (hc0b t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Gen

end
-- ==== Proof.KB.Run1.lean ====
/- Region 1 (the second dense layer, a 1024 x 1024 by 1024 x 1024 product per grid point, one block along the
   contracted axis): the body's two conditionals on the position along the contracted axis both hold at every
   point, so each point clears the accumulator, adds the block product, and stores the activated sum. This
   module states the two conditions, decides them over the grid, and runs the body once on arbitrary whole
   staging buffers: the stores it ends with are found by the run. -/
import proofs.«114415_j6030134084248_2_alg».proof.Proof.Gen.Kernel.Launch
import proofs.«114415_j6030134084248_2_alg».proof.Proof.Gen.Kernel.Skeleton
import proofs.«114415_j6030134084248_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the position along the contracted axis is 0. -/
abbrev c1a (i : grid1.Coords) : Prop := (Scalar.cmpi .ne (Scalar.extui (Scalar.cmpi .eq (BitVec.ofNat 32 (i 2).val) 0#32)) 0#32) = 1#1
/-- The second conditional of the body: the position along the contracted axis is the last one. -/
abbrev c1b (i : grid1.Coords) : Prop := k1_cond2 i = 1#1

theorem hc1a : ∀ t : Fin cfg1.N, c1a (grid1.coords t) :=
  (by decide +kernel : ∀ t : Fin grid1.N, c1a (grid1.coords t))
theorem hc1b : ∀ t : Fin cfg1.N, c1b (grid1.coords t) :=
  (by decide +kernel : ∀ t : Fin grid1.N, c1b (grid1.coords t))

/-- No window is idle at any point: the output is stored at every point. -/
theorem live1 : ∀ (w : Fin cfg1.W) (t : Fin cfg1.N), cfg1.idle w (grid1.coords t) = false := by decide +kernel

set_option maxHeartbeats 4000000 in
/-- The body on whole buffers: the three inputs at given contents, the output and the accumulator at anything;
    it ends with the inputs as they were and the output and the accumulator each with the run's stores written. -/
noncomputable def run1 (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c1a i) (hcb : c1b i)
    (x0 : Vec F S1024x1024 .bf16) (x1 : Vec F S1024x1024 .bf16) (x2 : Vec F S1x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__qdense_kernel i arg3 harg3 arg4 harg4 arg5 harg5 arg6 harg6 arg7 harg7) K } := by
  refine ⟨?_, ?_, fun E K => ?run⟩
  case run =>
    simp only [cc1__qdense_kernel_eq_skeleton]; unfold cc1__qdense_kernel_skel
    unfold owns
    iintro ⟨⟨%f0, %hf0, H0⟩, ⟨%f1, %hf1, H1⟩, ⟨%f2, %hf2, H2⟩, ⟨%d6, %f6, -, H6⟩, ⟨%d7, %f7, -, H7⟩, Hk⟩
    obtain rfl := harg3.eq_unread hf0; obtain rfl := harg4.eq_unread hf1; obtain rfl := harg5.eq_unread hf2
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    iexists _; iexact H7

end Cert.Kernel.Gen

end
-- ==== Proof.KB.Body1.lean ====
/- Region 1: one block along the contracted axis, so every grid point clears the accumulator, adds the block product
   and stores the activated sum. The proof data: each input window's buffer keeps its block, the output window's buffer
   ends at the body's stores read back, the accumulator's contents between points are not tracked (every point
   overwrites it before reading it). The body obligation at every point is the one whole-body run. -/
import proofs.«114415_j6030134084248_2_alg».proof.Proof.KB.Run1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the staging buffers at a point, the accumulator, the windows' blocks -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x1024 .f32 := Memref.whole cc1_scratch0
/-- One staging buffer of the output window, through which its contents are stated. -/
abbrev VO1 : View sig .tc .vmem S1024x1024 .bf16 := (Memref.whole cc1_stg3_0 : Memref sig .tc .vmem S1024x1024 .bf16).view
/-- The accumulator as a view. -/
abbrev VS1 : View sig .tc .vmem S1024x1024 .f32 := scM1.view

/-- The class invariant with the accumulator taken out of the scoped rest: the accumulator owned at some contents,
    every other scoped buffer unopened, the generator register at some state. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer: the run's stores read back. -/
def out1 (c : Dev nD) (i : grid1.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c1a i) (hcb : c1b i)
    (x0 : Vec F S1024x1024 .bf16) (x1 : Vec F S1024x1024 .bf16) (x2 : Vec F S1x1024 .f32) : Vec F S1024x1024 .bf16 :=
  VO1.read (Elt F) (VO1.writes (Elt F) VO1.junk (run1 c i arg3 harg3 arg4 harg4 arg5 harg5 arg6 harg6 arg7 harg7 hca hcb x0 x1 x2).1)

/-- The body's stores into the output window tile its block, so they cover it. -/
theorem cover1 (c : Dev nD) (i : grid1.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c1a i) (hcb : c1b i)
    (x0 : Vec F S1024x1024 .bf16) (x1 : Vec F S1024x1024 .bf16) (x2 : Vec F S1x1024 .f32) (y : S1024x1024.Idx) :
    ∃ pc ∈ (run1 c i arg3 harg3 arg4 harg4 arg5 harg5 arg6 harg6 arg7 harg7 hca hcb x0 x1 x2).1, y ∈ pc.1.set :=
  View.cover_of_tiledL (run1 c i arg3 harg3 arg4 harg4 arg5 harg5 arg6 harg6 arg7 harg7 hca hcb x0 x1 x2).1 S1024x1024.size (by sl_kernel_rfl) y

/-- The proof data of region 1 on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 c (grid1.coords t) (ms1_0 t) (hs1_0 t) (ms1_1 t) (hs1_1 t) (ms1_2 t) (hs1_2 t) (ms1_3 t) (hs1_3 t) scM1 (Memref.isWhole_whole _) (hc1a t) (hc1b t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1 c (grid1.coords t) (ms1_0 t) (hs1_0 t) (ms1_1 t) (hs1_1 t) (ms1_2 t) (hs1_2 t) (ms1_3 t) (hs1_3 t) scM1 (Memref.isWhole_whole _) (hc1a t) (hc1b t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1 (c : Dev nD) (w : Fin cfg1.W) (t : Fin cfg1.N) :
    (dat1 V c).leavesExact w t = owns (c : Thread nD τ) ((cfg1.win w).stage (cfg1.slots t w)) fullShare ((dat1 V c).after w t) := by
  unfold Dat.leavesExact; rw [live1 w t]

set_option maxHeartbeats 4000000 in
/-- The body at any point: the inputs' buffers hold their blocks; the invariant hands over the accumulator at some
    contents, and takes it back at some contents; the output window's buffer ends at the run's stores read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [leaves1 V c 0 t, leaves1 V c 1 t, leaves1 V c 2 t, leaves1 V c 3 t, after1_0, after1_1, after1_2, after1_3]
  unfold out1
  iintro ⟨⟨⟨HS, Hrest⟩, Hg⟩, Ho, ⟨%d0, H0⟩, ⟨%d1, H1⟩, ⟨%d2, H2⟩, ⟨%d3, H3⟩⟩
  iapply ((run1 c (grid1.coords t) _ _ _ _ _ _ _ _ _ _ (hc1a t) (hc1b t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Gen

end
-- ==== Proof.KB.Conds2.lean ====
/- Region 2 (2 blocks along the contracted axis): the body's two conditionals, on the position along the
   contracted axis (the last grid coordinate, which advances fastest), in closed form over the grid; where the output window is
   idle and where it is written back. -/
import proofs.«114415_j6030134084248_2_alg».proof.Proof.Gen.Kernel.Launch
import proofs.«114415_j6030134084248_2_alg».proof.Proof.Gen.Kernel.Skeleton
import proofs.«114415_j6030134084248_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the position along the contracted axis is 0. -/
abbrev c2a (i : grid2.Coords) : Prop := (Scalar.cmpi .ne (Scalar.extui (Scalar.cmpi .eq (BitVec.ofNat 32 (i 2).val) 0#32)) 0#32) = 1#1
/-- The second conditional of the body: the position along the contracted axis is the last one. -/
abbrev c2b (i : grid2.Coords) : Prop := k2_cond2 i = 1#1

theorem hc2a : ∀ t : Fin cfg2.N, c2a (grid2.coords t) ↔ t.val % 2 = 0 :=
  (by decide +kernel : ∀ t : Fin grid2.N, c2a (grid2.coords t) ↔ t.val % 2 = 0)
theorem hc2b : ∀ t : Fin cfg2.N, c2b (grid2.coords t) ↔ t.val % 2 = 1 :=
  (by decide +kernel : ∀ t : Fin grid2.N, c2b (grid2.coords t) ↔ t.val % 2 = 1)

/-- The input windows are never idle. -/
theorem live2_in : ∀ (w : Fin cfg2.W) (t : Fin cfg2.N), w.val < 3 → cfg2.idle w (grid2.coords t) = false := by decide +kernel
/-- Where the second conditional fails the output window is idle and is not written back. -/
theorem idle2_out : ∀ t : Fin cfg2.N, ¬c2b (grid2.coords t) → cfg2.idle 3 (grid2.coords t) = true := by decide +kernel
theorem noflush2_out : ∀ t : Fin cfg2.N, ¬c2b (grid2.coords t) → (cfg2.win 3).flush t = false := by decide +kernel
/-- Where it holds the output window is live. -/
theorem live2_out : ∀ t : Fin cfg2.N, c2b (grid2.coords t) → cfg2.idle 3 (grid2.coords t) = false := by decide +kernel

end Cert.Kernel.Gen

end
-- ==== Proof.KB.Run2A.lean ====
/- Region 2, the first position along the contracted axis: the accumulator is cleared, the block product added; nothing is stored into the output window. The body run once on arbitrary whole staging
   buffers; the stores it ends with are found by the run. -/
import proofs.«114415_j6030134084248_2_alg».proof.Proof.KB.Conds2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run2A (c : Dev nD) (i : grid2.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c2a i) (hcb : ¬c2b i)
    (x0 : Vec F S1024x1024 .bf16) (x1 : Vec F S1024x1024 .bf16) (x2 : Vec F S1x1024 .f32) :
    Σ' (L3 : List (View.Piece (Elt F) S1024x1024 .bf16)), { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc2__qdense_kernel i arg3 harg3 arg4 harg4 arg5 harg5 arg6 harg6 arg7 harg7) K } := by
  refine ⟨[], ?_, fun xi E K => ?run⟩
  case run =>
    simp only [cc2__qdense_kernel_eq_skeleton]; unfold cc2__qdense_kernel_skel
    unfold owns
    iintro ⟨⟨%f0, %hf0, H0⟩, ⟨%f1, %hf1, H1⟩, ⟨%f2, %hf2, H2⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf6
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    iexists _; iexact H7

end Cert.Kernel.Gen

end
-- ==== Proof.KB.Run2C.lean ====
/- Region 2, the last position along the contracted axis: the block product is added to the accumulator the point before left and the sum with the bias is stored into the output window. The body run once on arbitrary whole staging
   buffers; the stores it ends with are found by the run. -/
import proofs.«114415_j6030134084248_2_alg».proof.Proof.KB.Run2A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run2C (c : Dev nD) (i : grid2.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i)
    (x0 : Vec F S1024x1024 .bf16) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc2__qdense_kernel i arg3 harg3 arg4 harg4 arg5 harg5 arg6 harg6 arg7 harg7) K } := by
  refine ⟨?_, ?_, fun E K => ?run⟩
  case run =>
    simp only [cc2__qdense_kernel_eq_skeleton]; unfold cc2__qdense_kernel_skel
    unfold owns
    iintro ⟨⟨%f0, %hf0, H0⟩, ⟨%f1, %hf1, H1⟩, ⟨%f2, %hf2, H2⟩, ⟨%d6, %f6, -, H6⟩, ⟨%f7, %hf7, H7⟩, Hk⟩
    obtain rfl := harg3.eq_unread hf0; obtain rfl := harg4.eq_unread hf1; obtain rfl := harg5.eq_unread hf2; obtain rfl := harg7.eq_unread hf7
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    iexists _; iexact H7

end Cert.Kernel.Gen

end
-- ==== Proof.KB.Body2.lean ====
/- Region 2: 2 blocks along the contracted axis. The accumulator is carried from one grid point to the next within a
   run of 2 points: cleared and first added to at the run's first point, added to at the later ones, and at the last
   one added to the bias, activated and stored into the output window, which is idle (left as found, not written back) at the other points.
   The proof data name the accumulator's contents after every point by recursion on the point; the invariant between points
   holds the accumulator at those contents. The body obligation at a point is the whole-body run of the point's case. -/
import proofs.«114415_j6030134084248_2_alg».proof.Proof.KB.Run2C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2: the staging buffers at a point, the accumulator, the windows' blocks -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2 : Memref sig .tc .vmem S1024x1024 .f32 := Memref.whole cc2_scratch0
/-- One staging buffer of the output window, through which its contents are stated. -/
abbrev VO2 : View sig .tc .vmem S1024x1024 .bf16 := (Memref.whole cc2_stg3_0 : Memref sig .tc .vmem S1024x1024 .bf16).view
/-- The accumulator as a view. -/
abbrev VS2 : View sig .tc .vmem S1024x1024 .f32 := scM2.view

/-- The class invariant with the accumulator taken out of the scoped rest: the accumulator owned at some contents,
    every other scoped buffer unopened, the generator register at some state. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the accumulator holds after a point of case A: the run's stores read back. -/
def sA2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c2a i) (hcb : ¬c2b i) (x0 : Vec F S1024x1024 .bf16) (x1 : Vec F S1024x1024 .bf16) (x2 : Vec F S1x1024 .f32) : Vec F S1024x1024 .f32 :=
  VS2.read (Elt F) (VS2.writes (Elt F) VS2.junk (run2A c i arg3 harg3 arg4 harg4 arg5 harg5 arg6 harg6 arg7 harg7 hca hcb x0 x1 x2).2.1)
theorem scoverA2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c2a i) (hcb : ¬c2b i) (x0 : Vec F S1024x1024 .bf16) (x1 : Vec F S1024x1024 .bf16) (x2 : Vec F S1x1024 .f32) (y : S1024x1024.Idx) :
    ∃ pc ∈ (run2A c i arg3 harg3 arg4 harg4 arg5 harg5 arg6 harg6 arg7 harg7 hca hcb x0 x1 x2).2.1, y ∈ pc.1.set :=
  View.cover_of_tiledL (run2A c i arg3 harg3 arg4 harg4 arg5 harg5 arg6 harg6 arg7 harg7 hca hcb x0 x1 x2).2.1 S1024x1024.size (by sl_kernel_rfl) y

/-- What the accumulator holds after a point of case C: the run's stores read back. -/
def sC2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) : Vec F S1024x1024 .f32 :=
  VS2.read (Elt F) (VS2.writes (Elt F) VS2.junk (run2C c i arg3 harg3 arg4 harg4 arg5 harg5 arg6 harg6 arg7 harg7 hca hcb x0 x1 x2 xs).2.1)
theorem scoverC2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) (y : S1024x1024.Idx) :
    ∃ pc ∈ (run2C c i arg3 harg3 arg4 harg4 arg5 harg5 arg6 harg6 arg7 harg7 hca hcb x0 x1 x2 xs).2.1, y ∈ pc.1.set :=
  View.cover_of_tiledL (run2C c i arg3 harg3 arg4 harg4 arg5 harg5 arg6 harg6 arg7 harg7 hca hcb x0 x1 x2 xs).2.1 S1024x1024.size (by sl_kernel_rfl) y

/-- What the output window's buffer holds after a point of the last case: the run's stores read back. -/
def outC2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) : Vec F S1024x1024 .bf16 :=
  VO2.read (Elt F) (VO2.writes (Elt F) VO2.junk (run2C c i arg3 harg3 arg4 harg4 arg5 harg5 arg6 harg6 arg7 harg7 hca hcb x0 x1 x2 xs).1)
theorem coverC2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) (y : S1024x1024.Idx) :
    ∃ pc ∈ (run2C c i arg3 harg3 arg4 harg4 arg5 harg5 arg6 harg6 arg7 harg7 hca hcb x0 x1 x2 xs).1, y ∈ pc.1.set :=
  View.cover_of_tiledL (run2C c i arg3 harg3 arg4 harg4 arg5 harg5 arg6 harg6 arg7 harg7 hca hcb x0 x1 x2 xs).1 S1024x1024.size (by sl_kernel_rfl) y

/-- THE ACCUMULATION: what the accumulator holds after the body at position `n`. -/
def accAt2 (c : Dev nD) : (n : ℕ) → n < cfg2.N → Vec F S1024x1024 .f32
  | 0, hn => sA2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hc2a ⟨0, hn⟩).mpr (Nat.zero_mod _)) (fun h => absurd (show 0 % 2 = 1 from (hc2b ⟨0, hn⟩).mp h) (by decide)) (iblk2 V c 0 ⟨0, hn⟩) (iblk2 V c 1 ⟨0, hn⟩) (iblk2 V c 2 ⟨0, hn⟩)
  | n + 1, hn =>
      if h0 : (n + 1) % 2 = 0 then
        sA2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hc2a ⟨n + 1, hn⟩).mpr h0) (fun h => by have h' : (n + 1) % 2 = 1 := (hc2b ⟨n + 1, hn⟩).mp h; omega) (iblk2 V c 0 ⟨n + 1, hn⟩) (iblk2 V c 1 ⟨n + 1, hn⟩) (iblk2 V c 2 ⟨n + 1, hn⟩)
      else
        sC2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hc2a ⟨n + 1, hn⟩).mp h)) ((hc2b ⟨n + 1, hn⟩).mpr (show (n + 1) % 2 = 1 by omega)) (iblk2 V c 0 ⟨n + 1, hn⟩) (iblk2 V c 1 ⟨n + 1, hn⟩) (iblk2 V c 2 ⟨n + 1, hn⟩) (accAt2 c n (Nat.lt_of_succ_lt hn))

theorem accAt2_A (c : Dev nD) (t : Fin cfg2.N) (h0 : t.val % 2 = 0) :
    accAt2 V c t.val t.isLt = sA2 c (grid2.coords t) (ms2_0 t) (hs2_0 t) (ms2_1 t) (hs2_1 t) (ms2_2 t) (hs2_2 t) (ms2_3 t) (hs2_3 t) scM2 (Memref.isWhole_whole _) ((hc2a t).mpr h0) (fun h => by have h' := (hc2b t).mp h; omega) (iblk2 V c 0 t) (iblk2 V c 1 t) (iblk2 V c 2 t) := by
  obtain ⟨n, hn⟩ := t
  cases n with
  | zero => exact rfl
  | succ n => exact (dif_pos h0).trans rfl

theorem accAt2_C (c : Dev nD) (t : Fin cfg2.N) (h0 : ¬t.val % 2 = 0) :
    accAt2 V c t.val t.isLt = sC2 c (grid2.coords t) (ms2_0 t) (hs2_0 t) (ms2_1 t) (hs2_1 t) (ms2_2 t) (hs2_2 t) (ms2_3 t) (hs2_3 t) scM2 (Memref.isWhole_whole _) (fun h => h0 ((hc2a t).mp h)) ((hc2b t).mpr (by omega)) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The invariant before position `n`: before the first point the class's (the accumulator at anything); afterwards the
    accumulator at what the point before left, every other scoped buffer unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of region 2 on core `c`, at the entry contents `V`: each input window's buffer keeps its block; the
    output window's buffer at a point of the last case holds that case's stores read back (elsewhere the field is not consulted:
    the window is idle there); the invariant holds the accumulator at what the point before left. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => if h1 : t.val % 2 = 1 then
        outC2 c (grid2.coords t) (ms2_0 t) (hs2_0 t) (ms2_1 t) (hs2_1 t) (ms2_2 t) (hs2_2 t) (ms2_3 t) (hs2_3 t) scM2 (Memref.isWhole_whole _) (fun h => by have h' := (hc2a t).mp h; omega) ((hc2b t).mpr h1) (iblk2 V c 0 t) (iblk2 V c 1 t) (iblk2 V c 2 t) (accAt2 V c (t.val - 1) (Nat.lt_of_le_of_lt (Nat.sub_le _ _) t.isLt))
      else VO2.read (Elt F) VO2.junk
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t
    = if h1 : t.val % 2 = 1 then
        outC2 c (grid2.coords t) (ms2_0 t) (hs2_0 t) (ms2_1 t) (hs2_1 t) (ms2_2 t) (hs2_2 t) (ms2_3 t) (hs2_3 t) scM2 (Memref.isWhole_whole _) (fun h => by have h' := (hc2a t).mp h; omega) ((hc2b t).mpr h1) (iblk2 V c 0 t) (iblk2 V c 1 t) (iblk2 V c 2 t) (accAt2 V c (t.val - 1) (Nat.lt_of_le_of_lt (Nat.sub_le _ _) t.isLt))
      else VO2.read (Elt F) VO2.junk := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_in (c : Dev nD) (w : Fin cfg2.W) (hw : w.val < 3) (t : Fin cfg2.N) :
    (dat2 V c).leavesExact w t = owns (c : Thread nD τ) ((cfg2.win w).stage (cfg2.slots t w)) fullShare ((dat2 V c).after w t) := by
  unfold Dat.leavesExact; rw [live2_in w t hw]
theorem leaves2_live (c : Dev nD) (t : Fin cfg2.N) (h : c2b (grid2.coords t)) :
    (dat2 V c).leavesExact 3 t = owns (c : Thread nD τ) (ms2_3 t) fullShare ((dat2 V c).after 3 t) := by
  unfold Dat.leavesExact; rw [live2_out t h]
theorem leaves2_idle (c : Dev nD) (t : Fin cfg2.N) (h : ¬c2b (grid2.coords t)) :
    (dat2 V c).leavesExact 3 t = iprop(∃ d, owns (c : Thread nD τ) (ms2_3 t) fullShare ((dat2 V c).before 3 t d)) :=
  Dat.leavesExact_idle (dat2 V c) 3 t (idle2_out t h) (noflush2_out t h)

set_option maxHeartbeats 8000000 in
/-- The body at any point: the inputs' buffers hold their blocks; the position along the contracted axis says which case the
    point is in; the invariant hands over the accumulator at what the point before left (at anything before the first point)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_in V c 0 (by decide) t, leaves2_in V c 1 (by decide) t, leaves2_in V c 2 (by decide) t, after2_0, after2_1, after2_2]
  have hN : t.val < 64 := lt_of_lt_of_eq t.isLt (show cfg2.N = 64 from N_2)
  by_cases h0 : t.val % 2 = 0
  · rw [leaves2_idle V c t (fun h => by have h' := (hc2b t).mp h; omega)]
    rw [accAt2_A V c t h0]
    unfold sA2; (try dsimp only)
    have hrun := (run2A c (grid2.coords t) (ms2_0 t) (hs2_0 t) (ms2_1 t) (hs2_1 t) (ms2_2 t) (hs2_2 t) (ms2_3 t) (hs2_3 t) scM2 (Memref.isWhole_whole _) ((hc2a t).mpr h0) (fun h => by have h' := (hc2b t).mp h; omega) (iblk2 V c 0 t) (iblk2 V c 1 t) (iblk2 V c 2 t)).2.2
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverA2 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverA2 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [leaves2_live V c t ((hc2b t).mpr h1), after2_3, dif_pos h1]
    rw [accAt2_C V c t h0]
    unfold outC2 sC2; (try dsimp only)
    have hz : t.val ≠ 0 := fun e => h0 (by rw [e])
    rw [PhiS2_castSucc V c t, PhiS2_pos V c _ _ hz]
    iintro ⟨⟨⟨HS, Hrest⟩, Hg⟩, Ho, ⟨%d0, H0⟩, ⟨%d1, H1⟩, ⟨%d2, H2⟩, ⟨%d3, H3⟩⟩
    iapply ((run2C c (grid2.coords t) (ms2_0 t) (hs2_0 t) (ms2_1 t) (hs2_1 t) (ms2_2 t) (hs2_2 t) (ms2_3 t) (hs2_3 t) scM2 (Memref.isWhole_whole _) (fun h => h0 ((hc2a t).mp h)) ((hc2b t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scoverC2 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverC2 c _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, Hrest⟩, Hg⟩
  isplitl [HS Hrest]
  · isplitl [HS]
    · iexists _; iexact HS
    iexact Hrest
  iexact Hg

end

end Cert.Kernel.Gen

end
-- ==== Proof.KB.Conds3.lean ====
/- Region 3 (4 blocks along the contracted axis): the body's two conditionals, on the position along the
   contracted axis (the last grid coordinate, which advances fastest), in closed form over the grid; where the output window is
   idle and where it is written back. -/
import proofs.«114415_j6030134084248_2_alg».proof.Proof.Gen.Kernel.Launch
import proofs.«114415_j6030134084248_2_alg».proof.Proof.Gen.Kernel.Skeleton
import proofs.«114415_j6030134084248_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the position along the contracted axis is 0. -/
abbrev c3a (i : grid3.Coords) : Prop := (Scalar.cmpi .ne (Scalar.extui (Scalar.cmpi .eq (BitVec.ofNat 32 (i 2).val) 0#32)) 0#32) = 1#1
/-- The second conditional of the body: the position along the contracted axis is the last one. -/
abbrev c3b (i : grid3.Coords) : Prop := k3_cond2 i = 1#1

theorem hc3a : ∀ t : Fin cfg3.N, c3a (grid3.coords t) ↔ t.val % 4 = 0 :=
  (by decide +kernel : ∀ t : Fin grid3.N, c3a (grid3.coords t) ↔ t.val % 4 = 0)
theorem hc3b : ∀ t : Fin cfg3.N, c3b (grid3.coords t) ↔ t.val % 4 = 3 :=
  (by decide +kernel : ∀ t : Fin grid3.N, c3b (grid3.coords t) ↔ t.val % 4 = 3)

/-- The input windows are never idle. -/
theorem live3_in : ∀ (w : Fin cfg3.W) (t : Fin cfg3.N), w.val < 3 → cfg3.idle w (grid3.coords t) = false := by decide +kernel
/-- Where the second conditional fails the output window is idle and is not written back. -/
theorem idle3_out : ∀ t : Fin cfg3.N, ¬c3b (grid3.coords t) → cfg3.idle 3 (grid3.coords t) = true := by decide +kernel
theorem noflush3_out : ∀ t : Fin cfg3.N, ¬c3b (grid3.coords t) → (cfg3.win 3).flush t = false := by decide +kernel
/-- Where it holds the output window is live. -/
theorem live3_out : ∀ t : Fin cfg3.N, c3b (grid3.coords t) → cfg3.idle 3 (grid3.coords t) = false := by decide +kernel

end Cert.Kernel.Gen

end
-- ==== Proof.KB.Run3A.lean ====
/- Region 3, the first position along the contracted axis: the accumulator is cleared, the block product added; nothing is stored into the output window. The body run once on arbitrary whole staging
   buffers; the stores it ends with are found by the run. -/
import proofs.«114415_j6030134084248_2_alg».proof.Proof.KB.Conds3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run3A (c : Dev nD) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : c3a i) (hcb : ¬c3b i)
    (x0 : Vec F S1024x1024 .bf16) (x1 : Vec F S1024x1024 .bf16) (x2 : Vec F S1x1024 .f32) :
    Σ' (L3 : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc3__qdense_kernel i arg3 harg3 arg4 harg4 arg5 harg5 arg6 harg6 arg7 harg7) K } := by
  refine ⟨[], ?_, fun xi E K => ?run⟩
  case run =>
    simp only [cc3__qdense_kernel_eq_skeleton]; unfold cc3__qdense_kernel_skel
    unfold owns
    iintro ⟨⟨%f0, %hf0, H0⟩, ⟨%f1, %hf1, H1⟩, ⟨%f2, %hf2, H2⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf6
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    iexists _; iexact H7

end Cert.Kernel.Gen

end
-- ==== Proof.KB.Run3B.lean ====
/- Region 3, a middle position along the contracted axis: the block product is added to the accumulator the point before left; nothing is stored into the output window. The body run once on arbitrary whole staging
   buffers; the stores it ends with are found by the run. -/
import proofs.«114415_j6030134084248_2_alg».proof.Proof.KB.Run3A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run3B (c : Dev nD) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : ¬c3b i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc3__qdense_kernel i arg3 harg3 arg4 harg4 arg5 harg5 arg6 harg6 arg7 harg7) K } := by
  refine ⟨[], ?_, fun xi E K => ?run⟩
  case run =>
    simp only [cc3__qdense_kernel_eq_skeleton]; unfold cc3__qdense_kernel_skel
    unfold owns
    iintro ⟨⟨%f0, %hf0, H0⟩, ⟨%f1, %hf1, H1⟩, ⟨%f2, %hf2, H2⟩, ⟨%f6, %hf6, H6⟩, ⟨%f7, %hf7, H7⟩, Hk⟩
    obtain rfl := harg3.eq_unread hf0; obtain rfl := harg4.eq_unread hf1; obtain rfl := harg5.eq_unread hf2; obtain rfl := harg6.eq_unread hf6; obtain rfl := harg7.eq_unread hf7
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    iexists _; iexact H7

end Cert.Kernel.Gen

end
-- ==== Proof.KB.Run3C.lean ====
/- Region 3, the last position along the contracted axis: the block product is added to the accumulator the point before left and the sum with the bias is stored into the output window. The body run once on arbitrary whole staging
   buffers; the stores it ends with are found by the run. -/
import proofs.«114415_j6030134084248_2_alg».proof.Proof.KB.Run3B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run3C (c : Dev nD) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc3__qdense_kernel i arg3 harg3 arg4 harg4 arg5 harg5 arg6 harg6 arg7 harg7) K } := by
  refine ⟨?_, ?_, fun E K => ?run⟩
  case run =>
    simp only [cc3__qdense_kernel_eq_skeleton]; unfold cc3__qdense_kernel_skel
    unfold owns
    iintro ⟨⟨%f0, %hf0, H0⟩, ⟨%f1, %hf1, H1⟩, ⟨%f2, %hf2, H2⟩, ⟨%d6, %f6, -, H6⟩, ⟨%f7, %hf7, H7⟩, Hk⟩
    obtain rfl := harg3.eq_unread hf0; obtain rfl := harg4.eq_unread hf1; obtain rfl := harg5.eq_unread hf2; obtain rfl := harg7.eq_unread hf7
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    iexists _; iexact H7

end Cert.Kernel.Gen

end
-- ==== Proof.KB.Body3.lean ====
/- Region 3: 4 blocks along the contracted axis. The accumulator is carried from one grid point to the next within a
   run of 4 points: cleared and first added to at the run's first point, added to at the later ones, and at the last
   one added to the bias and stored into the output window, which is idle (left as found, not written back) at the other points.
   The proof data name the accumulator's contents after every point by recursion on the point; the invariant between points
   holds the accumulator at those contents. The body obligation at a point is the whole-body run of the point's case. -/
import proofs.«114415_j6030134084248_2_alg».proof.Proof.KB.Run3C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3: the staging buffers at a point, the accumulator, the windows' blocks -/

abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3 : Memref sig .tc .vmem S1024x1024 .f32 := Memref.whole cc3_scratch0
/-- One staging buffer of the output window, through which its contents are stated. -/
abbrev VO3 : View sig .tc .vmem S1024x1024 .f32 := (Memref.whole cc3_stg3_0 : Memref sig .tc .vmem S1024x1024 .f32).view
/-- The accumulator as a view. -/
abbrev VS3 : View sig .tc .vmem S1024x1024 .f32 := scM3.view

/-- The class invariant with the accumulator taken out of the scoped rest: the accumulator owned at some contents,
    every other scoped buffer unopened, the generator register at some state. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- What the accumulator holds after a point of case A: the run's stores read back. -/
def sA3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : c3a i) (hcb : ¬c3b i) (x0 : Vec F S1024x1024 .bf16) (x1 : Vec F S1024x1024 .bf16) (x2 : Vec F S1x1024 .f32) : Vec F S1024x1024 .f32 :=
  VS3.read (Elt F) (VS3.writes (Elt F) VS3.junk (run3A c i arg3 harg3 arg4 harg4 arg5 harg5 arg6 harg6 arg7 harg7 hca hcb x0 x1 x2).2.1)
theorem scoverA3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : c3a i) (hcb : ¬c3b i) (x0 : Vec F S1024x1024 .bf16) (x1 : Vec F S1024x1024 .bf16) (x2 : Vec F S1x1024 .f32) (y : S1024x1024.Idx) :
    ∃ pc ∈ (run3A c i arg3 harg3 arg4 harg4 arg5 harg5 arg6 harg6 arg7 harg7 hca hcb x0 x1 x2).2.1, y ∈ pc.1.set :=
  View.cover_of_tiledL (run3A c i arg3 harg3 arg4 harg4 arg5 harg5 arg6 harg6 arg7 harg7 hca hcb x0 x1 x2).2.1 S1024x1024.size (by sl_kernel_rfl) y

/-- What the accumulator holds after a point of case B: the run's stores read back. -/
def sB3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : ¬c3b i) (x0 : Vec F S1024x1024 .bf16) (x1 : Vec F S1024x1024 .bf16) (x2 : Vec F S1x1024 .f32) (xs : Vec F S1024x1024 .f32) : Vec F S1024x1024 .f32 :=
  VS3.read (Elt F) (VS3.writes (Elt F) VS3.junk (run3B c i arg3 harg3 arg4 harg4 arg5 harg5 arg6 harg6 arg7 harg7 hca hcb x0 x1 x2 xs).2.1)
theorem scoverB3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : ¬c3b i) (x0 : Vec F S1024x1024 .bf16) (x1 : Vec F S1024x1024 .bf16) (x2 : Vec F S1x1024 .f32) (xs : Vec F S1024x1024 .f32) (y : S1024x1024.Idx) :
    ∃ pc ∈ (run3B c i arg3 harg3 arg4 harg4 arg5 harg5 arg6 harg6 arg7 harg7 hca hcb x0 x1 x2 xs).2.1, y ∈ pc.1.set :=
  View.cover_of_tiledL (run3B c i arg3 harg3 arg4 harg4 arg5 harg5 arg6 harg6 arg7 harg7 hca hcb x0 x1 x2 xs).2.1 S1024x1024.size (by sl_kernel_rfl) y

/-- What the accumulator holds after a point of case C: the run's stores read back. -/
def sC3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) : Vec F S1024x1024 .f32 :=
  VS3.read (Elt F) (VS3.writes (Elt F) VS3.junk (run3C c i arg3 harg3 arg4 harg4 arg5 harg5 arg6 harg6 arg7 harg7 hca hcb x0 x1 x2 xs).2.1)
theorem scoverC3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) (y : S1024x1024.Idx) :
    ∃ pc ∈ (run3C c i arg3 harg3 arg4 harg4 arg5 harg5 arg6 harg6 arg7 harg7 hca hcb x0 x1 x2 xs).2.1, y ∈ pc.1.set :=
  View.cover_of_tiledL (run3C c i arg3 harg3 arg4 harg4 arg5 harg5 arg6 harg6 arg7 harg7 hca hcb x0 x1 x2 xs).2.1 S1024x1024.size (by sl_kernel_rfl) y

/-- What the output window's buffer holds after a point of the last case: the run's stores read back. -/
def outC3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) : Vec F S1024x1024 .f32 :=
  VO3.read (Elt F) (VO3.writes (Elt F) VO3.junk (run3C c i arg3 harg3 arg4 harg4 arg5 harg5 arg6 harg6 arg7 harg7 hca hcb x0 x1 x2 xs).1)
theorem coverC3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) (y : S1024x1024.Idx) :
    ∃ pc ∈ (run3C c i arg3 harg3 arg4 harg4 arg5 harg5 arg6 harg6 arg7 harg7 hca hcb x0 x1 x2 xs).1, y ∈ pc.1.set :=
  View.cover_of_tiledL (run3C c i arg3 harg3 arg4 harg4 arg5 harg5 arg6 harg6 arg7 harg7 hca hcb x0 x1 x2 xs).1 S1024x1024.size (by sl_kernel_rfl) y

/-- THE ACCUMULATION: what the accumulator holds after the body at position `n`. -/
def accAt3 (c : Dev nD) : (n : ℕ) → n < cfg3.N → Vec F S1024x1024 .f32
  | 0, hn => sA3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hc3a ⟨0, hn⟩).mpr (Nat.zero_mod _)) (fun h => absurd (show 0 % 4 = 3 from (hc3b ⟨0, hn⟩).mp h) (by decide)) (iblk3 V c 0 ⟨0, hn⟩) (iblk3 V c 1 ⟨0, hn⟩) (iblk3 V c 2 ⟨0, hn⟩)
  | n + 1, hn =>
      if h0 : (n + 1) % 4 = 0 then
        sA3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hc3a ⟨n + 1, hn⟩).mpr h0) (fun h => by have h' : (n + 1) % 4 = 3 := (hc3b ⟨n + 1, hn⟩).mp h; omega) (iblk3 V c 0 ⟨n + 1, hn⟩) (iblk3 V c 1 ⟨n + 1, hn⟩) (iblk3 V c 2 ⟨n + 1, hn⟩)
      else if h1 : (n + 1) % 4 = 3 then
        sC3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hc3a ⟨n + 1, hn⟩).mp h)) ((hc3b ⟨n + 1, hn⟩).mpr h1) (iblk3 V c 0 ⟨n + 1, hn⟩) (iblk3 V c 1 ⟨n + 1, hn⟩) (iblk3 V c 2 ⟨n + 1, hn⟩) (accAt3 c n (Nat.lt_of_succ_lt hn))
      else
        sB3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hc3a ⟨n + 1, hn⟩).mp h)) (fun h => h1 ((hc3b ⟨n + 1, hn⟩).mp h)) (iblk3 V c 0 ⟨n + 1, hn⟩) (iblk3 V c 1 ⟨n + 1, hn⟩) (iblk3 V c 2 ⟨n + 1, hn⟩) (accAt3 c n (Nat.lt_of_succ_lt hn))

theorem accAt3_A (c : Dev nD) (t : Fin cfg3.N) (h0 : t.val % 4 = 0) :
    accAt3 V c t.val t.isLt = sA3 c (grid3.coords t) (ms3_0 t) (hs3_0 t) (ms3_1 t) (hs3_1 t) (ms3_2 t) (hs3_2 t) (ms3_3 t) (hs3_3 t) scM3 (Memref.isWhole_whole _) ((hc3a t).mpr h0) (fun h => by have h' := (hc3b t).mp h; omega) (iblk3 V c 0 t) (iblk3 V c 1 t) (iblk3 V c 2 t) := by
  obtain ⟨n, hn⟩ := t
  cases n with
  | zero => exact rfl
  | succ n => exact (dif_pos h0).trans rfl

theorem accAt3_B (c : Dev nD) (t : Fin cfg3.N) (h0 : ¬t.val % 4 = 0) (h1 : ¬t.val % 4 = 3) :
    accAt3 V c t.val t.isLt = sB3 c (grid3.coords t) (ms3_0 t) (hs3_0 t) (ms3_1 t) (hs3_1 t) (ms3_2 t) (hs3_2 t) (ms3_3 t) (hs3_3 t) scM3 (Memref.isWhole_whole _) (fun h => h0 ((hc3a t).mp h)) (fun h => h1 ((hc3b t).mp h)) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem accAt3_C (c : Dev nD) (t : Fin cfg3.N) (h0 : ¬t.val % 4 = 0) (h1 : t.val % 4 = 3) :
    accAt3 V c t.val t.isLt = sC3 c (grid3.coords t) (ms3_0 t) (hs3_0 t) (ms3_1 t) (hs3_1 t) (ms3_2 t) (hs3_2 t) (ms3_3 t) (hs3_3 t) scM3 (Memref.isWhole_whole _) (fun h => h0 ((hc3a t).mp h)) ((hc3b t).mpr h1) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The invariant before position `n`: before the first point the class's (the accumulator at anything); afterwards the
    accumulator at what the point before left, every other scoped buffer unopened, the generator register at some state. -/
def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of region 3 on core `c`, at the entry contents `V`: each input window's buffer keeps its block; the
    output window's buffer at a point of the last case holds that case's stores read back (elsewhere the field is not consulted:
    the window is idle there); the invariant holds the accumulator at what the point before left. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => if h1 : t.val % 4 = 3 then
        outC3 c (grid3.coords t) (ms3_0 t) (hs3_0 t) (ms3_1 t) (hs3_1 t) (ms3_2 t) (hs3_2 t) (ms3_3 t) (hs3_3 t) scM3 (Memref.isWhole_whole _) (fun h => by have h' := (hc3a t).mp h; omega) ((hc3b t).mpr h1) (iblk3 V c 0 t) (iblk3 V c 1 t) (iblk3 V c 2 t) (accAt3 V c (t.val - 1) (Nat.lt_of_le_of_lt (Nat.sub_le _ _) t.isLt))
      else VO3.read (Elt F) VO3.junk
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t
    = if h1 : t.val % 4 = 3 then
        outC3 c (grid3.coords t) (ms3_0 t) (hs3_0 t) (ms3_1 t) (hs3_1 t) (ms3_2 t) (hs3_2 t) (ms3_3 t) (hs3_3 t) scM3 (Memref.isWhole_whole _) (fun h => by have h' := (hc3a t).mp h; omega) ((hc3b t).mpr h1) (iblk3 V c 0 t) (iblk3 V c 1 t) (iblk3 V c 2 t) (accAt3 V c (t.val - 1) (Nat.lt_of_le_of_lt (Nat.sub_le _ _) t.isLt))
      else VO3.read (Elt F) VO3.junk := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_in (c : Dev nD) (w : Fin cfg3.W) (hw : w.val < 3) (t : Fin cfg3.N) :
    (dat3 V c).leavesExact w t = owns (c : Thread nD τ) ((cfg3.win w).stage (cfg3.slots t w)) fullShare ((dat3 V c).after w t) := by
  unfold Dat.leavesExact; rw [live3_in w t hw]
theorem leaves3_live (c : Dev nD) (t : Fin cfg3.N) (h : c3b (grid3.coords t)) :
    (dat3 V c).leavesExact 3 t = owns (c : Thread nD τ) (ms3_3 t) fullShare ((dat3 V c).after 3 t) := by
  unfold Dat.leavesExact; rw [live3_out t h]
theorem leaves3_idle (c : Dev nD) (t : Fin cfg3.N) (h : ¬c3b (grid3.coords t)) :
    (dat3 V c).leavesExact 3 t = iprop(∃ d, owns (c : Thread nD τ) (ms3_3 t) fullShare ((dat3 V c).before 3 t d)) :=
  Dat.leavesExact_idle (dat3 V c) 3 t (idle3_out t h) (noflush3_out t h)

set_option maxHeartbeats 8000000 in
/-- The body at any point: the inputs' buffers hold their blocks; the position along the contracted axis says which case the
    point is in; the invariant hands over the accumulator at what the point before left (at anything before the first point)
    and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_in V c 0 (by decide) t, leaves3_in V c 1 (by decide) t, leaves3_in V c 2 (by decide) t, after3_0, after3_1, after3_2]
  have hN : t.val < 128 := lt_of_lt_of_eq t.isLt (show cfg3.N = 128 from N_3)
  by_cases h0 : t.val % 4 = 0
  · rw [leaves3_idle V c t (fun h => by have h' := (hc3b t).mp h; omega)]
    rw [accAt3_A V c t h0]
    unfold sA3; (try dsimp only)
    have hrun := (run3A c (grid3.coords t) (ms3_0 t) (hs3_0 t) (ms3_1 t) (hs3_1 t) (ms3_2 t) (hs3_2 t) (ms3_3 t) (hs3_3 t) scM3 (Memref.isWhole_whole _) ((hc3a t).mpr h0) (fun h => by have h' := (hc3b t).mp h; omega) (iblk3 V c 0 t) (iblk3 V c 1 t) (iblk3 V c 2 t)).2.2
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverA3 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverA3 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · by_cases h1 : t.val % 4 = 3
    · rw [leaves3_live V c t ((hc3b t).mpr h1), after3_3, dif_pos h1]
      rw [accAt3_C V c t h0 h1]
      unfold outC3 sC3; (try dsimp only)
      have hz : t.val ≠ 0 := fun e => h0 (by rw [e])
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((run3C c (grid3.coords t) (ms3_0 t) (hs3_0 t) (ms3_1 t) (hs3_1 t) (ms3_2 t) (hs3_2 t) (ms3_3 t) (hs3_3 t) scM3 (Memref.isWhole_whole _) (fun h => h0 ((hc3a t).mp h)) ((hc3b t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC3 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC3 c _ _ _ _ _ _ _ _ _ _ _ _ _ _ _ _ _)
    · rw [leaves3_idle V c t (fun h => h1 ((hc3b t).mp h))]
      rw [accAt3_B V c t h0 h1]
      unfold sB3; (try dsimp only)
      have hz : t.val ≠ 0 := fun e => h0 (by rw [e])
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((run3B c (grid3.coords t) (ms3_0 t) (hs3_0 t) (ms3_1 t) (hs3_1 t) (ms3_2 t) (hs3_2 t) (ms3_3 t) (hs3_3 t) scM3 (Memref.isWhole_whole _) (fun h => h0 ((hc3a t).mp h)) (fun h => h1 ((hc3b t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverB3 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 128 := N_3; omega), PhiA3_eq]
  iintro ⟨⟨HS, Hrest⟩, Hg⟩
  isplitl [HS Hrest]
  · isplitl [HS]
    · iexists _; iexact HS
    iexact Hrest
  iexact Hg

end

end Cert.Kernel.Gen

end
-- ==== Proof.KB.Frames.lean ====
/- The four regions as segments of @main, and the program's frame: every weakly fair execution terminates, nothing faults,
   the argument arrays end as launched. The contents of the unscoped buffers after a region are those before it with
   the region's one output array replaced by what its write-backs leave (each block of the output written once, at the
   last position along the contracted axis); a region's proof data are taken at the contents it is entered from. -/
import proofs.«114415_j6030134084248_2_alg».proof.Proof.KB.RegionsP
import proofs.«114415_j6030134084248_2_alg».proof.Proof.KB.Body0
import proofs.«114415_j6030134084248_2_alg».proof.Proof.KB.Body1
import proofs.«114415_j6030134084248_2_alg».proof.Proof.KB.Body2
import proofs.«114415_j6030134084248_2_alg».proof.Proof.KB.Body3
import Idealize.ShloMosaic.Lib.Pipeline.RegionsLoop

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents around the regions -/

abbrev Vr0 : (c : Dev nD) → (b : Ref sig .tc) → Buf (Elt F) ((c : Thread nD τ).loc b) := fun c b => GenP.V33 m c b
/-- What region 0 leaves in its output array. -/
def o34 (c : Dev nD) : Buf (Elt F) ((c : Thread nD τ).loc main_v52) := (dat0 (Vr0 m) c).arrAt 3 cfg0.N
abbrev Y34 (c : Dev nD) : Valuation τ sig (Elt F) := Function.update (GenP.V33 m c) main_v52 (o34 m c)
abbrev Vx0 : (c : Dev nD) → (b : Ref sig .tc) → Buf (Elt F) ((c : Thread nD τ).loc b) := fun c b => Y34 m c b
abbrev Y35 (c : Dev nD) : Valuation τ sig (Elt F) := StableHlo.after hostOps1 (Y34 m c)
abbrev Vr1 : (c : Dev nD) → (b : Ref sig .tc) → Buf (Elt F) ((c : Thread nD τ).loc b) := fun c b => Y35 m c b
def o36 (c : Dev nD) : Buf (Elt F) ((c : Thread nD τ).loc main_v54) := (dat1 (Vr1 m) c).arrAt 3 cfg1.N
abbrev Y36 (c : Dev nD) : Valuation τ sig (Elt F) := Function.update (Y35 m c) main_v54 (o36 m c)
abbrev Vx1 : (c : Dev nD) → (b : Ref sig .tc) → Buf (Elt F) ((c : Thread nD τ).loc b) := fun c b => Y36 m c b
abbrev Y37 (c : Dev nD) : Valuation τ sig (Elt F) := StableHlo.after hostOps2 (Y36 m c)
abbrev Vr2 : (c : Dev nD) → (b : Ref sig .tc) → Buf (Elt F) ((c : Thread nD τ).loc b) := fun c b => Y37 m c b
def o38 (c : Dev nD) : Buf (Elt F) ((c : Thread nD τ).loc main_v56) := (dat2 (Vr2 m) c).arrAt 3 cfg2.N
abbrev Y38 (c : Dev nD) : Valuation τ sig (Elt F) := Function.update (Y37 m c) main_v56 (o38 m c)
abbrev Vx2 : (c : Dev nD) → (b : Ref sig .tc) → Buf (Elt F) ((c : Thread nD τ).loc b) := fun c b => Y38 m c b
abbrev Y39 (c : Dev nD) : Valuation τ sig (Elt F) := StableHlo.after hostOps3 (Y38 m c)
abbrev Vr3 : (c : Dev nD) → (b : Ref sig .tc) → Buf (Elt F) ((c : Thread nD τ).loc b) := fun c b => Y39 m c b
def o40 (c : Dev nD) : Buf (Elt F) ((c : Thread nD τ).loc main_v58) := (dat3 (Vr3 m) c).arrAt 3 cfg3.N
abbrev Y40 (c : Dev nD) : Valuation τ sig (Elt F) := Function.update (Y39 m c) main_v58 (o40 m c)
abbrev Vx3 : (c : Dev nD) → (b : Ref sig .tc) → Buf (Elt F) ((c : Thread nD τ).loc b) := fun c b => Y40 m c b

/-- What the regions leave, as the family the conditional frame is stated over. -/
def outsH : GenP.Outs (F := F) := fun J r c =>
  if J = 34 then Y34 m c r else if J = 36 then Y36 m c r else if J = 38 then Y38 m c r else Y40 m c r

theorem outsH_34 (c : Dev nD) : outsH m 34 main_v52 c = o34 m c := by
  unfold outsH; rw [if_pos rfl]; exact Function.update_self _ _ _
theorem outsH_36 (c : Dev nD) : outsH m 36 main_v54 c = o36 m c := by
  unfold outsH; rw [if_neg (by decide), if_pos rfl]; exact Function.update_self _ _ _
theorem outsH_38 (c : Dev nD) : outsH m 38 main_v56 c = o38 m c := by
  unfold outsH; rw [if_neg (by decide), if_neg (by decide), if_pos rfl]; exact Function.update_self _ _ _
theorem outsH_40 (c : Dev nD) : outsH m 40 main_v58 c = o40 m c := by
  unfold outsH; rw [if_neg (by decide), if_neg (by decide), if_neg (by decide)]; exact Function.update_self _ _ _

theorem V34_eq (c : Dev nD) : GenP.V34 m (outsH m) c = Y34 m c :=
  congrArg (Function.update (GenP.V33 m c) (Proc.devRef .tc main_v52)) (outsH_34 m c)
theorem V35_eq (c : Dev nD) : GenP.V35 m (outsH m) c = Y35 m c :=
  congrArg (StableHlo.after hostOps1) (V34_eq m c)
theorem V36_eq (c : Dev nD) : GenP.V36 m (outsH m) c = Y36 m c := by
  show Function.update (GenP.V35 m (outsH m) c) (Proc.devRef .tc main_v54) (outsH m 36 main_v54 c) = _
  rw [V35_eq, outsH_36]
theorem V37_eq (c : Dev nD) : GenP.V37 m (outsH m) c = Y37 m c :=
  congrArg (StableHlo.after hostOps2) (V36_eq m c)
theorem V38_eq (c : Dev nD) : GenP.V38 m (outsH m) c = Y38 m c := by
  show Function.update (GenP.V37 m (outsH m) c) (Proc.devRef .tc main_v56) (outsH m 38 main_v56 c) = _
  rw [V37_eq, outsH_38]
theorem V39_eq (c : Dev nD) : GenP.V39 m (outsH m) c = Y39 m c :=
  congrArg (StableHlo.after hostOps3) (V38_eq m c)
theorem V40_eq (c : Dev nD) : GenP.V40 m (outsH m) c = Y40 m c := by
  show Function.update (GenP.V39 m (outsH m) c) (Proc.devRef .tc main_v58) (outsH m 40 main_v58 c) = _
  rw [V39_eq, outsH_40]

theorem Y34_self (c : Dev nD) : Y34 m c (Proc.devRef .tc main_v52) = o34 m c := Function.update_self _ _ _
theorem Y36_self (c : Dev nD) : Y36 m c (Proc.devRef .tc main_v54) = o36 m c := Function.update_self _ _ _
theorem Y38_self (c : Dev nD) : Y38 m c (Proc.devRef .tc main_v56) = o38 m c := Function.update_self _ _ _
theorem Y40_self (c : Dev nD) : Y40 m c (Proc.devRef .tc main_v58) = o40 m c := Function.update_self _ _ _

theorem hF0 (c : Dev nD) : ∀ w : Fin cfg0.W, (dat0 (Vr0 m) c).arrAt w cfg0.N = Vx0 m c (Pipeline.arrRef spec0 w) := fun
  | 0 => ((dat0 (Vr0 m) c).arrAt_in 0 rfl _).trans ((A_eq0 (Vr0 m) c 0).trans (Function.update_of_ne (StableHlo.devRef_ne_of_ne (by decide)) _ _).symm)
  | 1 => ((dat0 (Vr0 m) c).arrAt_in 1 rfl _).trans ((A_eq0 (Vr0 m) c 1).trans (Function.update_of_ne (StableHlo.devRef_ne_of_ne (by decide)) _ _).symm)
  | 2 => ((dat0 (Vr0 m) c).arrAt_in 2 rfl _).trans ((A_eq0 (Vr0 m) c 2).trans (Function.update_of_ne (StableHlo.devRef_ne_of_ne (by decide)) _ _).symm)
  | 3 => (Y34_self m c).symm
  | ⟨_ + 4, h⟩ => absurd h (Nat.not_lt.2 (Nat.le_add_left _ _))
theorem hrest0 (c : Dev nD) : ∀ b, b ∉ Finset.univ.image (Pipeline.arrRef spec0) → Vx0 m c b = Vr0 m c b :=
  fun b hb => Function.update_of_ne (StableHlo.devRef_ne_of_ne (fun e => hb (Finset.mem_image.mpr ⟨3, Finset.mem_univ _, (show Pipeline.arrRef spec0 3 = b from e.symm)⟩))) _ _

theorem hF1 (c : Dev nD) : ∀ w : Fin cfg1.W, (dat1 (Vr1 m) c).arrAt w cfg1.N = Vx1 m c (Pipeline.arrRef spec1 w) := fun
  | 0 => ((dat1 (Vr1 m) c).arrAt_in 0 rfl _).trans ((A_eq1 (Vr1 m) c 0).trans (Function.update_of_ne (StableHlo.devRef_ne_of_ne (by decide)) _ _).symm)
  | 1 => ((dat1 (Vr1 m) c).arrAt_in 1 rfl _).trans ((A_eq1 (Vr1 m) c 1).trans (Function.update_of_ne (StableHlo.devRef_ne_of_ne (by decide)) _ _).symm)
  | 2 => ((dat1 (Vr1 m) c).arrAt_in 2 rfl _).trans ((A_eq1 (Vr1 m) c 2).trans (Function.update_of_ne (StableHlo.devRef_ne_of_ne (by decide)) _ _).symm)
  | 3 => (Y36_self m c).symm
  | ⟨_ + 4, h⟩ => absurd h (Nat.not_lt.2 (Nat.le_add_left _ _))
theorem hrest1 (c : Dev nD) : ∀ b, b ∉ Finset.univ.image (Pipeline.arrRef spec1) → Vx1 m c b = Vr1 m c b :=
  fun b hb => Function.update_of_ne (StableHlo.devRef_ne_of_ne (fun e => hb (Finset.mem_image.mpr ⟨3, Finset.mem_univ _, (show Pipeline.arrRef spec1 3 = b from e.symm)⟩))) _ _

theorem hF2 (c : Dev nD) : ∀ w : Fin cfg2.W, (dat2 (Vr2 m) c).arrAt w cfg2.N = Vx2 m c (Pipeline.arrRef spec2 w) := fun
  | 0 => ((dat2 (Vr2 m) c).arrAt_in 0 rfl _).trans ((A_eq2 (Vr2 m) c 0).trans (Function.update_of_ne (StableHlo.devRef_ne_of_ne (by decide)) _ _).symm)
  | 1 => ((dat2 (Vr2 m) c).arrAt_in 1 rfl _).trans ((A_eq2 (Vr2 m) c 1).trans (Function.update_of_ne (StableHlo.devRef_ne_of_ne (by decide)) _ _).symm)
  | 2 => ((dat2 (Vr2 m) c).arrAt_in 2 rfl _).trans ((A_eq2 (Vr2 m) c 2).trans (Function.update_of_ne (StableHlo.devRef_ne_of_ne (by decide)) _ _).symm)
  | 3 => (Y38_self m c).symm
  | ⟨_ + 4, h⟩ => absurd h (Nat.not_lt.2 (Nat.le_add_left _ _))
theorem hrest2 (c : Dev nD) : ∀ b, b ∉ Finset.univ.image (Pipeline.arrRef spec2) → Vx2 m c b = Vr2 m c b :=
  fun b hb => Function.update_of_ne (StableHlo.devRef_ne_of_ne (fun e => hb (Finset.mem_image.mpr ⟨3, Finset.mem_univ _, (show Pipeline.arrRef spec2 3 = b from e.symm)⟩))) _ _

theorem hF3 (c : Dev nD) : ∀ w : Fin cfg3.W, (dat3 (Vr3 m) c).arrAt w cfg3.N = Vx3 m c (Pipeline.arrRef spec3 w) := fun
  | 0 => ((dat3 (Vr3 m) c).arrAt_in 0 rfl _).trans ((A_eq3 (Vr3 m) c 0).trans (Function.update_of_ne (StableHlo.devRef_ne_of_ne (by decide)) _ _).symm)
  | 1 => ((dat3 (Vr3 m) c).arrAt_in 1 rfl _).trans ((A_eq3 (Vr3 m) c 1).trans (Function.update_of_ne (StableHlo.devRef_ne_of_ne (by decide)) _ _).symm)
  | 2 => ((dat3 (Vr3 m) c).arrAt_in 2 rfl _).trans ((A_eq3 (Vr3 m) c 2).trans (Function.update_of_ne (StableHlo.devRef_ne_of_ne (by decide)) _ _).symm)
  | 3 => (Y40_self m c).symm
  | ⟨_ + 4, h⟩ => absurd h (Nat.not_lt.2 (Nat.le_add_left _ _))
theorem hrest3 (c : Dev nD) : ∀ b, b ∉ Finset.univ.image (Pipeline.arrRef spec3) → Vx3 m c b = Vr3 m c b :=
  fun b hb => Function.update_of_ne (StableHlo.devRef_ne_of_ne (fun e => hb (Finset.mem_image.mpr ⟨3, Finset.mem_univ _, (show Pipeline.arrRef spec3 3 = b from e.symm)⟩))) _ _

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (Vr0 m) c
  | ⟨1, _⟩ => fun c => dat1 (Vr1 m) c
  | ⟨2, _⟩ => fun c => dat2 (Vr2 m) c
  | ⟨3, _⟩ => fun c => dat3 (Vr3 m) c
/-- No core owes another anything: no level is assigned. -/
abbrev Lnone : GSem nD τ sig → Finset Unit := fun _ => ∅
abbrev lvnone : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at the contents the items before it leave, left
    with its output's array at what the pipeline's write-backs leave; the generator register into the invariant and out;
    nothing owed; no semaphore of the kernel's own. -/
def reg0 : Pipeline.RegionSeg (pcfgs (F := F)) GenP.adm (pdats m) () defs₀ Variants.none Lnone lvnone 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ Lnone lvnone 0 fun _ _ => rfl
  pre c := iprop(StableHlo.held (c : Thread nD τ) (Pipeline.ucRefs τ sig) (GenP.V33 m c) ∗ R c)
  post c := iprop(StableHlo.held (c : Thread nD τ) (Pipeline.ucRefs τ sig) (Y34 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine ((show (pdats m 0 c).Φ (Fin.last _) ⊢ Pipeline.ΦA spec0 c from .rfl)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Vr0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents the items before it leave, left
    with its output's array at what the pipeline's write-backs leave; the generator register into the invariant and out;
    nothing owed; no semaphore of the kernel's own. -/
def reg1 : Pipeline.RegionSeg (pcfgs (F := F)) GenP.adm (pdats m) () defs₀ Variants.none Lnone lvnone 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ Lnone lvnone 1 fun _ _ => rfl
  pre c := iprop(StableHlo.held (c : Thread nD τ) (Pipeline.ucRefs τ sig) (Y35 m c) ∗ R c)
  post c := iprop(StableHlo.held (c : Thread nD τ) (Pipeline.ucRefs τ sig) (Y36 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((show (pdats m 1 c).Φ (Fin.last _) ⊢ Pipeline.ΦA spec1 c from .rfl)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Vr1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents the items before it leave, left
    with its output's array at what the pipeline's write-backs leave; the generator register into the invariant and out;
    nothing owed; no semaphore of the kernel's own. -/
def reg2 : Pipeline.RegionSeg (pcfgs (F := F)) GenP.adm (pdats m) () defs₀ Variants.none Lnone lvnone 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ Lnone lvnone 2 fun _ _ => rfl
  pre c := iprop(StableHlo.held (c : Thread nD τ) (Pipeline.ucRefs τ sig) (Y37 m c) ∗ R c)
  post c := iprop(StableHlo.held (c : Thread nD τ) (Pipeline.ucRefs τ sig) (Y38 m c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine ((show (pdats m 2 c).Φ (Fin.last _) ⊢ Pipeline.ΦA spec2 c from hout2 (Vr2 m) c)).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (Vr2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents the items before it leave, left
    with its output's array at what the pipeline's write-backs leave; the generator register into the invariant and out;
    nothing owed; no semaphore of the kernel's own. -/
def reg3 : Pipeline.RegionSeg (pcfgs (F := F)) GenP.adm (pdats m) () defs₀ Variants.none Lnone lvnone 3 where
  win := launch3.win.to₀
  block_pos := launch3.block_pos
  stage_whole := launch3.stage_whole
  K := PEmpty
  osem k := k.elim
  ho := Pipeline.OwnSemFacts.none _
  hbody c := (body_obligation3 (Vr3 m) c).loose
  hwaits := Pipeline.hwaits_of_owed_zero _ _ _ _ Lnone lvnone 3 fun _ _ => rfl
  pre c := iprop(StableHlo.held (c : Thread nD τ) (Pipeline.ucRefs τ sig) (Y39 m c) ∗ R c)
  post c := iprop(StableHlo.held (c : Thread nD τ) (Pipeline.ucRefs τ sig) (Y40 m c) ∗ R c)
  X c := iprop(∃ r, prngReg c r)
  Y c := iprop(∃ r, prngReg c r)
  Z c := Pipeline.unscopedRest (Ix := Unit) (Name := ℕ) (U := UR sig nD τ) (Lvl := ℕ) spec3 c (Vr3 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine ((show (pdats m 3 c).Φ (Fin.last _) ⊢ Pipeline.ΦA spec3 c from hout3 (Vr3 m) c)).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (Vr3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

theorem hu₀H : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Per core: of what the launch deals, the generator register and the core owing nothing are kept. -/
theorem hE0c (c : Dev nD) : (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
    ⊢ (R (F := F) c : sProp 𝕄) := by
  iintro ⟨-, HO, -, Hp, -⟩
  isplitl [Hp]; · iexists _; iexact Hp
  iexists ∅; iexact HO

theorem hE0H : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lnone lvnone)
      ⊢ (|={Set.univ}=> bigSep Finset.univ (fun c : Dev nD => R (F := F) c) : sProp 𝕄) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hE0c ρ c
  iintro ⟨H, -⟩
  imodintro
  iapply hmono
  iexact H

-- the conditional frame's implicit arguments are found by unifying its conclusion with this one
set_option backward.isDefEq.respectTransparency.types false in
/-- THE FRAME at any `F`: from any memory with zero counters every weakly fair execution of @main terminates, nothing
    faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.frame_cond (m := m) (EP := emb₁) (ι := ()) (𝒱₀ := Variants.none) (L := Lnone) (lv := lvnone) (hL := fun _ _ => rfl) (ρ := ρ)
    (outs := outsH m) (pdats := pdats m) (O₀ := 0) (G := fun _ => iprop(emp))
    (u₀ := initOf (Pipeline.cells cfgs cellOf_inj) (Pipeline.launchToks cfgs cellOf_inj)) (hu₀ := hu₀H)
    (E := fun _ c => R c) (hE0 := hE0H ρ) (hE4 := fun c => by iintro ⟨-, H⟩; iexact H)
    (R0 := reg0 m) (hpre0 := fun c => .rfl) (hpost0 := fun c => by rw [V34_eq]; exact .rfl)
    (R1 := reg1 m) (hpre1 := fun c => by rw [V35_eq]; exact .rfl) (hpost1 := fun c => by rw [V36_eq]; exact .rfl)
    (R2 := reg2 m) (hpre2 := fun c => by rw [V37_eq]; exact .rfl) (hpost2 := fun c => by rw [V38_eq]; exact .rfl)
    (R3 := reg3 m) (hpre3 := fun c => by rw [V39_eq]; exact .rfl) (hpost3 := fun c => by rw [V40_eq]; exact .rfl)

end Cert.Kernel.Gen

end
-- ==== Proof.KI.Run0.lean ====
/- Region 0 (the first dense layer, a 1024 x 128 by 128 x 1024 product per grid point, one block along the
   contracted axis): the body's two conditionals on the position along the contracted axis both hold at every
   point, so each point clears the accumulator, adds the block product, and stores the activated sum. This
   module states the two conditions, decides them over the grid, and runs the body once on arbitrary whole
   staging buffers: the stores it ends with are found by the run. -/
import proofs.«114415_j6030134084248_2_alg».proof.Proof.Gen.KernelIdeal.Launch
import proofs.«114415_j6030134084248_2_alg».proof.Proof.Gen.KernelIdeal.Skeleton
import proofs.«114415_j6030134084248_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the position along the contracted axis is 0. -/
abbrev c0a (i : grid0.Coords) : Prop := (Scalar.cmpi .ne (Scalar.extui (Scalar.cmpi .eq (BitVec.ofNat 32 (i 2).val) 0#32)) 0#32) = 1#1
/-- The second conditional of the body: the position along the contracted axis is the last one. -/
abbrev c0b (i : grid0.Coords) : Prop := k0_cond2 i = 1#1

theorem hc0a : ∀ t : Fin cfg0.N, c0a (grid0.coords t) :=
  (by decide +kernel : ∀ t : Fin grid0.N, c0a (grid0.coords t))
theorem hc0b : ∀ t : Fin cfg0.N, c0b (grid0.coords t) :=
  (by decide +kernel : ∀ t : Fin grid0.N, c0b (grid0.coords t))

/-- No window is idle at any point: the output is stored at every point. -/
theorem live0 : ∀ (w : Fin cfg0.W) (t : Fin cfg0.N), cfg0.idle w (grid0.coords t) = false := by decide +kernel

set_option maxHeartbeats 4000000 in
/-- The body on whole buffers: the three inputs at given contents, the output and the accumulator at anything;
    it ends with the inputs as they were and the output and the accumulator each with the run's stores written. -/
noncomputable def run0 (c : Dev nD) (i : grid0.Coords)
    (arg3 : Memref sig .tc .vmem S1024x128 .f32) (harg3 : arg3.IsWhole) (arg4 : Memref sig .tc .vmem S128x1024 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c0a i) (hcb : c0b i)
    (x0 : Vec F S1024x128 .f32) (x1 : Vec F S128x1024 .f32) (x2 : Vec F S1x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc0__qdense_kernel i arg3 harg3 arg4 harg4 arg5 harg5 arg6 harg6 arg7 harg7) K } := by
  refine ⟨?_, ?_, fun E K => ?run⟩
  case run =>
    simp only [cc0__qdense_kernel_eq_skeleton]; unfold cc0__qdense_kernel_skel
    unfold owns
    iintro ⟨⟨%f0, %hf0, H0⟩, ⟨%f1, %hf1, H1⟩, ⟨%f2, %hf2, H2⟩, ⟨%d6, %f6, -, H6⟩, ⟨%d7, %f7, -, H7⟩, Hk⟩
    obtain rfl := harg3.eq_unread hf0; obtain rfl := harg4.eq_unread hf1; obtain rfl := harg5.eq_unread hf2
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    iexists _; iexact H7

end Cert.KernelIdeal.Gen

end
-- ==== Proof.KI.Body0.lean ====
/- Region 0: one block along the contracted axis, so every grid point clears the accumulator, adds the block product
   and stores the activated sum. The proof data: each input window's buffer keeps its block, the output window's buffer
   ends at the body's stores read back, the accumulator's contents between points are not tracked (every point
   overwrites it before reading it). The body obligation at every point is the one whole-body run. -/
import proofs.«114415_j6030134084248_2_alg».proof.Proof.KI.Run0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the staging buffers at a point, the accumulator, the windows' blocks -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0
/-- One staging buffer of the output window, through which its contents are stated. -/
abbrev VO0 : View sig .tc .vmem S1024x1024 .bf16 := (Memref.whole cc0_stg3_0 : Memref sig .tc .vmem S1024x1024 .bf16).view
/-- The accumulator as a view. -/
abbrev VS0 : View sig .tc .vmem S1024x1024 .f32 := scM0.view

/-- The class invariant with the accumulator taken out of the scoped rest: the accumulator owned at some contents,
    every other scoped buffer unopened, the generator register at some state. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer: the run's stores read back. -/
def out0 (c : Dev nD) (i : grid0.Coords) (arg3 : Memref sig .tc .vmem S1024x128 .f32) (harg3 : arg3.IsWhole) (arg4 : Memref sig .tc .vmem S128x1024 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c0a i) (hcb : c0b i)
    (x0 : Vec F S1024x128 .f32) (x1 : Vec F S128x1024 .f32) (x2 : Vec F S1x1024 .f32) : Vec F S1024x1024 .bf16 :=
  VO0.read (Elt F) (VO0.writes (Elt F) VO0.junk (run0 c i arg3 harg3 arg4 harg4 arg5 harg5 arg6 harg6 arg7 harg7 hca hcb x0 x1 x2).1)

/-- The body's stores into the output window tile its block, so they cover it. -/
theorem cover0 (c : Dev nD) (i : grid0.Coords) (arg3 : Memref sig .tc .vmem S1024x128 .f32) (harg3 : arg3.IsWhole) (arg4 : Memref sig .tc .vmem S128x1024 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c0a i) (hcb : c0b i)
    (x0 : Vec F S1024x128 .f32) (x1 : Vec F S128x1024 .f32) (x2 : Vec F S1x1024 .f32) (y : S1024x1024.Idx) :
    ∃ pc ∈ (run0 c i arg3 harg3 arg4 harg4 arg5 harg5 arg6 harg6 arg7 harg7 hca hcb x0 x1 x2).1, y ∈ pc.1.set :=
  View.cover_of_tiledL (run0 c i arg3 harg3 arg4 harg4 arg5 harg5 arg6 harg6 arg7 harg7 hca hcb x0 x1 x2).1 S1024x1024.size (by sl_kernel_rfl) y

/-- The proof data of region 0 on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 c (grid0.coords t) (ms0_0 t) (hs0_0 t) (ms0_1 t) (hs0_1 t) (ms0_2 t) (hs0_2 t) (ms0_3 t) (hs0_3 t) scM0 (Memref.isWhole_whole _) (hc0a t) (hc0b t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t
    = out0 c (grid0.coords t) (ms0_0 t) (hs0_0 t) (ms0_1 t) (hs0_1 t) (ms0_2 t) (hs0_2 t) (ms0_3 t) (hs0_3 t) scM0 (Memref.isWhole_whole _) (hc0a t) (hc0b t) (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact; rw [live0 w t]

set_option maxHeartbeats 4000000 in
/-- The body at any point: the inputs' buffers hold their blocks; the invariant hands over the accumulator at some
    contents, and takes it back at some contents; the output window's buffer ends at the run's stores read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [leaves0 V c 0 t, leaves0 V c 1 t, leaves0 V c 2 t, leaves0 V c 3 t, after0_0, after0_1, after0_2, after0_3]
  unfold out0
  iintro ⟨⟨⟨HS, Hrest⟩, Hg⟩, Ho, ⟨%d0, H0⟩, ⟨%d1, H1⟩, ⟨%d2, H2⟩, ⟨%d3, H3⟩⟩
  iapply ((run0 c (grid0.coords t) _ _ _ _ _ _ _ _ _ _ (hc0a t) (hc0b t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Gen

end
-- ==== Proof.KI.Run1.lean ====
/- Region 1 (the second dense layer, a 1024 x 1024 by 1024 x 1024 product per grid point, one block along the
   contracted axis): the body's two conditionals on the position along the contracted axis both hold at every
   point, so each point clears the accumulator, adds the block product, and stores the activated sum. This
   module states the two conditions, decides them over the grid, and runs the body once on arbitrary whole
   staging buffers: the stores it ends with are found by the run. -/
import proofs.«114415_j6030134084248_2_alg».proof.Proof.Gen.KernelIdeal.Launch
import proofs.«114415_j6030134084248_2_alg».proof.Proof.Gen.KernelIdeal.Skeleton
import proofs.«114415_j6030134084248_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the position along the contracted axis is 0. -/
abbrev c1a (i : grid1.Coords) : Prop := (Scalar.cmpi .ne (Scalar.extui (Scalar.cmpi .eq (BitVec.ofNat 32 (i 2).val) 0#32)) 0#32) = 1#1
/-- The second conditional of the body: the position along the contracted axis is the last one. -/
abbrev c1b (i : grid1.Coords) : Prop := k1_cond2 i = 1#1

theorem hc1a : ∀ t : Fin cfg1.N, c1a (grid1.coords t) :=
  (by decide +kernel : ∀ t : Fin grid1.N, c1a (grid1.coords t))
theorem hc1b : ∀ t : Fin cfg1.N, c1b (grid1.coords t) :=
  (by decide +kernel : ∀ t : Fin grid1.N, c1b (grid1.coords t))

/-- No window is idle at any point: the output is stored at every point. -/
theorem live1 : ∀ (w : Fin cfg1.W) (t : Fin cfg1.N), cfg1.idle w (grid1.coords t) = false := by decide +kernel

set_option maxHeartbeats 4000000 in
/-- The body on whole buffers: the three inputs at given contents, the output and the accumulator at anything;
    it ends with the inputs as they were and the output and the accumulator each with the run's stores written. -/
noncomputable def run1 (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c1a i) (hcb : c1b i)
    (x0 : Vec F S1024x1024 .bf16) (x1 : Vec F S1024x1024 .bf16) (x2 : Vec F S1x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__qdense_kernel i arg3 harg3 arg4 harg4 arg5 harg5 arg6 harg6 arg7 harg7) K } := by
  refine ⟨?_, ?_, fun E K => ?run⟩
  case run =>
    simp only [cc1__qdense_kernel_eq_skeleton]; unfold cc1__qdense_kernel_skel
    unfold owns
    iintro ⟨⟨%f0, %hf0, H0⟩, ⟨%f1, %hf1, H1⟩, ⟨%f2, %hf2, H2⟩, ⟨%d6, %f6, -, H6⟩, ⟨%d7, %f7, -, H7⟩, Hk⟩
    obtain rfl := harg3.eq_unread hf0; obtain rfl := harg4.eq_unread hf1; obtain rfl := harg5.eq_unread hf2
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    iexists _; iexact H7

end Cert.KernelIdeal.Gen

end
-- ==== Proof.KI.Body1.lean ====
/- Region 1: one block along the contracted axis, so every grid point clears the accumulator, adds the block product
   and stores the activated sum. The proof data: each input window's buffer keeps its block, the output window's buffer
   ends at the body's stores read back, the accumulator's contents between points are not tracked (every point
   overwrites it before reading it). The body obligation at every point is the one whole-body run. -/
import proofs.«114415_j6030134084248_2_alg».proof.Proof.KI.Run1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the staging buffers at a point, the accumulator, the windows' blocks -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x1024 .f32 := Memref.whole cc1_scratch0
/-- One staging buffer of the output window, through which its contents are stated. -/
abbrev VO1 : View sig .tc .vmem S1024x1024 .bf16 := (Memref.whole cc1_stg3_0 : Memref sig .tc .vmem S1024x1024 .bf16).view
/-- The accumulator as a view. -/
abbrev VS1 : View sig .tc .vmem S1024x1024 .f32 := scM1.view

/-- The class invariant with the accumulator taken out of the scoped rest: the accumulator owned at some contents,
    every other scoped buffer unopened, the generator register at some state. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer: the run's stores read back. -/
def out1 (c : Dev nD) (i : grid1.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c1a i) (hcb : c1b i)
    (x0 : Vec F S1024x1024 .bf16) (x1 : Vec F S1024x1024 .bf16) (x2 : Vec F S1x1024 .f32) : Vec F S1024x1024 .bf16 :=
  VO1.read (Elt F) (VO1.writes (Elt F) VO1.junk (run1 c i arg3 harg3 arg4 harg4 arg5 harg5 arg6 harg6 arg7 harg7 hca hcb x0 x1 x2).1)

/-- The body's stores into the output window tile its block, so they cover it. -/
theorem cover1 (c : Dev nD) (i : grid1.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c1a i) (hcb : c1b i)
    (x0 : Vec F S1024x1024 .bf16) (x1 : Vec F S1024x1024 .bf16) (x2 : Vec F S1x1024 .f32) (y : S1024x1024.Idx) :
    ∃ pc ∈ (run1 c i arg3 harg3 arg4 harg4 arg5 harg5 arg6 harg6 arg7 harg7 hca hcb x0 x1 x2).1, y ∈ pc.1.set :=
  View.cover_of_tiledL (run1 c i arg3 harg3 arg4 harg4 arg5 harg5 arg6 harg6 arg7 harg7 hca hcb x0 x1 x2).1 S1024x1024.size (by sl_kernel_rfl) y

/-- The proof data of region 1 on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 c (grid1.coords t) (ms1_0 t) (hs1_0 t) (ms1_1 t) (hs1_1 t) (ms1_2 t) (hs1_2 t) (ms1_3 t) (hs1_3 t) scM1 (Memref.isWhole_whole _) (hc1a t) (hc1b t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1 c (grid1.coords t) (ms1_0 t) (hs1_0 t) (ms1_1 t) (hs1_1 t) (ms1_2 t) (hs1_2 t) (ms1_3 t) (hs1_3 t) scM1 (Memref.isWhole_whole _) (hc1a t) (hc1b t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1 (c : Dev nD) (w : Fin cfg1.W) (t : Fin cfg1.N) :
    (dat1 V c).leavesExact w t = owns (c : Thread nD τ) ((cfg1.win w).stage (cfg1.slots t w)) fullShare ((dat1 V c).after w t) := by
  unfold Dat.leavesExact; rw [live1 w t]

set_option maxHeartbeats 4000000 in
/-- The body at any point: the inputs' buffers hold their blocks; the invariant hands over the accumulator at some
    contents, and takes it back at some contents; the output window's buffer ends at the run's stores read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [leaves1 V c 0 t, leaves1 V c 1 t, leaves1 V c 2 t, leaves1 V c 3 t, after1_0, after1_1, after1_2, after1_3]
  unfold out1
  iintro ⟨⟨⟨HS, Hrest⟩, Hg⟩, Ho, ⟨%d0, H0⟩, ⟨%d1, H1⟩, ⟨%d2, H2⟩, ⟨%d3, H3⟩⟩
  iapply ((run1 c (grid1.coords t) _ _ _ _ _ _ _ _ _ _ (hc1a t) (hc1b t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Gen

end
-- ==== Proof.KI.Conds2.lean ====
/- Region 2 (2 blocks along the contracted axis): the body's two conditionals, on the position along the
   contracted axis (the last grid coordinate, which advances fastest), in closed form over the grid; where the output window is
   idle and where it is written back. -/
import proofs.«114415_j6030134084248_2_alg».proof.Proof.Gen.KernelIdeal.Launch
import proofs.«114415_j6030134084248_2_alg».proof.Proof.Gen.KernelIdeal.Skeleton
import proofs.«114415_j6030134084248_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the position along the contracted axis is 0. -/
abbrev c2a (i : grid2.Coords) : Prop := (Scalar.cmpi .ne (Scalar.extui (Scalar.cmpi .eq (BitVec.ofNat 32 (i 2).val) 0#32)) 0#32) = 1#1
/-- The second conditional of the body: the position along the contracted axis is the last one. -/
abbrev c2b (i : grid2.Coords) : Prop := k2_cond2 i = 1#1

theorem hc2a : ∀ t : Fin cfg2.N, c2a (grid2.coords t) ↔ t.val % 2 = 0 :=
  (by decide +kernel : ∀ t : Fin grid2.N, c2a (grid2.coords t) ↔ t.val % 2 = 0)
theorem hc2b : ∀ t : Fin cfg2.N, c2b (grid2.coords t) ↔ t.val % 2 = 1 :=
  (by decide +kernel : ∀ t : Fin grid2.N, c2b (grid2.coords t) ↔ t.val % 2 = 1)

/-- The input windows are never idle. -/
theorem live2_in : ∀ (w : Fin cfg2.W) (t : Fin cfg2.N), w.val < 3 → cfg2.idle w (grid2.coords t) = false := by decide +kernel
/-- Where the second conditional fails the output window is idle and is not written back. -/
theorem idle2_out : ∀ t : Fin cfg2.N, ¬c2b (grid2.coords t) → cfg2.idle 3 (grid2.coords t) = true := by decide +kernel
theorem noflush2_out : ∀ t : Fin cfg2.N, ¬c2b (grid2.coords t) → (cfg2.win 3).flush t = false := by decide +kernel
/-- Where it holds the output window is live. -/
theorem live2_out : ∀ t : Fin cfg2.N, c2b (grid2.coords t) → cfg2.idle 3 (grid2.coords t) = false := by decide +kernel

end Cert.KernelIdeal.Gen

end
-- ==== Proof.KI.Run2A.lean ====
/- Region 2, the first position along the contracted axis: the accumulator is cleared, the block product added; nothing is stored into the output window. The body run once on arbitrary whole staging
   buffers; the stores it ends with are found by the run. -/
import proofs.«114415_j6030134084248_2_alg».proof.Proof.KI.Conds2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run2A (c : Dev nD) (i : grid2.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c2a i) (hcb : ¬c2b i)
    (x0 : Vec F S1024x1024 .bf16) (x1 : Vec F S1024x1024 .bf16) (x2 : Vec F S1x1024 .f32) :
    Σ' (L3 : List (View.Piece (Elt F) S1024x1024 .bf16)), { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc2__qdense_kernel i arg3 harg3 arg4 harg4 arg5 harg5 arg6 harg6 arg7 harg7) K } := by
  refine ⟨[], ?_, fun xi E K => ?run⟩
  case run =>
    simp only [cc2__qdense_kernel_eq_skeleton]; unfold cc2__qdense_kernel_skel
    unfold owns
    iintro ⟨⟨%f0, %hf0, H0⟩, ⟨%f1, %hf1, H1⟩, ⟨%f2, %hf2, H2⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf6
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    iexists _; iexact H7

end Cert.KernelIdeal.Gen

end
-- ==== Proof.KI.Run2C.lean ====
/- Region 2, the last position along the contracted axis: the block product is added to the accumulator the point before left and the sum with the bias is stored into the output window. The body run once on arbitrary whole staging
   buffers; the stores it ends with are found by the run. -/
import proofs.«114415_j6030134084248_2_alg».proof.Proof.KI.Run2A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run2C (c : Dev nD) (i : grid2.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i)
    (x0 : Vec F S1024x1024 .bf16) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc2__qdense_kernel i arg3 harg3 arg4 harg4 arg5 harg5 arg6 harg6 arg7 harg7) K } := by
  refine ⟨?_, ?_, fun E K => ?run⟩
  case run =>
    simp only [cc2__qdense_kernel_eq_skeleton]; unfold cc2__qdense_kernel_skel
    unfold owns
    iintro ⟨⟨%f0, %hf0, H0⟩, ⟨%f1, %hf1, H1⟩, ⟨%f2, %hf2, H2⟩, ⟨%d6, %f6, -, H6⟩, ⟨%f7, %hf7, H7⟩, Hk⟩
    obtain rfl := harg3.eq_unread hf0; obtain rfl := harg4.eq_unread hf1; obtain rfl := harg5.eq_unread hf2; obtain rfl := harg7.eq_unread hf7
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    iexists _; iexact H7

end Cert.KernelIdeal.Gen

end
-- ==== Proof.KI.Body2.lean ====
/- Region 2: 2 blocks along the contracted axis. The accumulator is carried from one grid point to the next within a
   run of 2 points: cleared and first added to at the run's first point, added to at the later ones, and at the last
   one added to the bias, activated and stored into the output window, which is idle (left as found, not written back) at the other points.
   The proof data name the accumulator's contents after every point by recursion on the point; the invariant between points
   holds the accumulator at those contents. The body obligation at a point is the whole-body run of the point's case. -/
import proofs.«114415_j6030134084248_2_alg».proof.Proof.KI.Run2C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2: the staging buffers at a point, the accumulator, the windows' blocks -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2 : Memref sig .tc .vmem S1024x1024 .f32 := Memref.whole cc2_scratch0
/-- One staging buffer of the output window, through which its contents are stated. -/
abbrev VO2 : View sig .tc .vmem S1024x1024 .bf16 := (Memref.whole cc2_stg3_0 : Memref sig .tc .vmem S1024x1024 .bf16).view
/-- The accumulator as a view. -/
abbrev VS2 : View sig .tc .vmem S1024x1024 .f32 := scM2.view

/-- The class invariant with the accumulator taken out of the scoped rest: the accumulator owned at some contents,
    every other scoped buffer unopened, the generator register at some state. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the accumulator holds after a point of case A: the run's stores read back. -/
def sA2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c2a i) (hcb : ¬c2b i) (x0 : Vec F S1024x1024 .bf16) (x1 : Vec F S1024x1024 .bf16) (x2 : Vec F S1x1024 .f32) : Vec F S1024x1024 .f32 :=
  VS2.read (Elt F) (VS2.writes (Elt F) VS2.junk (run2A c i arg3 harg3 arg4 harg4 arg5 harg5 arg6 harg6 arg7 harg7 hca hcb x0 x1 x2).2.1)
theorem scoverA2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c2a i) (hcb : ¬c2b i) (x0 : Vec F S1024x1024 .bf16) (x1 : Vec F S1024x1024 .bf16) (x2 : Vec F S1x1024 .f32) (y : S1024x1024.Idx) :
    ∃ pc ∈ (run2A c i arg3 harg3 arg4 harg4 arg5 harg5 arg6 harg6 arg7 harg7 hca hcb x0 x1 x2).2.1, y ∈ pc.1.set :=
  View.cover_of_tiledL (run2A c i arg3 harg3 arg4 harg4 arg5 harg5 arg6 harg6 arg7 harg7 hca hcb x0 x1 x2).2.1 S1024x1024.size (by sl_kernel_rfl) y

/-- What the accumulator holds after a point of case C: the run's stores read back. -/
def sC2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) : Vec F S1024x1024 .f32 :=
  VS2.read (Elt F) (VS2.writes (Elt F) VS2.junk (run2C c i arg3 harg3 arg4 harg4 arg5 harg5 arg6 harg6 arg7 harg7 hca hcb x0 x1 x2 xs).2.1)
theorem scoverC2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) (y : S1024x1024.Idx) :
    ∃ pc ∈ (run2C c i arg3 harg3 arg4 harg4 arg5 harg5 arg6 harg6 arg7 harg7 hca hcb x0 x1 x2 xs).2.1, y ∈ pc.1.set :=
  View.cover_of_tiledL (run2C c i arg3 harg3 arg4 harg4 arg5 harg5 arg6 harg6 arg7 harg7 hca hcb x0 x1 x2 xs).2.1 S1024x1024.size (by sl_kernel_rfl) y

/-- What the output window's buffer holds after a point of the last case: the run's stores read back. -/
def outC2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) : Vec F S1024x1024 .bf16 :=
  VO2.read (Elt F) (VO2.writes (Elt F) VO2.junk (run2C c i arg3 harg3 arg4 harg4 arg5 harg5 arg6 harg6 arg7 harg7 hca hcb x0 x1 x2 xs).1)
theorem coverC2 (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) (y : S1024x1024.Idx) :
    ∃ pc ∈ (run2C c i arg3 harg3 arg4 harg4 arg5 harg5 arg6 harg6 arg7 harg7 hca hcb x0 x1 x2 xs).1, y ∈ pc.1.set :=
  View.cover_of_tiledL (run2C c i arg3 harg3 arg4 harg4 arg5 harg5 arg6 harg6 arg7 harg7 hca hcb x0 x1 x2 xs).1 S1024x1024.size (by sl_kernel_rfl) y

/-- THE ACCUMULATION: what the accumulator holds after the body at position `n`. -/
def accAt2 (c : Dev nD) : (n : ℕ) → n < cfg2.N → Vec F S1024x1024 .f32
  | 0, hn => sA2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hc2a ⟨0, hn⟩).mpr (Nat.zero_mod _)) (fun h => absurd (show 0 % 2 = 1 from (hc2b ⟨0, hn⟩).mp h) (by decide)) (iblk2 V c 0 ⟨0, hn⟩) (iblk2 V c 1 ⟨0, hn⟩) (iblk2 V c 2 ⟨0, hn⟩)
  | n + 1, hn =>
      if h0 : (n + 1) % 2 = 0 then
        sA2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hc2a ⟨n + 1, hn⟩).mpr h0) (fun h => by have h' : (n + 1) % 2 = 1 := (hc2b ⟨n + 1, hn⟩).mp h; omega) (iblk2 V c 0 ⟨n + 1, hn⟩) (iblk2 V c 1 ⟨n + 1, hn⟩) (iblk2 V c 2 ⟨n + 1, hn⟩)
      else
        sC2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hc2a ⟨n + 1, hn⟩).mp h)) ((hc2b ⟨n + 1, hn⟩).mpr (show (n + 1) % 2 = 1 by omega)) (iblk2 V c 0 ⟨n + 1, hn⟩) (iblk2 V c 1 ⟨n + 1, hn⟩) (iblk2 V c 2 ⟨n + 1, hn⟩) (accAt2 c n (Nat.lt_of_succ_lt hn))

theorem accAt2_A (c : Dev nD) (t : Fin cfg2.N) (h0 : t.val % 2 = 0) :
    accAt2 V c t.val t.isLt = sA2 c (grid2.coords t) (ms2_0 t) (hs2_0 t) (ms2_1 t) (hs2_1 t) (ms2_2 t) (hs2_2 t) (ms2_3 t) (hs2_3 t) scM2 (Memref.isWhole_whole _) ((hc2a t).mpr h0) (fun h => by have h' := (hc2b t).mp h; omega) (iblk2 V c 0 t) (iblk2 V c 1 t) (iblk2 V c 2 t) := by
  obtain ⟨n, hn⟩ := t
  cases n with
  | zero => exact rfl
  | succ n => exact (dif_pos h0).trans rfl

theorem accAt2_C (c : Dev nD) (t : Fin cfg2.N) (h0 : ¬t.val % 2 = 0) :
    accAt2 V c t.val t.isLt = sC2 c (grid2.coords t) (ms2_0 t) (hs2_0 t) (ms2_1 t) (hs2_1 t) (ms2_2 t) (hs2_2 t) (ms2_3 t) (hs2_3 t) scM2 (Memref.isWhole_whole _) (fun h => h0 ((hc2a t).mp h)) ((hc2b t).mpr (by omega)) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The invariant before position `n`: before the first point the class's (the accumulator at anything); afterwards the
    accumulator at what the point before left, every other scoped buffer unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of region 2 on core `c`, at the entry contents `V`: each input window's buffer keeps its block; the
    output window's buffer at a point of the last case holds that case's stores read back (elsewhere the field is not consulted:
    the window is idle there); the invariant holds the accumulator at what the point before left. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => if h1 : t.val % 2 = 1 then
        outC2 c (grid2.coords t) (ms2_0 t) (hs2_0 t) (ms2_1 t) (hs2_1 t) (ms2_2 t) (hs2_2 t) (ms2_3 t) (hs2_3 t) scM2 (Memref.isWhole_whole _) (fun h => by have h' := (hc2a t).mp h; omega) ((hc2b t).mpr h1) (iblk2 V c 0 t) (iblk2 V c 1 t) (iblk2 V c 2 t) (accAt2 V c (t.val - 1) (Nat.lt_of_le_of_lt (Nat.sub_le _ _) t.isLt))
      else VO2.read (Elt F) VO2.junk
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t
    = if h1 : t.val % 2 = 1 then
        outC2 c (grid2.coords t) (ms2_0 t) (hs2_0 t) (ms2_1 t) (hs2_1 t) (ms2_2 t) (hs2_2 t) (ms2_3 t) (hs2_3 t) scM2 (Memref.isWhole_whole _) (fun h => by have h' := (hc2a t).mp h; omega) ((hc2b t).mpr h1) (iblk2 V c 0 t) (iblk2 V c 1 t) (iblk2 V c 2 t) (accAt2 V c (t.val - 1) (Nat.lt_of_le_of_lt (Nat.sub_le _ _) t.isLt))
      else VO2.read (Elt F) VO2.junk := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_in (c : Dev nD) (w : Fin cfg2.W) (hw : w.val < 3) (t : Fin cfg2.N) :
    (dat2 V c).leavesExact w t = owns (c : Thread nD τ) ((cfg2.win w).stage (cfg2.slots t w)) fullShare ((dat2 V c).after w t) := by
  unfold Dat.leavesExact; rw [live2_in w t hw]
theorem leaves2_live (c : Dev nD) (t : Fin cfg2.N) (h : c2b (grid2.coords t)) :
    (dat2 V c).leavesExact 3 t = owns (c : Thread nD τ) (ms2_3 t) fullShare ((dat2 V c).after 3 t) := by
  unfold Dat.leavesExact; rw [live2_out t h]
theorem leaves2_idle (c : Dev nD) (t : Fin cfg2.N) (h : ¬c2b (grid2.coords t)) :
    (dat2 V c).leavesExact 3 t = iprop(∃ d, owns (c : Thread nD τ) (ms2_3 t) fullShare ((dat2 V c).before 3 t d)) :=
  Dat.leavesExact_idle (dat2 V c) 3 t (idle2_out t h) (noflush2_out t h)

set_option maxHeartbeats 8000000 in
/-- The body at any point: the inputs' buffers hold their blocks; the position along the contracted axis says which case the
    point is in; the invariant hands over the accumulator at what the point before left (at anything before the first point)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_in V c 0 (by decide) t, leaves2_in V c 1 (by decide) t, leaves2_in V c 2 (by decide) t, after2_0, after2_1, after2_2]
  have hN : t.val < 64 := lt_of_lt_of_eq t.isLt (show cfg2.N = 64 from N_2)
  by_cases h0 : t.val % 2 = 0
  · rw [leaves2_idle V c t (fun h => by have h' := (hc2b t).mp h; omega)]
    rw [accAt2_A V c t h0]
    unfold sA2; (try dsimp only)
    have hrun := (run2A c (grid2.coords t) (ms2_0 t) (hs2_0 t) (ms2_1 t) (hs2_1 t) (ms2_2 t) (hs2_2 t) (ms2_3 t) (hs2_3 t) scM2 (Memref.isWhole_whole _) ((hc2a t).mpr h0) (fun h => by have h' := (hc2b t).mp h; omega) (iblk2 V c 0 t) (iblk2 V c 1 t) (iblk2 V c 2 t)).2.2
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverA2 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverA2 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [leaves2_live V c t ((hc2b t).mpr h1), after2_3, dif_pos h1]
    rw [accAt2_C V c t h0]
    unfold outC2 sC2; (try dsimp only)
    have hz : t.val ≠ 0 := fun e => h0 (by rw [e])
    rw [PhiS2_castSucc V c t, PhiS2_pos V c _ _ hz]
    iintro ⟨⟨⟨HS, Hrest⟩, Hg⟩, Ho, ⟨%d0, H0⟩, ⟨%d1, H1⟩, ⟨%d2, H2⟩, ⟨%d3, H3⟩⟩
    iapply ((run2C c (grid2.coords t) (ms2_0 t) (hs2_0 t) (ms2_1 t) (hs2_1 t) (ms2_2 t) (hs2_2 t) (ms2_3 t) (hs2_3 t) scM2 (Memref.isWhole_whole _) (fun h => h0 ((hc2a t).mp h)) ((hc2b t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scoverC2 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverC2 c _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, Hrest⟩, Hg⟩
  isplitl [HS Hrest]
  · isplitl [HS]
    · iexists _; iexact HS
    iexact Hrest
  iexact Hg

end

end Cert.KernelIdeal.Gen

end
-- ==== Proof.KI.Conds3.lean ====
/- Region 3 (4 blocks along the contracted axis): the body's two conditionals, on the position along the
   contracted axis (the last grid coordinate, which advances fastest), in closed form over the grid; where the output window is
   idle and where it is written back. -/
import proofs.«114415_j6030134084248_2_alg».proof.Proof.Gen.KernelIdeal.Launch
import proofs.«114415_j6030134084248_2_alg».proof.Proof.Gen.KernelIdeal.Skeleton
import proofs.«114415_j6030134084248_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the position along the contracted axis is 0. -/
abbrev c3a (i : grid3.Coords) : Prop := (Scalar.cmpi .ne (Scalar.extui (Scalar.cmpi .eq (BitVec.ofNat 32 (i 2).val) 0#32)) 0#32) = 1#1
/-- The second conditional of the body: the position along the contracted axis is the last one. -/
abbrev c3b (i : grid3.Coords) : Prop := k3_cond2 i = 1#1

theorem hc3a : ∀ t : Fin cfg3.N, c3a (grid3.coords t) ↔ t.val % 4 = 0 :=
  (by decide +kernel : ∀ t : Fin grid3.N, c3a (grid3.coords t) ↔ t.val % 4 = 0)
theorem hc3b : ∀ t : Fin cfg3.N, c3b (grid3.coords t) ↔ t.val % 4 = 3 :=
  (by decide +kernel : ∀ t : Fin grid3.N, c3b (grid3.coords t) ↔ t.val % 4 = 3)

/-- The input windows are never idle. -/
theorem live3_in : ∀ (w : Fin cfg3.W) (t : Fin cfg3.N), w.val < 3 → cfg3.idle w (grid3.coords t) = false := by decide +kernel
/-- Where the second conditional fails the output window is idle and is not written back. -/
theorem idle3_out : ∀ t : Fin cfg3.N, ¬c3b (grid3.coords t) → cfg3.idle 3 (grid3.coords t) = true := by decide +kernel
theorem noflush3_out : ∀ t : Fin cfg3.N, ¬c3b (grid3.coords t) → (cfg3.win 3).flush t = false := by decide +kernel
/-- Where it holds the output window is live. -/
theorem live3_out : ∀ t : Fin cfg3.N, c3b (grid3.coords t) → cfg3.idle 3 (grid3.coords t) = false := by decide +kernel

end Cert.KernelIdeal.Gen

end
-- ==== Proof.KI.Run3A.lean ====
/- Region 3, the first position along the contracted axis: the accumulator is cleared, the block product added; nothing is stored into the output window. The body run once on arbitrary whole staging
   buffers; the stores it ends with are found by the run. -/
import proofs.«114415_j6030134084248_2_alg».proof.Proof.KI.Conds3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run3A (c : Dev nD) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : c3a i) (hcb : ¬c3b i)
    (x0 : Vec F S1024x1024 .bf16) (x1 : Vec F S1024x1024 .bf16) (x2 : Vec F S1x1024 .f32) :
    Σ' (L3 : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc3__qdense_kernel i arg3 harg3 arg4 harg4 arg5 harg5 arg6 harg6 arg7 harg7) K } := by
  refine ⟨[], ?_, fun xi E K => ?run⟩
  case run =>
    simp only [cc3__qdense_kernel_eq_skeleton]; unfold cc3__qdense_kernel_skel
    unfold owns
    iintro ⟨⟨%f0, %hf0, H0⟩, ⟨%f1, %hf1, H1⟩, ⟨%f2, %hf2, H2⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf6
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    iexists _; iexact H7

end Cert.KernelIdeal.Gen

end
-- ==== Proof.KI.Run3B.lean ====
/- Region 3, a middle position along the contracted axis: the block product is added to the accumulator the point before left; nothing is stored into the output window. The body run once on arbitrary whole staging
   buffers; the stores it ends with are found by the run. -/
import proofs.«114415_j6030134084248_2_alg».proof.Proof.KI.Run3A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run3B (c : Dev nD) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : ¬c3b i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc3__qdense_kernel i arg3 harg3 arg4 harg4 arg5 harg5 arg6 harg6 arg7 harg7) K } := by
  refine ⟨[], ?_, fun xi E K => ?run⟩
  case run =>
    simp only [cc3__qdense_kernel_eq_skeleton]; unfold cc3__qdense_kernel_skel
    unfold owns
    iintro ⟨⟨%f0, %hf0, H0⟩, ⟨%f1, %hf1, H1⟩, ⟨%f2, %hf2, H2⟩, ⟨%f6, %hf6, H6⟩, ⟨%f7, %hf7, H7⟩, Hk⟩
    obtain rfl := harg3.eq_unread hf0; obtain rfl := harg4.eq_unread hf1; obtain rfl := harg5.eq_unread hf2; obtain rfl := harg6.eq_unread hf6; obtain rfl := harg7.eq_unread hf7
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    iexists _; iexact H7

end Cert.KernelIdeal.Gen

end
-- ==== Proof.KI.Run3C.lean ====
/- Region 3, the last position along the contracted axis: the block product is added to the accumulator the point before left and the sum with the bias is stored into the output window. The body run once on arbitrary whole staging
   buffers; the stores it ends with are found by the run. -/
import proofs.«114415_j6030134084248_2_alg».proof.Proof.KI.Run3B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run3C (c : Dev nD) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc3__qdense_kernel i arg3 harg3 arg4 harg4 arg5 harg5 arg6 harg6 arg7 harg7) K } := by
  refine ⟨?_, ?_, fun E K => ?run⟩
  case run =>
    simp only [cc3__qdense_kernel_eq_skeleton]; unfold cc3__qdense_kernel_skel
    unfold owns
    iintro ⟨⟨%f0, %hf0, H0⟩, ⟨%f1, %hf1, H1⟩, ⟨%f2, %hf2, H2⟩, ⟨%d6, %f6, -, H6⟩, ⟨%f7, %hf7, H7⟩, Hk⟩
    obtain rfl := harg3.eq_unread hf0; obtain rfl := harg4.eq_unread hf1; obtain rfl := harg5.eq_unread hf2; obtain rfl := harg7.eq_unread hf7
    sl_exec (disch := first | exact hca | exact hcb)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    iexists _; iexact H7

end Cert.KernelIdeal.Gen

end
-- ==== Proof.KI.Body3.lean ====
/- Region 3: 4 blocks along the contracted axis. The accumulator is carried from one grid point to the next within a
   run of 4 points: cleared and first added to at the run's first point, added to at the later ones, and at the last
   one added to the bias and stored into the output window, which is idle (left as found, not written back) at the other points.
   The proof data name the accumulator's contents after every point by recursion on the point; the invariant between points
   holds the accumulator at those contents. The body obligation at a point is the whole-body run of the point's case. -/
import proofs.«114415_j6030134084248_2_alg».proof.Proof.KI.Run3C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3: the staging buffers at a point, the accumulator, the windows' blocks -/

abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3 : Memref sig .tc .vmem S1024x1024 .f32 := Memref.whole cc3_scratch0
/-- One staging buffer of the output window, through which its contents are stated. -/
abbrev VO3 : View sig .tc .vmem S1024x1024 .f32 := (Memref.whole cc3_stg3_0 : Memref sig .tc .vmem S1024x1024 .f32).view
/-- The accumulator as a view. -/
abbrev VS3 : View sig .tc .vmem S1024x1024 .f32 := scM3.view

/-- The class invariant with the accumulator taken out of the scoped rest: the accumulator owned at some contents,
    every other scoped buffer unopened, the generator register at some state. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- What the accumulator holds after a point of case A: the run's stores read back. -/
def sA3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : c3a i) (hcb : ¬c3b i) (x0 : Vec F S1024x1024 .bf16) (x1 : Vec F S1024x1024 .bf16) (x2 : Vec F S1x1024 .f32) : Vec F S1024x1024 .f32 :=
  VS3.read (Elt F) (VS3.writes (Elt F) VS3.junk (run3A c i arg3 harg3 arg4 harg4 arg5 harg5 arg6 harg6 arg7 harg7 hca hcb x0 x1 x2).2.1)
theorem scoverA3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : c3a i) (hcb : ¬c3b i) (x0 : Vec F S1024x1024 .bf16) (x1 : Vec F S1024x1024 .bf16) (x2 : Vec F S1x1024 .f32) (y : S1024x1024.Idx) :
    ∃ pc ∈ (run3A c i arg3 harg3 arg4 harg4 arg5 harg5 arg6 harg6 arg7 harg7 hca hcb x0 x1 x2).2.1, y ∈ pc.1.set :=
  View.cover_of_tiledL (run3A c i arg3 harg3 arg4 harg4 arg5 harg5 arg6 harg6 arg7 harg7 hca hcb x0 x1 x2).2.1 S1024x1024.size (by sl_kernel_rfl) y

/-- What the accumulator holds after a point of case B: the run's stores read back. -/
def sB3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : ¬c3b i) (x0 : Vec F S1024x1024 .bf16) (x1 : Vec F S1024x1024 .bf16) (x2 : Vec F S1x1024 .f32) (xs : Vec F S1024x1024 .f32) : Vec F S1024x1024 .f32 :=
  VS3.read (Elt F) (VS3.writes (Elt F) VS3.junk (run3B c i arg3 harg3 arg4 harg4 arg5 harg5 arg6 harg6 arg7 harg7 hca hcb x0 x1 x2 xs).2.1)
theorem scoverB3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : ¬c3b i) (x0 : Vec F S1024x1024 .bf16) (x1 : Vec F S1024x1024 .bf16) (x2 : Vec F S1x1024 .f32) (xs : Vec F S1024x1024 .f32) (y : S1024x1024.Idx) :
    ∃ pc ∈ (run3B c i arg3 harg3 arg4 harg4 arg5 harg5 arg6 harg6 arg7 harg7 hca hcb x0 x1 x2 xs).2.1, y ∈ pc.1.set :=
  View.cover_of_tiledL (run3B c i arg3 harg3 arg4 harg4 arg5 harg5 arg6 harg6 arg7 harg7 hca hcb x0 x1 x2 xs).2.1 S1024x1024.size (by sl_kernel_rfl) y

/-- What the accumulator holds after a point of case C: the run's stores read back. -/
def sC3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) : Vec F S1024x1024 .f32 :=
  VS3.read (Elt F) (VS3.writes (Elt F) VS3.junk (run3C c i arg3 harg3 arg4 harg4 arg5 harg5 arg6 harg6 arg7 harg7 hca hcb x0 x1 x2 xs).2.1)
theorem scoverC3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) (y : S1024x1024.Idx) :
    ∃ pc ∈ (run3C c i arg3 harg3 arg4 harg4 arg5 harg5 arg6 harg6 arg7 harg7 hca hcb x0 x1 x2 xs).2.1, y ∈ pc.1.set :=
  View.cover_of_tiledL (run3C c i arg3 harg3 arg4 harg4 arg5 harg5 arg6 harg6 arg7 harg7 hca hcb x0 x1 x2 xs).2.1 S1024x1024.size (by sl_kernel_rfl) y

/-- What the output window's buffer holds after a point of the last case: the run's stores read back. -/
def outC3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) : Vec F S1024x1024 .f32 :=
  VO3.read (Elt F) (VO3.writes (Elt F) VO3.junk (run3C c i arg3 harg3 arg4 harg4 arg5 harg5 arg6 harg6 arg7 harg7 hca hcb x0 x1 x2 xs).1)
theorem coverC3 (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) (y : S1024x1024.Idx) :
    ∃ pc ∈ (run3C c i arg3 harg3 arg4 harg4 arg5 harg5 arg6 harg6 arg7 harg7 hca hcb x0 x1 x2 xs).1, y ∈ pc.1.set :=
  View.cover_of_tiledL (run3C c i arg3 harg3 arg4 harg4 arg5 harg5 arg6 harg6 arg7 harg7 hca hcb x0 x1 x2 xs).1 S1024x1024.size (by sl_kernel_rfl) y

/-- THE ACCUMULATION: what the accumulator holds after the body at position `n`. -/
def accAt3 (c : Dev nD) : (n : ℕ) → n < cfg3.N → Vec F S1024x1024 .f32
  | 0, hn => sA3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hc3a ⟨0, hn⟩).mpr (Nat.zero_mod _)) (fun h => absurd (show 0 % 4 = 3 from (hc3b ⟨0, hn⟩).mp h) (by decide)) (iblk3 V c 0 ⟨0, hn⟩) (iblk3 V c 1 ⟨0, hn⟩) (iblk3 V c 2 ⟨0, hn⟩)
  | n + 1, hn =>
      if h0 : (n + 1) % 4 = 0 then
        sA3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hc3a ⟨n + 1, hn⟩).mpr h0) (fun h => by have h' : (n + 1) % 4 = 3 := (hc3b ⟨n + 1, hn⟩).mp h; omega) (iblk3 V c 0 ⟨n + 1, hn⟩) (iblk3 V c 1 ⟨n + 1, hn⟩) (iblk3 V c 2 ⟨n + 1, hn⟩)
      else if h1 : (n + 1) % 4 = 3 then
        sC3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hc3a ⟨n + 1, hn⟩).mp h)) ((hc3b ⟨n + 1, hn⟩).mpr h1) (iblk3 V c 0 ⟨n + 1, hn⟩) (iblk3 V c 1 ⟨n + 1, hn⟩) (iblk3 V c 2 ⟨n + 1, hn⟩) (accAt3 c n (Nat.lt_of_succ_lt hn))
      else
        sB3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hc3a ⟨n + 1, hn⟩).mp h)) (fun h => h1 ((hc3b ⟨n + 1, hn⟩).mp h)) (iblk3 V c 0 ⟨n + 1, hn⟩) (iblk3 V c 1 ⟨n + 1, hn⟩) (iblk3 V c 2 ⟨n + 1, hn⟩) (accAt3 c n (Nat.lt_of_succ_lt hn))

theorem accAt3_A (c : Dev nD) (t : Fin cfg3.N) (h0 : t.val % 4 = 0) :
    accAt3 V c t.val t.isLt = sA3 c (grid3.coords t) (ms3_0 t) (hs3_0 t) (ms3_1 t) (hs3_1 t) (ms3_2 t) (hs3_2 t) (ms3_3 t) (hs3_3 t) scM3 (Memref.isWhole_whole _) ((hc3a t).mpr h0) (fun h => by have h' := (hc3b t).mp h; omega) (iblk3 V c 0 t) (iblk3 V c 1 t) (iblk3 V c 2 t) := by
  obtain ⟨n, hn⟩ := t
  cases n with
  | zero => exact rfl
  | succ n => exact (dif_pos h0).trans rfl

theorem accAt3_B (c : Dev nD) (t : Fin cfg3.N) (h0 : ¬t.val % 4 = 0) (h1 : ¬t.val % 4 = 3) :
    accAt3 V c t.val t.isLt = sB3 c (grid3.coords t) (ms3_0 t) (hs3_0 t) (ms3_1 t) (hs3_1 t) (ms3_2 t) (hs3_2 t) (ms3_3 t) (hs3_3 t) scM3 (Memref.isWhole_whole _) (fun h => h0 ((hc3a t).mp h)) (fun h => h1 ((hc3b t).mp h)) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem accAt3_C (c : Dev nD) (t : Fin cfg3.N) (h0 : ¬t.val % 4 = 0) (h1 : t.val % 4 = 3) :
    accAt3 V c t.val t.isLt = sC3 c (grid3.coords t) (ms3_0 t) (hs3_0 t) (ms3_1 t) (hs3_1 t) (ms3_2 t) (hs3_2 t) (ms3_3 t) (hs3_3 t) scM3 (Memref.isWhole_whole _) (fun h => h0 ((hc3a t).mp h)) ((hc3b t).mpr h1) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The invariant before position `n`: before the first point the class's (the accumulator at anything); afterwards the
    accumulator at what the point before left, every other scoped buffer unopened, the generator register at some state. -/
def PhiS3 (c : Dev nD) : (n : ℕ) → n ≤ cfg3.N → sProp 𝕄
  | 0, _ => Pipeline.ΦA spec3 c
  | n + 1, hn => iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (accAt3 V c n hn) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of region 3 on core `c`, at the entry contents `V`: each input window's buffer keeps its block; the
    output window's buffer at a point of the last case holds that case's stores read back (elsewhere the field is not consulted:
    the window is idle there); the invariant holds the accumulator at what the point before left. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => if h1 : t.val % 4 = 3 then
        outC3 c (grid3.coords t) (ms3_0 t) (hs3_0 t) (ms3_1 t) (hs3_1 t) (ms3_2 t) (hs3_2 t) (ms3_3 t) (hs3_3 t) scM3 (Memref.isWhole_whole _) (fun h => by have h' := (hc3a t).mp h; omega) ((hc3b t).mpr h1) (iblk3 V c 0 t) (iblk3 V c 1 t) (iblk3 V c 2 t) (accAt3 V c (t.val - 1) (Nat.lt_of_le_of_lt (Nat.sub_le _ _) t.isLt))
      else VO3.read (Elt F) VO3.junk
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t
    = if h1 : t.val % 4 = 3 then
        outC3 c (grid3.coords t) (ms3_0 t) (hs3_0 t) (ms3_1 t) (hs3_1 t) (ms3_2 t) (hs3_2 t) (ms3_3 t) (hs3_3 t) scM3 (Memref.isWhole_whole _) (fun h => by have h' := (hc3a t).mp h; omega) ((hc3b t).mpr h1) (iblk3 V c 0 t) (iblk3 V c 1 t) (iblk3 V c 2 t) (accAt3 V c (t.val - 1) (Nat.lt_of_le_of_lt (Nat.sub_le _ _) t.isLt))
      else VO3.read (Elt F) VO3.junk := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_in (c : Dev nD) (w : Fin cfg3.W) (hw : w.val < 3) (t : Fin cfg3.N) :
    (dat3 V c).leavesExact w t = owns (c : Thread nD τ) ((cfg3.win w).stage (cfg3.slots t w)) fullShare ((dat3 V c).after w t) := by
  unfold Dat.leavesExact; rw [live3_in w t hw]
theorem leaves3_live (c : Dev nD) (t : Fin cfg3.N) (h : c3b (grid3.coords t)) :
    (dat3 V c).leavesExact 3 t = owns (c : Thread nD τ) (ms3_3 t) fullShare ((dat3 V c).after 3 t) := by
  unfold Dat.leavesExact; rw [live3_out t h]
theorem leaves3_idle (c : Dev nD) (t : Fin cfg3.N) (h : ¬c3b (grid3.coords t)) :
    (dat3 V c).leavesExact 3 t = iprop(∃ d, owns (c : Thread nD τ) (ms3_3 t) fullShare ((dat3 V c).before 3 t d)) :=
  Dat.leavesExact_idle (dat3 V c) 3 t (idle3_out t h) (noflush3_out t h)

set_option maxHeartbeats 8000000 in
/-- The body at any point: the inputs' buffers hold their blocks; the position along the contracted axis says which case the
    point is in; the invariant hands over the accumulator at what the point before left (at anything before the first point)
    and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_in V c 0 (by decide) t, leaves3_in V c 1 (by decide) t, leaves3_in V c 2 (by decide) t, after3_0, after3_1, after3_2]
  have hN : t.val < 128 := lt_of_lt_of_eq t.isLt (show cfg3.N = 128 from N_3)
  by_cases h0 : t.val % 4 = 0
  · rw [leaves3_idle V c t (fun h => by have h' := (hc3b t).mp h; omega)]
    rw [accAt3_A V c t h0]
    unfold sA3; (try dsimp only)
    have hrun := (run3A c (grid3.coords t) (ms3_0 t) (hs3_0 t) (ms3_1 t) (hs3_1 t) (ms3_2 t) (hs3_2 t) (ms3_3 t) (hs3_3 t) scM3 (Memref.isWhole_whole _) ((hc3a t).mpr h0) (fun h => by have h' := (hc3b t).mp h; omega) (iblk3 V c 0 t) (iblk3 V c 1 t) (iblk3 V c 2 t)).2.2
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverA3 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverA3 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · by_cases h1 : t.val % 4 = 3
    · rw [leaves3_live V c t ((hc3b t).mpr h1), after3_3, dif_pos h1]
      rw [accAt3_C V c t h0 h1]
      unfold outC3 sC3; (try dsimp only)
      have hz : t.val ≠ 0 := fun e => h0 (by rw [e])
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((run3C c (grid3.coords t) (ms3_0 t) (hs3_0 t) (ms3_1 t) (hs3_1 t) (ms3_2 t) (hs3_2 t) (ms3_3 t) (hs3_3 t) scM3 (Memref.isWhole_whole _) (fun h => h0 ((hc3a t).mp h)) ((hc3b t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC3 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC3 c _ _ _ _ _ _ _ _ _ _ _ _ _ _ _ _ _)
    · rw [leaves3_idle V c t (fun h => h1 ((hc3b t).mp h))]
      rw [accAt3_B V c t h0 h1]
      unfold sB3; (try dsimp only)
      have hz : t.val ≠ 0 := fun e => h0 (by rw [e])
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((run3B c (grid3.coords t) (ms3_0 t) (hs3_0 t) (ms3_1 t) (hs3_1 t) (ms3_2 t) (hs3_2 t) (ms3_3 t) (hs3_3 t) scM3 (Memref.isWhole_whole _) (fun h => h0 ((hc3a t).mp h)) (fun h => h1 ((hc3b t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scoverB3 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 128 := N_3; omega), PhiA3_eq]
  iintro ⟨⟨HS, Hrest⟩, Hg⟩
  isplitl [HS Hrest]
  · isplitl [HS]
    · iexists _; iexact HS
    iexact Hrest
  iexact Hg

end

end Cert.KernelIdeal.Gen

end
-- ==== Proof.KI.Frames.lean ====
/- The four regions as segments of @main, and the program's frame: every weakly fair execution terminates, nothing faults,
   the argument arrays end as launched. The contents of the unscoped buffers after a region are those before it with
   the region's one output array replaced by what its write-backs leave (each block of the output written once, at the
   last position along the contracted axis); a region's proof data are taken at the contents it is entered from. -/
import proofs.«114415_j6030134084248_2_alg».proof.Proof.KI.RegionsP
import proofs.«114415_j6030134084248_2_alg».proof.Proof.KI.Body0
import proofs.«114415_j6030134084248_2_alg».proof.Proof.KI.Body1
import proofs.«114415_j6030134084248_2_alg».proof.Proof.KI.Body2
import proofs.«114415_j6030134084248_2_alg».proof.Proof.KI.Body3
import Idealize.ShloMosaic.Lib.Pipeline.RegionsLoop

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents around the regions -/

abbrev Vr0 : (c : Dev nD) → (b : Ref sig .tc) → Buf (Elt F) ((c : Thread nD τ).loc b) := fun c b => GenP.V33 m c b
/-- What region 0 leaves in its output array. -/
def o34 (c : Dev nD) : Buf (Elt F) ((c : Thread nD τ).loc main_v52) := (dat0 (Vr0 m) c).arrAt 3 cfg0.N
abbrev Y34 (c : Dev nD) : Valuation τ sig (Elt F) := Function.update (GenP.V33 m c) main_v52 (o34 m c)
abbrev Vx0 : (c : Dev nD) → (b : Ref sig .tc) → Buf (Elt F) ((c : Thread nD τ).loc b) := fun c b => Y34 m c b
abbrev Y35 (c : Dev nD) : Valuation τ sig (Elt F) := StableHlo.after hostOps1 (Y34 m c)
abbrev Vr1 : (c : Dev nD) → (b : Ref sig .tc) → Buf (Elt F) ((c : Thread nD τ).loc b) := fun c b => Y35 m c b
def o36 (c : Dev nD) : Buf (Elt F) ((c : Thread nD τ).loc main_v54) := (dat1 (Vr1 m) c).arrAt 3 cfg1.N
abbrev Y36 (c : Dev nD) : Valuation τ sig (Elt F) := Function.update (Y35 m c) main_v54 (o36 m c)
abbrev Vx1 : (c : Dev nD) → (b : Ref sig .tc) → Buf (Elt F) ((c : Thread nD τ).loc b) := fun c b => Y36 m c b
abbrev Y37 (c : Dev nD) : Valuation τ sig (Elt F) := StableHlo.after hostOps2 (Y36 m c)
abbrev Vr2 : (c : Dev nD) → (b : Ref sig .tc) → Buf (Elt F) ((c : Thread nD τ).loc b) := fun c b => Y37 m c b
def o38 (c : Dev nD) : Buf (Elt F) ((c : Thread nD τ).loc main_v56) := (dat2 (Vr2 m) c).arrAt 3 cfg2.N
abbrev Y38 (c : Dev nD) : Valuation τ sig (Elt F) := Function.update (Y37 m c) main_v56 (o38 m c)
abbrev Vx2 : (c : Dev nD) → (b : Ref sig .tc) → Buf (Elt F) ((c : Thread nD τ).loc b) := fun c b => Y38 m c b
abbrev Y39 (c : Dev nD) : Valuation τ sig (Elt F) := StableHlo.after hostOps3 (Y38 m c)
abbrev Vr3 : (c : Dev nD) → (b : Ref sig .tc) → Buf (Elt F) ((c : Thread nD τ).loc b) := fun c b => Y39 m c b
def o40 (c : Dev nD) : Buf (Elt F) ((c : Thread nD τ).loc main_v58) := (dat3 (Vr3 m) c).arrAt 3 cfg3.N
abbrev Y40 (c : Dev nD) : Valuation τ sig (Elt F) := Function.update (Y39 m c) main_v58 (o40 m c)
abbrev Vx3 : (c : Dev nD) → (b : Ref sig .tc) → Buf (Elt F) ((c : Thread nD τ).loc b) := fun c b => Y40 m c b

/-- What the regions leave, as the family the conditional frame is stated over. -/
def outsH : GenP.Outs (F := F) := fun J r c =>
  if J = 34 then Y34 m c r else if J = 36 then Y36 m c r else if J = 38 then Y38 m c r else Y40 m c r

theorem outsH_34 (c : Dev nD) : outsH m 34 main_v52 c = o34 m c := by
  unfold outsH; rw [if_pos rfl]; exact Function.update_self _ _ _
theorem outsH_36 (c : Dev nD) : outsH m 36 main_v54 c = o36 m c := by
  unfold outsH; rw [if_neg (by decide), if_pos rfl]; exact Function.update_self _ _ _
theorem outsH_38 (c : Dev nD) : outsH m 38 main_v56 c = o38 m c := by
  unfold outsH; rw [if_neg (by decide), if_neg (by decide), if_pos rfl]; exact Function.update_self _ _ _
theorem outsH_40 (c : Dev nD) : outsH m 40 main_v58 c = o40 m c := by
  unfold outsH; rw [if_neg (by decide), if_neg (by decide), if_neg (by decide)]; exact Function.update_self _ _ _

theorem V34_eq (c : Dev nD) : GenP.V34 m (outsH m) c = Y34 m c :=
  congrArg (Function.update (GenP.V33 m c) (Proc.devRef .tc main_v52)) (outsH_34 m c)
theorem V35_eq (c : Dev nD) : GenP.V35 m (outsH m) c = Y35 m c :=
  congrArg (StableHlo.after hostOps1) (V34_eq m c)
theorem V36_eq (c : Dev nD) : GenP.V36 m (outsH m) c = Y36 m c := by
  show Function.update (GenP.V35 m (outsH m) c) (Proc.devRef .tc main_v54) (outsH m 36 main_v54 c) = _
  rw [V35_eq, outsH_36]
theorem V37_eq (c : Dev nD) : GenP.V37 m (outsH m) c = Y37 m c :=
  congrArg (StableHlo.after hostOps2) (V36_eq m c)
theorem V38_eq (c : Dev nD) : GenP.V38 m (outsH m) c = Y38 m c := by
  show Function.update (GenP.V37 m (outsH m) c) (Proc.devRef .tc main_v56) (outsH m 38 main_v56 c) = _
  rw [V37_eq, outsH_38]
theorem V39_eq (c : Dev nD) : GenP.V39 m (outsH m) c = Y39 m c :=
  congrArg (StableHlo.after hostOps3) (V38_eq m c)
theorem V40_eq (c : Dev nD) : GenP.V40 m (outsH m) c = Y40 m c := by
  show Function.update (GenP.V39 m (outsH m) c) (Proc.devRef .tc main_v58) (outsH m 40 main_v58 c) = _
  rw [V39_eq, outsH_40]

theorem Y34_self (c : Dev nD) : Y34 m c (Proc.devRef .tc main_v52) = o34 m c := Function.update_self _ _ _
theorem Y36_self (c : Dev nD) : Y36 m c (Proc.devRef .tc main_v54) = o36 m c := Function.update_self _ _ _
theorem Y38_self (c : Dev nD) : Y38 m c (Proc.devRef .tc main_v56) = o38 m c := Function.update_self _ _ _
theorem Y40_self (c : Dev nD) : Y40 m c (Proc.devRef .tc main_v58) = o40 m c := Function.update_self _ _ _

theorem hF0 (c : Dev nD) : ∀ w : Fin cfg0.W, (dat0 (Vr0 m) c).arrAt w cfg0.N = Vx0 m c (Pipeline.arrRef spec0 w) := fun
  | 0 => ((dat0 (Vr0 m) c).arrAt_in 0 rfl _).trans ((A_eq0 (Vr0 m) c 0).trans (Function.update_of_ne (StableHlo.devRef_ne_of_ne (by decide)) _ _).symm)
  | 1 => ((dat0 (Vr0 m) c).arrAt_in 1 rfl _).trans ((A_eq0 (Vr0 m) c 1).trans (Function.update_of_ne (StableHlo.devRef_ne_of_ne (by decide)) _ _).symm)
  | 2 => ((dat0 (Vr0 m) c).arrAt_in 2 rfl _).trans ((A_eq0 (Vr0 m) c 2).trans (Function.update_of_ne (StableHlo.devRef_ne_of_ne (by decide)) _ _).symm)
  | 3 => (Y34_self m c).symm
  | ⟨_ + 4, h⟩ => absurd h (Nat.not_lt.2 (Nat.le_add_left _ _))
theorem hrest0 (c : Dev nD) : ∀ b, b ∉ Finset.univ.image (Pipeline.arrRef spec0) → Vx0 m c b = Vr0 m c b :=
  fun b hb => Function.update_of_ne (StableHlo.devRef_ne_of_ne (fun e => hb (Finset.mem_image.mpr ⟨3, Finset.mem_univ _, (show Pipeline.arrRef spec0 3 = b from e.symm)⟩))) _ _

theorem hF1 (c : Dev nD) : ∀ w : Fin cfg1.W, (dat1 (Vr1 m) c).arrAt w cfg1.N = Vx1 m c (Pipeline.arrRef spec1 w) := fun
  | 0 => ((dat1 (Vr1 m) c).arrAt_in 0 rfl _).trans ((A_eq1 (Vr1 m) c 0).trans (Function.update_of_ne (StableHlo.devRef_ne_of_ne (by decide)) _ _).symm)
  | 1 => ((dat1 (Vr1 m) c).arrAt_in 1 rfl _).trans ((A_eq1 (Vr1 m) c 1).trans (Function.update_of_ne (StableHlo.devRef_ne_of_ne (by decide)) _ _).symm)
  | 2 => ((dat1 (Vr1 m) c).arrAt_in 2 rfl _).trans ((A_eq1 (Vr1 m) c 2).trans (Function.update_of_ne (StableHlo.devRef_ne_of_ne (by decide)) _ _).symm)
  | 3 => (Y36_self m c).symm
  | ⟨_ + 4, h⟩ => absurd h (Nat.not_lt.2 (Nat.le_add_left _ _))
theorem hrest1 (c : Dev nD) : ∀ b, b ∉ Finset.univ.image (Pipeline.arrRef spec1) → Vx1 m c b = Vr1 m c b :=
  fun b hb => Function.update_of_ne (StableHlo.devRef_ne_of_ne (fun e => hb (Finset.mem_image.mpr ⟨3, Finset.mem_univ _, (show Pipeline.arrRef spec1 3 = b from e.symm)⟩))) _ _

theorem hF2 (c : Dev nD) : ∀ w : Fin cfg2.W, (dat2 (Vr2 m) c).arrAt w cfg2.N = Vx2 m c (Pipeline.arrRef spec2 w) := fun
  | 0 => ((dat2 (Vr2 m) c).arrAt_in 0 rfl _).trans ((A_eq2 (Vr2 m) c 0).trans (Function.update_of_ne (StableHlo.devRef_ne_of_ne (by decide)) _ _).symm)
  | 1 => ((dat2 (Vr2 m) c).arrAt_in 1 rfl _).trans ((A_eq2 (Vr2 m) c 1).trans (Function.update_of_ne (StableHlo.devRef_ne_of_ne (by decide)) _ _).symm)
  | 2 => ((dat2 (Vr2 m) c).arrAt_in 2 rfl _).trans ((A_eq2 (Vr2 m) c 2).trans (Function.update_of_ne (StableHlo.devRef_ne_of_ne (by decide)) _ _).symm)
  | 3 => (Y38_self m c).symm
  | ⟨_ + 4, h⟩ => absurd h (Nat.not_lt.2 (Nat.le_add_left _ _))
theorem hrest2 (c : Dev nD) : ∀ b, b ∉ Finset.univ.image (Pipeline.arrRef spec2) → Vx2 m c b = Vr2 m c b :=
  fun b hb => Function.update_of_ne (StableHlo.devRef_ne_of_ne (fun e => hb (Finset.mem_image.mpr ⟨3, Finset.mem_univ _, (show Pipeline.arrRef spec2 3 = b from e.symm)⟩))) _ _

theorem hF3 (c : Dev nD) : ∀ w : Fin cfg3.W, (dat3 (Vr3 m) c).arrAt w cfg3.N = Vx3 m c (Pipeline.arrRef spec3 w) := fun
  | 0 => ((dat3 (Vr3 m) c).arrAt_in 0 rfl _).trans ((A_eq3 (Vr3 m) c 0).trans (Function.update_of_ne (StableHlo.devRef_ne_of_ne (by decide)) _ _).symm)
  | 1 => ((dat3 (Vr3 m) c).arrAt_in 1 rfl _).trans ((A_eq3 (Vr3 m) c 1).trans (Function.update_of_ne (StableHlo.devRef_ne_of_ne (by decide)) _ _).symm)
  | 2 => ((dat3 (Vr3 m) c).arrAt_in 2 rfl _).trans ((A_eq3 (Vr3 m) c 2).trans (Function.update_of_ne (StableHlo.devRef_ne_of_ne (by decide)) _ _).symm)
  | 3 => (Y40_self m c).symm
  | ⟨_ + 4, h⟩ => absurd h (Nat.not_lt.2 (Nat.le_add_left _ _))
theorem hrest3 (c : Dev nD) : ∀ b, b ∉ Finset.univ.image (Pipeline.arrRef spec3) → Vx3 m c b = Vr3 m c b :=
  fun b hb => Function.update_of_ne (StableHlo.devRef_ne_of_ne (fun e => hb (Finset.mem_image.mpr ⟨3, Finset.mem_univ _, (show Pipeline.arrRef spec3 3 = b from e.symm)⟩))) _ _

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (Vr0 m) c
  | ⟨1, _⟩ => fun c => dat1 (Vr1 m) c
  | ⟨2, _⟩ => fun c => dat2 (Vr2 m) c
  | ⟨3, _⟩ => fun c => dat3 (Vr3 m) c
/-- No core owes another anything: no level is assigned. -/
abbrev Lnone : GSem nD τ sig → Finset Unit := fun _ => ∅
abbrev lvnone : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at the contents the items before it leave, left
    with its output's array at what the pipeline's write-backs leave; the generator register into the invariant and out;
    nothing owed; no semaphore of the kernel's own. -/
def reg0 : Pipeline.RegionSeg (pcfgs (F := F)) GenP.adm (pdats m) () defs₀ Variants.none Lnone lvnone 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ Lnone lvnone 0 fun _ _ => rfl
  pre c := iprop(StableHlo.held (c : Thread nD τ) (Pipeline.ucRefs τ sig) (GenP.V33 m c) ∗ R c)
  post c := iprop(StableHlo.held (c : Thread nD τ) (Pipeline.ucRefs τ sig) (Y34 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine ((show (pdats m 0 c).Φ (Fin.last _) ⊢ Pipeline.ΦA spec0 c from .rfl)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Vr0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents the items before it leave, left
    with its output's array at what the pipeline's write-backs leave; the generator register into the invariant and out;
    nothing owed; no semaphore of the kernel's own. -/
def reg1 : Pipeline.RegionSeg (pcfgs (F := F)) GenP.adm (pdats m) () defs₀ Variants.none Lnone lvnone 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ Lnone lvnone 1 fun _ _ => rfl
  pre c := iprop(StableHlo.held (c : Thread nD τ) (Pipeline.ucRefs τ sig) (Y35 m c) ∗ R c)
  post c := iprop(StableHlo.held (c : Thread nD τ) (Pipeline.ucRefs τ sig) (Y36 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((show (pdats m 1 c).Φ (Fin.last _) ⊢ Pipeline.ΦA spec1 c from .rfl)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Vr1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents the items before it leave, left
    with its output's array at what the pipeline's write-backs leave; the generator register into the invariant and out;
    nothing owed; no semaphore of the kernel's own. -/
def reg2 : Pipeline.RegionSeg (pcfgs (F := F)) GenP.adm (pdats m) () defs₀ Variants.none Lnone lvnone 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ Lnone lvnone 2 fun _ _ => rfl
  pre c := iprop(StableHlo.held (c : Thread nD τ) (Pipeline.ucRefs τ sig) (Y37 m c) ∗ R c)
  post c := iprop(StableHlo.held (c : Thread nD τ) (Pipeline.ucRefs τ sig) (Y38 m c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine ((show (pdats m 2 c).Φ (Fin.last _) ⊢ Pipeline.ΦA spec2 c from hout2 (Vr2 m) c)).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (Vr2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents the items before it leave, left
    with its output's array at what the pipeline's write-backs leave; the generator register into the invariant and out;
    nothing owed; no semaphore of the kernel's own. -/
def reg3 : Pipeline.RegionSeg (pcfgs (F := F)) GenP.adm (pdats m) () defs₀ Variants.none Lnone lvnone 3 where
  win := launch3.win.to₀
  block_pos := launch3.block_pos
  stage_whole := launch3.stage_whole
  K := PEmpty
  osem k := k.elim
  ho := Pipeline.OwnSemFacts.none _
  hbody c := (body_obligation3 (Vr3 m) c).loose
  hwaits := Pipeline.hwaits_of_owed_zero _ _ _ _ Lnone lvnone 3 fun _ _ => rfl
  pre c := iprop(StableHlo.held (c : Thread nD τ) (Pipeline.ucRefs τ sig) (Y39 m c) ∗ R c)
  post c := iprop(StableHlo.held (c : Thread nD τ) (Pipeline.ucRefs τ sig) (Y40 m c) ∗ R c)
  X c := iprop(∃ r, prngReg c r)
  Y c := iprop(∃ r, prngReg c r)
  Z c := Pipeline.unscopedRest (Ix := Unit) (Name := ℕ) (U := UR sig nD τ) (Lvl := ℕ) spec3 c (Vr3 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine ((show (pdats m 3 c).Φ (Fin.last _) ⊢ Pipeline.ΦA spec3 c from hout3 (Vr3 m) c)).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (Vr3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

theorem hu₀H : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Per core: of what the launch deals, the generator register and the core owing nothing are kept. -/
theorem hE0c (c : Dev nD) : (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
    ⊢ (R (F := F) c : sProp 𝕄) := by
  iintro ⟨-, HO, -, Hp, -⟩
  isplitl [Hp]; · iexists _; iexact Hp
  iexists ∅; iexact HO

theorem hE0H : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lnone lvnone)
      ⊢ (|={Set.univ}=> bigSep Finset.univ (fun c : Dev nD => R (F := F) c) : sProp 𝕄) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hE0c ρ c
  iintro ⟨H, -⟩
  imodintro
  iapply hmono
  iexact H

-- the conditional frame's implicit arguments are found by unifying its conclusion with this one
set_option backward.isDefEq.respectTransparency.types false in
/-- THE FRAME at any `F`: from any memory with zero counters every weakly fair execution of @main terminates, nothing
    faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.frame_cond (m := m) (EP := emb₁) (ι := ()) (𝒱₀ := Variants.none) (L := Lnone) (lv := lvnone) (hL := fun _ _ => rfl) (ρ := ρ)
    (outs := outsH m) (pdats := pdats m) (O₀ := 0) (G := fun _ => iprop(emp))
    (u₀ := initOf (Pipeline.cells cfgs cellOf_inj) (Pipeline.launchToks cfgs cellOf_inj)) (hu₀ := hu₀H)
    (E := fun _ c => R c) (hE0 := hE0H ρ) (hE4 := fun c => by iintro ⟨-, H⟩; iexact H)
    (R0 := reg0 m) (hpre0 := fun c => .rfl) (hpost0 := fun c => by rw [V34_eq]; exact .rfl)
    (R1 := reg1 m) (hpre1 := fun c => by rw [V35_eq]; exact .rfl) (hpost1 := fun c => by rw [V36_eq]; exact .rfl)
    (R2 := reg2 m) (hpre2 := fun c => by rw [V37_eq]; exact .rfl) (hpost2 := fun c => by rw [V38_eq]; exact .rfl)
    (R3 := reg3 m) (hpre3 := fun c => by rw [V39_eq]; exact .rfl) (hpost3 := fun c => by rw [V40_eq]; exact .rfl)

end Cert.KernelIdeal.Gen

end
-- ==== Proof.KI.RunMain.lean ====
/- The idealized kernel program's run with its result named: every weakly fair execution terminates, nothing faulting;
   the result buffer ends at what the last region leaves in its output array, the argument arrays as launched. -/
import proofs.«114415_j6030134084248_2_alg».proof.Proof.KI.Frames
import proofs.«114415_j6030134084248_2_alg».proof.Proof.KI.RunOut

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the conditional run's implicit arguments are found by unifying its conclusion with this one
set_option backward.isDefEq.respectTransparency.types false in
theorem run_out : θ_run defs (onTc (τ := τ) (main (F := F))) ⟨m, fun _ => 0, ρ⟩ (fun r => ∀ c : Dev nD,
      r.2.mem ((c.tc : Thread nD τ).loc main_v58) = o40 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (outsH_40 m c), (h c).2⟩)
    (run_cond (m := m) (EP := emb₁) (ι := ()) (𝒱₀ := Variants.none) (L := Lnone) (lv := lvnone) (hL := fun _ _ => rfl) (ρ := ρ)
      (outs := outsH m) (pdats := pdats m) (O₀ := 0) (G := fun _ => iprop(emp))
      (u₀ := initOf (Pipeline.cells cfgs cellOf_inj) (Pipeline.launchToks cfgs cellOf_inj)) (hu₀ := hu₀H)
      (E := fun _ c => R c) (hE0 := hE0H ρ) (hE4 := fun c => by iintro ⟨-, H⟩; iexact H)
      (R0 := reg0 m) (hpre0 := fun c => .rfl) (hpost0 := fun c => by rw [V34_eq]; exact .rfl)
      (R1 := reg1 m) (hpre1 := fun c => by rw [V35_eq]; exact .rfl) (hpost1 := fun c => by rw [V36_eq]; exact .rfl)
      (R2 := reg2 m) (hpre2 := fun c => by rw [V37_eq]; exact .rfl) (hpost2 := fun c => by rw [V38_eq]; exact .rfl)
      (R3 := reg3 m) (hpre3 := fun c => by rw [V39_eq]; exact .rfl) (hpost3 := fun c => by rw [V40_eq]; exact .rfl))

end Cert.KernelIdeal.Gen

end
-- ==== Proof.Spec.lean ====
/-
  The specification of the four-layer quantized network, on the extended reals, index by index. No program
  is imported here. `qbits` is the six-bit symmetric weight / bias quantizer (scale by 32, round to nearest with
  ties to even, clip into [-32, 31], scale by 1/32); `qrelu` is the six-bit activation quantizer (scale by 64, round,
  clip into [0, 63], scale by 1/64); `dense` is one layer's affine map with quantized weights and bias; `out` is the
  composition: three layers followed by `qrelu`, and a last layer without it. Every float literal stays the word that
  denotes it; only their finiteness (each denotes a real) is proved, once, here.

  The second half relates the straight-through spelling of rounding, `p + (round p - p)`, to `round p`: on the extended
  reals the two agree exactly when `p` is finite (at an infinity the difference `round p - p` is `⊥`), so the
  straight-through quantizers `qbitsSte`, `qreluSte` equal `qbits`, `qrelu` on finite arguments; and every quantizer's
  value is finite whatever its argument, because a clip's result lies between two finite bounds, and a finite sum of
  products of finite numbers is finite.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- Round to nearest, ties to even, with the infinities fixed. -/
abbrev rne (x : EReal) : EReal := Ideal.liftRound Ideal.roundHalfEven x

/-- The weight / bias quantizer: `min 31 (max (-32) (rne (v * 32))) * (1/32)`. -/
def qbits (v : EReal) : EReal :=
  min (Ideal.ofBits .f32 0x41F80000#32) (max (Ideal.ofBits .f32 0xC2000000#32) (rne (v * Ideal.ofBits .f32 0x42000000#32)))
    * Ideal.ofBits .f32 0x3D000000#32

/-- The activation quantizer: `min 63 (max 0 (rne (a * 64))) * (1/64)`. -/
def qrelu (a : EReal) : EReal :=
  min (Ideal.ofBits .f32 0x427C0000#32) (max (Ideal.ofBits .f32 0x00000000#32) (rne (a * Ideal.ofBits .f32 0x42800000#32)))
    * Ideal.ofBits .f32 0x3C800000#32

/-- One layer before its activation: the row of `h` against the quantized column of `W`, plus the quantized bias. -/
def dense {M K N : Nat} (h : Fin M → Fin K → EReal) (W : Fin K → Fin N → EReal) (b : Fin N → EReal)
    (p : Fin M) (q : Fin N) : EReal :=
  (∑ k : Fin K, h p k * qbits (W k q)) + qbits (b q)

/-- The network: three quantized-activation layers and a last affine layer. -/
def out (x : Fin 8192 → Fin 128 → EReal) (W0 : Fin 128 → Fin 1024 → EReal) (b0 : Fin 1024 → EReal)
    (W1 : Fin 1024 → Fin 2048 → EReal) (b1 : Fin 2048 → EReal)
    (W2 : Fin 2048 → Fin 4096 → EReal) (b2 : Fin 4096 → EReal)
    (W3 : Fin 4096 → Fin 4096 → EReal) (b3 : Fin 4096 → EReal) : Fin 8192 → Fin 4096 → EReal :=
  dense (fun p k => qrelu (dense (fun p k => qrelu (dense (fun p k => qrelu (dense x W0 b0 p k)) W1 b1 p k)) W2 b2 p k)) W3 b3

/-! ## The straight-through spelling -/

/-- Rounding spelt straight-through: `p + (rne p - p)`. -/
abbrev rneSte (p : EReal) : EReal := p + (rne p - p)

/-- The weight / bias quantizer in the straight-through spelling, the scale on the left. -/
def qbitsSte (v : EReal) : EReal :=
  Ideal.ofBits .f32 0x3D000000#32
    * min (Ideal.ofBits .f32 0x41F80000#32) (max (Ideal.ofBits .f32 0xC2000000#32) (rneSte (v * Ideal.ofBits .f32 0x42000000#32)))

/-- The activation quantizer in the straight-through spelling, the scale on the left. -/
def qreluSte (a : EReal) : EReal :=
  Ideal.ofBits .f32 0x3C800000#32
    * min (Ideal.ofBits .f32 0x427C0000#32) (max (Ideal.ofBits .f32 0x00000000#32) (rneSte (a * Ideal.ofBits .f32 0x42800000#32)))

/-! ## The literals denote reals -/

theorem lit_32 : Ideal.ofBits .f32 0x42000000#32 = ((32 : ℝ) : EReal) := by
  simp [Ideal.ofBits, Ideal.ieee, -EReal.coe_mul]; norm_num
theorem lit_neg32 : Ideal.ofBits .f32 0xC2000000#32 = ((-32 : ℝ) : EReal) := by
  simp [Ideal.ofBits, Ideal.ieee, -EReal.coe_mul]; norm_num
theorem lit_31 : Ideal.ofBits .f32 0x41F80000#32 = ((31 : ℝ) : EReal) := by
  simp [Ideal.ofBits, Ideal.ieee, -EReal.coe_mul]; norm_num
theorem lit_inv32 : Ideal.ofBits .f32 0x3D000000#32 = ((1 / 32 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_63 : Ideal.ofBits .f32 0x427C0000#32 = ((63 : ℝ) : EReal) := by
  simp [Ideal.ofBits, Ideal.ieee, -EReal.coe_mul]; norm_num
theorem lit_inv64 : Ideal.ofBits .f32 0x3C800000#32 = ((1 / 64 : ℝ) : EReal) := by
  simp [Ideal.ofBits, Ideal.ieee, -EReal.coe_mul]; norm_num
theorem lit_0 : Ideal.ofBits .f32 0x00000000#32 = ((0 : ℝ) : EReal) := by
  rw [Ideal.ofBits_zero_f32]; rfl

/-! ## Finite values -/

/-- An extended real that is a real. -/
abbrev IsReal (x : EReal) : Prop := ∃ r : ℝ, x = (r : EReal)

theorem isReal_of_ne {x : EReal} (ht : x ≠ ⊤) (hb : x ≠ ⊥) : IsReal x := ⟨x.toReal, (EReal.coe_toReal ht hb).symm⟩

theorem isReal_mul {x y : EReal} (hx : IsReal x) (hy : IsReal y) : IsReal (x * y) := by
  obtain ⟨r, rfl⟩ := hx; obtain ⟨s, rfl⟩ := hy; exact ⟨r * s, (EReal.coe_mul r s).symm⟩

theorem isReal_add {x y : EReal} (hx : IsReal x) (hy : IsReal y) : IsReal (x + y) := by
  obtain ⟨r, rfl⟩ := hx; obtain ⟨s, rfl⟩ := hy; exact ⟨r + s, (EReal.coe_add r s).symm⟩

/-- A finite sum of reals is a real. -/
theorem isReal_sum {ι : Type} (s : Finset ι) (f : ι → EReal) (hf : ∀ k, IsReal (f k)) : IsReal (∑ k ∈ s, f k) := by
  classical
  refine Finset.induction_on s ⟨0, by simp⟩ fun a s ha ih => ?_
  rw [Finset.sum_insert ha]
  exact isReal_add (hf a) ih

/-- A clip between two reals is a real, whatever is clipped. -/
theorem isReal_clip (lo hi : ℝ) (x : EReal) : IsReal (min (hi : EReal) (max (lo : EReal) x)) := by
  refine isReal_of_ne (ne_of_lt (lt_of_le_of_lt (min_le_left _ _) (EReal.coe_lt_top hi))) (ne_of_gt ?_)
  exact lt_min (EReal.bot_lt_coe hi) (lt_of_lt_of_le (EReal.bot_lt_coe lo) (le_max_left _ _))

/-- The weight / bias quantizer's value is a real, whatever its argument. -/
theorem qbits_isReal (v : EReal) : IsReal (qbits v) := by
  unfold qbits
  rw [lit_31, lit_neg32, lit_inv32]
  exact isReal_mul (isReal_clip _ _ _) ⟨_, rfl⟩

/-- The activation quantizer's value is a real, whatever its argument. -/
theorem qrelu_isReal (a : EReal) : IsReal (qrelu a) := by
  unfold qrelu
  rw [lit_63, lit_0, lit_inv64]
  exact isReal_mul (isReal_clip _ _ _) ⟨_, rfl⟩

/-- A layer of a finite activation is finite. -/
theorem dense_isReal {M K N : Nat} (h : Fin M → Fin K → EReal) (W : Fin K → Fin N → EReal) (b : Fin N → EReal)
    (hh : ∀ p k, IsReal (h p k)) (p : Fin M) (q : Fin N) : IsReal (dense h W b p q) :=
  isReal_add (isReal_sum _ _ fun k => isReal_mul (hh p k) (qbits_isReal _)) (qbits_isReal _)

/-! ## Straight-through rounding on finite arguments -/

/-- On a real, `p + (rne p - p)` is `rne p`. -/
theorem rneSte_coe (r : ℝ) : rneSte (r : EReal) = rne (r : EReal) := by
  show (r : EReal) + (((Ideal.roundHalfEven r : ℝ) : EReal) - (r : EReal)) = ((Ideal.roundHalfEven r : ℝ) : EReal)
  rw [← EReal.coe_sub, ← EReal.coe_add]
  exact congrArg _ (by ring)

/-- On a finite argument the straight-through weight / bias quantizer is the plain one. -/
theorem qbitsSte_eq {v : EReal} (hv : IsReal v) : qbitsSte v = qbits v := by
  obtain ⟨r, rfl⟩ := hv
  unfold qbitsSte qbits
  rw [lit_32, ← EReal.coe_mul, rneSte_coe, mul_comm]

/-- On a finite argument the straight-through activation quantizer is the plain one. -/
theorem qreluSte_eq {a : EReal} (ha : IsReal a) : qreluSte a = qrelu a := by
  obtain ⟨r, rfl⟩ := ha
  unfold qreluSte qrelu
  rw [lit_64, ← EReal.coe_mul, rneSte_coe, mul_comm]

end Cert.Spec

end
-- ==== Proof.KI.HostStages.lean ====
/-
  What the host operations of the kernel's program leave in the buffers its four regions read. Each weight matrix and
  each bias vector is quantized on the host: scaled by 32, rounded to nearest with ties to even, clipped into [-32, 31],
  scaled by 1/32 — the specification's `qbits`, element by element (a change of float format is the identity on the
  extended reals). A bias is then viewed as a one-row matrix: entry (0, j) of the view is entry j of the vector. The input
  array is written by no host operation.
-/
import proofs.«114415_j6030134084248_2_alg».proof.Proof.KI.RegionsP
import proofs.«114415_j6030134084248_2_alg».proof.Proof.Spec
import Idealize.ShloMosaic.Lib.Pipeline.Value
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The quantizer's five host stretches, from any contents `V` -/

/-- After the five stretches that quantize `main_arg1`, `main_v5` holds `qbits` of it, element by element. -/
theorem chain_W0 (V : Valuation τ sig (Elt Ideal)) :
    (StableHlo.after hostOps0_4 (StableHlo.after hostOps0_3 (StableHlo.after hostOps0_2 (StableHlo.after hostOps0_1 (StableHlo.after hostOps0 V)))) (Proc.devRef .tc main_v5) : FVec Ideal S128x1024 .f32)
      = fun i => Spec.qbits ((V (Proc.devRef .tc main_arg1) : FVec Ideal S128x1024 .f32) i) := by
  after_results
  rfl

/-- After the five stretches that quantize `main_arg3`, `main_v12` holds `qbits` of it, element by element. -/
theorem chain_W1 (V : Valuation τ sig (Elt Ideal)) :
    (StableHlo.after hostOps0_8 (StableHlo.after hostOps0_7 (StableHlo.after hostOps0_6 (StableHlo.after hostOps0_5 (StableHlo.after hostOps0_4 V)))) (Proc.devRef .tc main_v12) : FVec Ideal S1024x2048 .bf16)
      = fun i => Spec.qbits ((V (Proc.devRef .tc main_arg3) : FVec Ideal S1024x2048 .f32) i) := by
  after_results
  rfl

/-- After the five stretches that quantize `main_arg5`, `main_v19` holds `qbits` of it, element by element. -/
theorem chain_W2 (V : Valuation τ sig (Elt Ideal)) :
    (StableHlo.after hostOps0_12 (StableHlo.after hostOps0_11 (StableHlo.after hostOps0_10 (StableHlo.after hostOps0_9 (StableHlo.after hostOps0_8 V)))) (Proc.devRef .tc main_v19) : FVec Ideal S2048x4096 .bf16)
      = fun i => Spec.qbits ((V (Proc.devRef .tc main_arg5) : FVec Ideal S2048x4096 .f32) i) := by
  after_results
  rfl

/-- After the five stretches that quantize `main_arg7`, `main_v26` holds `qbits` of it, element by element. -/
theorem chain_W3 (V : Valuation τ sig (Elt Ideal)) :
    (StableHlo.after hostOps0_16 (StableHlo.after hostOps0_15 (StableHlo.after hostOps0_14 (StableHlo.after hostOps0_13 (StableHlo.after hostOps0_12 V)))) (Proc.devRef .tc main_v26) : FVec Ideal S4096x4096 .bf16)
      = fun i => Spec.qbits ((V (Proc.devRef .tc main_arg7) : FVec Ideal S4096x4096 .f32) i) := by
  after_results
  rfl

/-- After the five stretches that quantize `main_arg2`, `main_v32` holds `qbits` of it, element by element. -/
theorem chain_b0 (V : Valuation τ sig (Elt Ideal)) :
    (StableHlo.after hostOps0_20 (StableHlo.after hostOps0_19 (StableHlo.after hostOps0_18 (StableHlo.after hostOps0_17 (StableHlo.after hostOps0_16 V)))) (Proc.devRef .tc main_v32) : FVec Ideal S1024 .f32)
      = fun i => Spec.qbits ((V (Proc.devRef .tc main_arg2) : FVec Ideal S1024 .f32) i) := by
  after_results
  rfl

/-- After the five stretches that quantize `main_arg4`, `main_v38` holds `qbits` of it, element by element. -/
theorem chain_b1 (V : Valuation τ sig (Elt Ideal)) :
    (StableHlo.after hostOps0_24 (StableHlo.after hostOps0_23 (StableHlo.after hostOps0_22 (StableHlo.after hostOps0_21 (StableHlo.after hostOps0_20 V)))) (Proc.devRef .tc main_v38) : FVec Ideal S2048 .f32)
      = fun i => Spec.qbits ((V (Proc.devRef .tc main_arg4) : FVec Ideal S2048 .f32) i) := by
  after_results
  rfl

/-- After the five stretches that quantize `main_arg6`, `main_v44` holds `qbits` of it, element by element. -/
theorem chain_b2 (V : Valuation τ sig (Elt Ideal)) :
    (StableHlo.after hostOps0_28 (StableHlo.after hostOps0_27 (StableHlo.after hostOps0_26 (StableHlo.after hostOps0_25 (StableHlo.after hostOps0_24 V)))) (Proc.devRef .tc main_v44) : FVec Ideal S4096 .f32)
      = fun i => Spec.qbits ((V (Proc.devRef .tc main_arg6) : FVec Ideal S4096 .f32) i) := by
  after_results
  rfl

/-- After the five stretches that quantize `main_arg8`, `main_v50` holds `qbits` of it, element by element. -/
theorem chain_b3 (V : Valuation τ sig (Elt Ideal)) :
    (StableHlo.after hostOps0_32 (StableHlo.after hostOps0_31 (StableHlo.after hostOps0_30 (StableHlo.after hostOps0_29 (StableHlo.after hostOps0_28 V)))) (Proc.devRef .tc main_v50) : FVec Ideal S4096 .f32)
      = fun i => Spec.qbits ((V (Proc.devRef .tc main_arg8) : FVec Ideal S4096 .f32) i) := by
  after_results
  rfl

/-! ## A bias viewed as one row -/

/-- The one-row view `main_v51` of `main_v32`: entry `j` of the view is entry `j 1` of the vector. -/
theorem row0 (V : Valuation τ sig (Elt Ideal)) (j : S1x1024.Idx) :
    (StableHlo.after hostOps0_32 V (Proc.devRef .tc main_v51) : FVec Ideal S1x1024 .f32) j
      = (V (Proc.devRef .tc main_v32) : FVec Ideal S1024 .f32) (ix1 (j 1)) := by
  after_results
  refine (shapeCast_addUnit_apply ![1024] _ _ j).trans (congrArg _ ?_)
  funext a; match a with | ⟨0, _⟩ => rfl

/-- The one-row view `main_v53` of `main_v38`: entry `j` of the view is entry `j 1` of the vector. -/
theorem bias1 (V : Valuation τ sig (Elt Ideal)) (j : S1x2048.Idx) :
    (StableHlo.after hostOps1 V (Proc.devRef .tc main_v53) : FVec Ideal S1x2048 .f32) j
      = (V (Proc.devRef .tc main_v38) : FVec Ideal S2048 .f32) (ix1 (j 1)) := by
  after_results
  refine (shapeCast_addUnit_apply ![2048] _ _ j).trans (congrArg _ ?_)
  funext a; match a with | ⟨0, _⟩ => rfl

/-- The one-row view `main_v55` of `main_v44`: entry `j` of the view is entry `j 1` of the vector. -/
theorem bias2 (V : Valuation τ sig (Elt Ideal)) (j : S1x4096.Idx) :
    (StableHlo.after hostOps2 V (Proc.devRef .tc main_v55) : FVec Ideal S1x4096 .f32) j
      = (V (Proc.devRef .tc main_v44) : FVec Ideal S4096 .f32) (ix1 (j 1)) := by
  after_results
  refine (shapeCast_addUnit_apply ![4096] _ _ j).trans (congrArg _ ?_)
  funext a; match a with | ⟨0, _⟩ => rfl

/-- The one-row view `main_v57` of `main_v50`: entry `j` of the view is entry `j 1` of the vector. -/
theorem bias3 (V : Valuation τ sig (Elt Ideal)) (j : S1x4096.Idx) :
    (StableHlo.after hostOps3 V (Proc.devRef .tc main_v57) : FVec Ideal S1x4096 .f32) j
      = (V (Proc.devRef .tc main_v50) : FVec Ideal S4096 .f32) (ix1 (j 1)) := by
  after_results
  refine (shapeCast_addUnit_apply ![4096] _ _ j).trans (congrArg _ ?_)
  funext a; match a with | ⟨0, _⟩ => rfl

/-! ## What no later stretch writes is kept -/

/-- `main_v5` is written once, by the last stretch of its quantizer. -/
theorem kept_W0 (c : Dev nD) : GenP.V33 m c main_v5 = GenP.V5 m c main_v5 :=
  (GenP.V33_of m c main_v5 (by decide)).trans <| (GenP.V32_of m c main_v5 (by decide)).trans <| (GenP.V31_of m c main_v5 (by decide)).trans <| (GenP.V30_of m c main_v5 (by decide)).trans <| (GenP.V29_of m c main_v5 (by decide)).trans <| (GenP.V28_of m c main_v5 (by decide)).trans <| (GenP.V27_of m c main_v5 (by decide)).trans <| (GenP.V26_of m c main_v5 (by decide)).trans <| (GenP.V25_of m c main_v5 (by decide)).trans <| (GenP.V24_of m c main_v5 (by decide)).trans <| (GenP.V23_of m c main_v5 (by decide)).trans <| (GenP.V22_of m c main_v5 (by decide)).trans <| (GenP.V21_of m c main_v5 (by decide)).trans <| (GenP.V20_of m c main_v5 (by decide)).trans <| (GenP.V19_of m c main_v5 (by decide)).trans <| (GenP.V18_of m c main_v5 (by decide)).trans <| (GenP.V17_of m c main_v5 (by decide)).trans <| (GenP.V16_of m c main_v5 (by decide)).trans <| (GenP.V15_of m c main_v5 (by decide)).trans <| (GenP.V14_of m c main_v5 (by decide)).trans <| (GenP.V13_of m c main_v5 (by decide)).trans <| (GenP.V12_of m c main_v5 (by decide)).trans <| (GenP.V11_of m c main_v5 (by decide)).trans <| (GenP.V10_of m c main_v5 (by decide)).trans <| (GenP.V9_of m c main_v5 (by decide)).trans <| (GenP.V8_of m c main_v5 (by decide)).trans <| (GenP.V7_of m c main_v5 (by decide)).trans <| (GenP.V6_of m c main_v5 (by decide))

/-- `main_v12` is written once, by the last stretch of its quantizer. -/
theorem kept_W1 (c : Dev nD) : GenP.V33 m c main_v12 = GenP.V9 m c main_v12 :=
  (GenP.V33_of m c main_v12 (by decide)).trans <| (GenP.V32_of m c main_v12 (by decide)).trans <| (GenP.V31_of m c main_v12 (by decide)).trans <| (GenP.V30_of m c main_v12 (by decide)).trans <| (GenP.V29_of m c main_v12 (by decide)).trans <| (GenP.V28_of m c main_v12 (by decide)).trans <| (GenP.V27_of m c main_v12 (by decide)).trans <| (GenP.V26_of m c main_v12 (by decide)).trans <| (GenP.V25_of m c main_v12 (by decide)).trans <| (GenP.V24_of m c main_v12 (by decide)).trans <| (GenP.V23_of m c main_v12 (by decide)).trans <| (GenP.V22_of m c main_v12 (by decide)).trans <| (GenP.V21_of m c main_v12 (by decide)).trans <| (GenP.V20_of m c main_v12 (by decide)).trans <| (GenP.V19_of m c main_v12 (by decide)).trans <| (GenP.V18_of m c main_v12 (by decide)).trans <| (GenP.V17_of m c main_v12 (by decide)).trans <| (GenP.V16_of m c main_v12 (by decide)).trans <| (GenP.V15_of m c main_v12 (by decide)).trans <| (GenP.V14_of m c main_v12 (by decide)).trans <| (GenP.V13_of m c main_v12 (by decide)).trans <| (GenP.V12_of m c main_v12 (by decide)).trans <| (GenP.V11_of m c main_v12 (by decide)).trans <| (GenP.V10_of m c main_v12 (by decide))

/-- `main_arg3` is still as launched when its quantizer starts. -/
theorem arg_W1 (c : Dev nD) : GenP.V4 m c main_arg3 = m ((c.tc : Thread nD τ).loc main_arg3) :=
  (GenP.V4_of m c main_arg3 (by decide)).trans <| (GenP.V3_of m c main_arg3 (by decide)).trans <| (GenP.V2_of m c main_arg3 (by decide)).trans <| (GenP.V1_of m c main_arg3 (by decide))

/-- `main_v19` is written once, by the last stretch of its quantizer. -/
theorem kept_W2 (c : Dev nD) : GenP.V33 m c main_v19 = GenP.V13 m c main_v19 :=
  (GenP.V33_of m c main_v19 (by decide)).trans <| (GenP.V32_of m c main_v19 (by decide)).trans <| (GenP.V31_of m c main_v19 (by decide)).trans <| (GenP.V30_of m c main_v19 (by decide)).trans <| (GenP.V29_of m c main_v19 (by decide)).trans <| (GenP.V28_of m c main_v19 (by decide)).trans <| (GenP.V27_of m c main_v19 (by decide)).trans <| (GenP.V26_of m c main_v19 (by decide)).trans <| (GenP.V25_of m c main_v19 (by decide)).trans <| (GenP.V24_of m c main_v19 (by decide)).trans <| (GenP.V23_of m c main_v19 (by decide)).trans <| (GenP.V22_of m c main_v19 (by decide)).trans <| (GenP.V21_of m c main_v19 (by decide)).trans <| (GenP.V20_of m c main_v19 (by decide)).trans <| (GenP.V19_of m c main_v19 (by decide)).trans <| (GenP.V18_of m c main_v19 (by decide)).trans <| (GenP.V17_of m c main_v19 (by decide)).trans <| (GenP.V16_of m c main_v19 (by decide)).trans <| (GenP.V15_of m c main_v19 (by decide)).trans <| (GenP.V14_of m c main_v19 (by decide))

/-- `main_arg5` is still as launched when its quantizer starts. -/
theorem arg_W2 (c : Dev nD) : GenP.V8 m c main_arg5 = m ((c.tc : Thread nD τ).loc main_arg5) :=
  (GenP.V8_of m c main_arg5 (by decide)).trans <| (GenP.V7_of m c main_arg5 (by decide)).trans <| (GenP.V6_of m c main_arg5 (by decide)).trans <| (GenP.V5_of m c main_arg5 (by decide)).trans <| (GenP.V4_of m c main_arg5 (by decide)).trans <| (GenP.V3_of m c main_arg5 (by decide)).trans <| (GenP.V2_of m c main_arg5 (by decide)).trans <| (GenP.V1_of m c main_arg5 (by decide))

/-- `main_v26` is written once, by the last stretch of its quantizer. -/
theorem kept_W3 (c : Dev nD) : GenP.V33 m c main_v26 = GenP.V17 m c main_v26 :=
  (GenP.V33_of m c main_v26 (by decide)).trans <| (GenP.V32_of m c main_v26 (by decide)).trans <| (GenP.V31_of m c main_v26 (by decide)).trans <| (GenP.V30_of m c main_v26 (by decide)).trans <| (GenP.V29_of m c main_v26 (by decide)).trans <| (GenP.V28_of m c main_v26 (by decide)).trans <| (GenP.V27_of m c main_v26 (by decide)).trans <| (GenP.V26_of m c main_v26 (by decide)).trans <| (GenP.V25_of m c main_v26 (by decide)).trans <| (GenP.V24_of m c main_v26 (by decide)).trans <| (GenP.V23_of m c main_v26 (by decide)).trans <| (GenP.V22_of m c main_v26 (by decide)).trans <| (GenP.V21_of m c main_v26 (by decide)).trans <| (GenP.V20_of m c main_v26 (by decide)).trans <| (GenP.V19_of m c main_v26 (by decide)).trans <| (GenP.V18_of m c main_v26 (by decide))

/-- `main_arg7` is still as launched when its quantizer starts. -/
theorem arg_W3 (c : Dev nD) : GenP.V12 m c main_arg7 = m ((c.tc : Thread nD τ).loc main_arg7) :=
  (GenP.V12_of m c main_arg7 (by decide)).trans <| (GenP.V11_of m c main_arg7 (by decide)).trans <| (GenP.V10_of m c main_arg7 (by decide)).trans <| (GenP.V9_of m c main_arg7 (by decide)).trans <| (GenP.V8_of m c main_arg7 (by decide)).trans <| (GenP.V7_of m c main_arg7 (by decide)).trans <| (GenP.V6_of m c main_arg7 (by decide)).trans <| (GenP.V5_of m c main_arg7 (by decide)).trans <| (GenP.V4_of m c main_arg7 (by decide)).trans <| (GenP.V3_of m c main_arg7 (by decide)).trans <| (GenP.V2_of m c main_arg7 (by decide)).trans <| (GenP.V1_of m c main_arg7 (by decide))

/-- `main_v32` is written once, by the last stretch of its quantizer. -/
theorem kept_b0 (c : Dev nD) : GenP.V33 m c main_v32 = GenP.V21 m c main_v32 :=
  (GenP.V33_of m c main_v32 (by decide)).trans <| (GenP.V32_of m c main_v32 (by decide)).trans <| (GenP.V31_of m c main_v32 (by decide)).trans <| (GenP.V30_of m c main_v32 (by decide)).trans <| (GenP.V29_of m c main_v32 (by decide)).trans <| (GenP.V28_of m c main_v32 (by decide)).trans <| (GenP.V27_of m c main_v32 (by decide)).trans <| (GenP.V26_of m c main_v32 (by decide)).trans <| (GenP.V25_of m c main_v32 (by decide)).trans <| (GenP.V24_of m c main_v32 (by decide)).trans <| (GenP.V23_of m c main_v32 (by decide)).trans <| (GenP.V22_of m c main_v32 (by decide))

/-- `main_arg2` is still as launched when its quantizer starts. -/
theorem arg_b0 (c : Dev nD) : GenP.V16 m c main_arg2 = m ((c.tc : Thread nD τ).loc main_arg2) :=
  (GenP.V16_of m c main_arg2 (by decide)).trans <| (GenP.V15_of m c main_arg2 (by decide)).trans <| (GenP.V14_of m c main_arg2 (by decide)).trans <| (GenP.V13_of m c main_arg2 (by decide)).trans <| (GenP.V12_of m c main_arg2 (by decide)).trans <| (GenP.V11_of m c main_arg2 (by decide)).trans <| (GenP.V10_of m c main_arg2 (by decide)).trans <| (GenP.V9_of m c main_arg2 (by decide)).trans <| (GenP.V8_of m c main_arg2 (by decide)).trans <| (GenP.V7_of m c main_arg2 (by decide)).trans <| (GenP.V6_of m c main_arg2 (by decide)).trans <| (GenP.V5_of m c main_arg2 (by decide)).trans <| (GenP.V4_of m c main_arg2 (by decide)).trans <| (GenP.V3_of m c main_arg2 (by decide)).trans <| (GenP.V2_of m c main_arg2 (by decide)).trans <| (GenP.V1_of m c main_arg2 (by decide))

/-- `main_v38` is written once, by the last stretch of its quantizer. -/
theorem kept_b1 (c : Dev nD) : GenP.V33 m c main_v38 = GenP.V25 m c main_v38 :=
  (GenP.V33_of m c main_v38 (by decide)).trans <| (GenP.V32_of m c main_v38 (by decide)).trans <| (GenP.V31_of m c main_v38 (by decide)).trans <| (GenP.V30_of m c main_v38 (by decide)).trans <| (GenP.V29_of m c main_v38 (by decide)).trans <| (GenP.V28_of m c main_v38 (by decide)).trans <| (GenP.V27_of m c main_v38 (by decide)).trans <| (GenP.V26_of m c main_v38 (by decide))

/-- `main_arg4` is still as launched when its quantizer starts. -/
theorem arg_b1 (c : Dev nD) : GenP.V20 m c main_arg4 = m ((c.tc : Thread nD τ).loc main_arg4) :=
  (GenP.V20_of m c main_arg4 (by decide)).trans <| (GenP.V19_of m c main_arg4 (by decide)).trans <| (GenP.V18_of m c main_arg4 (by decide)).trans <| (GenP.V17_of m c main_arg4 (by decide)).trans <| (GenP.V16_of m c main_arg4 (by decide)).trans <| (GenP.V15_of m c main_arg4 (by decide)).trans <| (GenP.V14_of m c main_arg4 (by decide)).trans <| (GenP.V13_of m c main_arg4 (by decide)).trans <| (GenP.V12_of m c main_arg4 (by decide)).trans <| (GenP.V11_of m c main_arg4 (by decide)).trans <| (GenP.V10_of m c main_arg4 (by decide)).trans <| (GenP.V9_of m c main_arg4 (by decide)).trans <| (GenP.V8_of m c main_arg4 (by decide)).trans <| (GenP.V7_of m c main_arg4 (by decide)).trans <| (GenP.V6_of m c main_arg4 (by decide)).trans <| (GenP.V5_of m c main_arg4 (by decide)).trans <| (GenP.V4_of m c main_arg4 (by decide)).trans <| (GenP.V3_of m c main_arg4 (by decide)).trans <| (GenP.V2_of m c main_arg4 (by decide)).trans <| (GenP.V1_of m c main_arg4 (by decide))

/-- `main_v44` is written once, by the last stretch of its quantizer. -/
theorem kept_b2 (c : Dev nD) : GenP.V33 m c main_v44 = GenP.V29 m c main_v44 :=
  (GenP.V33_of m c main_v44 (by decide)).trans <| (GenP.V32_of m c main_v44 (by decide)).trans <| (GenP.V31_of m c main_v44 (by decide)).trans <| (GenP.V30_of m c main_v44 (by decide))

/-- `main_arg6` is still as launched when its quantizer starts. -/
theorem arg_b2 (c : Dev nD) : GenP.V24 m c main_arg6 = m ((c.tc : Thread nD τ).loc main_arg6) :=
  (GenP.V24_of m c main_arg6 (by decide)).trans <| (GenP.V23_of m c main_arg6 (by decide)).trans <| (GenP.V22_of m c main_arg6 (by decide)).trans <| (GenP.V21_of m c main_arg6 (by decide)).trans <| (GenP.V20_of m c main_arg6 (by decide)).trans <| (GenP.V19_of m c main_arg6 (by decide)).trans <| (GenP.V18_of m c main_arg6 (by decide)).trans <| (GenP.V17_of m c main_arg6 (by decide)).trans <| (GenP.V16_of m c main_arg6 (by decide)).trans <| (GenP.V15_of m c main_arg6 (by decide)).trans <| (GenP.V14_of m c main_arg6 (by decide)).trans <| (GenP.V13_of m c main_arg6 (by decide)).trans <| (GenP.V12_of m c main_arg6 (by decide)).trans <| (GenP.V11_of m c main_arg6 (by decide)).trans <| (GenP.V10_of m c main_arg6 (by decide)).trans <| (GenP.V9_of m c main_arg6 (by decide)).trans <| (GenP.V8_of m c main_arg6 (by decide)).trans <| (GenP.V7_of m c main_arg6 (by decide)).trans <| (GenP.V6_of m c main_arg6 (by decide)).trans <| (GenP.V5_of m c main_arg6 (by decide)).trans <| (GenP.V4_of m c main_arg6 (by decide)).trans <| (GenP.V3_of m c main_arg6 (by decide)).trans <| (GenP.V2_of m c main_arg6 (by decide)).trans <| (GenP.V1_of m c main_arg6 (by decide))

/-- `main_arg8` is still as launched when its quantizer starts. -/
theorem arg_b3 (c : Dev nD) : GenP.V28 m c main_arg8 = m ((c.tc : Thread nD τ).loc main_arg8) :=
  (GenP.V28_of m c main_arg8 (by decide)).trans <| (GenP.V27_of m c main_arg8 (by decide)).trans <| (GenP.V26_of m c main_arg8 (by decide)).trans <| (GenP.V25_of m c main_arg8 (by decide)).trans <| (GenP.V24_of m c main_arg8 (by decide)).trans <| (GenP.V23_of m c main_arg8 (by decide)).trans <| (GenP.V22_of m c main_arg8 (by decide)).trans <| (GenP.V21_of m c main_arg8 (by decide)).trans <| (GenP.V20_of m c main_arg8 (by decide)).trans <| (GenP.V19_of m c main_arg8 (by decide)).trans <| (GenP.V18_of m c main_arg8 (by decide)).trans <| (GenP.V17_of m c main_arg8 (by decide)).trans <| (GenP.V16_of m c main_arg8 (by decide)).trans <| (GenP.V15_of m c main_arg8 (by decide)).trans <| (GenP.V14_of m c main_arg8 (by decide)).trans <| (GenP.V13_of m c main_arg8 (by decide)).trans <| (GenP.V12_of m c main_arg8 (by decide)).trans <| (GenP.V11_of m c main_arg8 (by decide)).trans <| (GenP.V10_of m c main_arg8 (by decide)).trans <| (GenP.V9_of m c main_arg8 (by decide)).trans <| (GenP.V8_of m c main_arg8 (by decide)).trans <| (GenP.V7_of m c main_arg8 (by decide)).trans <| (GenP.V6_of m c main_arg8 (by decide)).trans <| (GenP.V5_of m c main_arg8 (by decide)).trans <| (GenP.V4_of m c main_arg8 (by decide)).trans <| (GenP.V3_of m c main_arg8 (by decide)).trans <| (GenP.V2_of m c main_arg8 (by decide)).trans <| (GenP.V1_of m c main_arg8 (by decide))

/-- THE INPUT IS KEPT: no host stretch before the first region writes `main_arg0`. -/
theorem x_kept (c : Dev nD) : GenP.V33 m c (Proc.devRef .tc main_arg0) = m ((c.tc : Thread nD τ).loc main_arg0) :=
  (GenP.V33_of m c main_arg0 (by decide)).trans <| (GenP.V32_of m c main_arg0 (by decide)).trans <| (GenP.V31_of m c main_arg0 (by decide)).trans <| (GenP.V30_of m c main_arg0 (by decide)).trans <| (GenP.V29_of m c main_arg0 (by decide)).trans <| (GenP.V28_of m c main_arg0 (by decide)).trans <| (GenP.V27_of m c main_arg0 (by decide)).trans <| (GenP.V26_of m c main_arg0 (by decide)).trans <| (GenP.V25_of m c main_arg0 (by decide)).trans <| (GenP.V24_of m c main_arg0 (by decide)).trans <| (GenP.V23_of m c main_arg0 (by decide)).trans <| (GenP.V22_of m c main_arg0 (by decide)).trans <| (GenP.V21_of m c main_arg0 (by decide)).trans <| (GenP.V20_of m c main_arg0 (by decide)).trans <| (GenP.V19_of m c main_arg0 (by decide)).trans <| (GenP.V18_of m c main_arg0 (by decide)).trans <| (GenP.V17_of m c main_arg0 (by decide)).trans <| (GenP.V16_of m c main_arg0 (by decide)).trans <| (GenP.V15_of m c main_arg0 (by decide)).trans <| (GenP.V14_of m c main_arg0 (by decide)).trans <| (GenP.V13_of m c main_arg0 (by decide)).trans <| (GenP.V12_of m c main_arg0 (by decide)).trans <| (GenP.V11_of m c main_arg0 (by decide)).trans <| (GenP.V10_of m c main_arg0 (by decide)).trans <| (GenP.V9_of m c main_arg0 (by decide)).trans <| (GenP.V8_of m c main_arg0 (by decide)).trans <| (GenP.V7_of m c main_arg0 (by decide)).trans <| (GenP.V6_of m c main_arg0 (by decide)).trans <| (GenP.V5_of m c main_arg0 (by decide)).trans <| (GenP.V4_of m c main_arg0 (by decide)).trans <| (GenP.V3_of m c main_arg0 (by decide)).trans <| (GenP.V2_of m c main_arg0 (by decide)).trans <| (GenP.V1_of m c main_arg0 (by decide))

/-! ## The quantized weights and biases when the first region starts -/

/-- When the first region starts, `main_v5` holds the quantized `main_arg1`. -/
theorem W0q (c : Dev nD) :
    (GenP.V33 m c (Proc.devRef .tc main_v5) : FVec Ideal S128x1024 .f32)
      = fun i => Spec.qbits ((m ((c.tc : Thread nD τ).loc main_arg1) : FVec Ideal S128x1024 .f32) i) :=
  (kept_W0 m c).trans (chain_W0 (GenP.V0 m c))

/-- When the first region starts, `main_v12` holds the quantized `main_arg3`. -/
theorem W1q (c : Dev nD) :
    (GenP.V33 m c (Proc.devRef .tc main_v12) : FVec Ideal S1024x2048 .bf16)
      = fun i => Spec.qbits ((m ((c.tc : Thread nD τ).loc main_arg3) : FVec Ideal S1024x2048 .f32) i) :=
  (kept_W1 m c).trans ((chain_W1 (GenP.V4 m c)).trans (congrArg (fun (f : FVec Ideal S1024x2048 .f32) => fun i => Spec.qbits (f i)) (arg_W1 m c)))

/-- When the first region starts, `main_v19` holds the quantized `main_arg5`. -/
theorem W2q (c : Dev nD) :
    (GenP.V33 m c (Proc.devRef .tc main_v19) : FVec Ideal S2048x4096 .bf16)
      = fun i => Spec.qbits ((m ((c.tc : Thread nD τ).loc main_arg5) : FVec Ideal S2048x4096 .f32) i) :=
  (kept_W2 m c).trans ((chain_W2 (GenP.V8 m c)).trans (congrArg (fun (f : FVec Ideal S2048x4096 .f32) => fun i => Spec.qbits (f i)) (arg_W2 m c)))

/-- When the first region starts, `main_v26` holds the quantized `main_arg7`. -/
theorem W3q (c : Dev nD) :
    (GenP.V33 m c (Proc.devRef .tc main_v26) : FVec Ideal S4096x4096 .bf16)
      = fun i => Spec.qbits ((m ((c.tc : Thread nD τ).loc main_arg7) : FVec Ideal S4096x4096 .f32) i) :=
  (kept_W3 m c).trans ((chain_W3 (GenP.V12 m c)).trans (congrArg (fun (f : FVec Ideal S4096x4096 .f32) => fun i => Spec.qbits (f i)) (arg_W3 m c)))

/-- When the first region starts, `main_v32` holds the quantized `main_arg2`. -/
theorem b0vec (c : Dev nD) :
    (GenP.V33 m c (Proc.devRef .tc main_v32) : FVec Ideal S1024 .f32)
      = fun i => Spec.qbits ((m ((c.tc : Thread nD τ).loc main_arg2) : FVec Ideal S1024 .f32) i) :=
  (kept_b0 m c).trans ((chain_b0 (GenP.V16 m c)).trans (congrArg (fun (f : FVec Ideal S1024 .f32) => fun i => Spec.qbits (f i)) (arg_b0 m c)))

/-- When the first region starts, `main_v38` holds the quantized `main_arg4`. -/
theorem b1q (c : Dev nD) :
    (GenP.V33 m c (Proc.devRef .tc main_v38) : FVec Ideal S2048 .f32)
      = fun i => Spec.qbits ((m ((c.tc : Thread nD τ).loc main_arg4) : FVec Ideal S2048 .f32) i) :=
  (kept_b1 m c).trans ((chain_b1 (GenP.V20 m c)).trans (congrArg (fun (f : FVec Ideal S2048 .f32) => fun i => Spec.qbits (f i)) (arg_b1 m c)))

/-- When the first region starts, `main_v44` holds the quantized `main_arg6`. -/
theorem b2q (c : Dev nD) :
    (GenP.V33 m c (Proc.devRef .tc main_v44) : FVec Ideal S4096 .f32)
      = fun i => Spec.qbits ((m ((c.tc : Thread nD τ).loc main_arg6) : FVec Ideal S4096 .f32) i) :=
  (kept_b2 m c).trans ((chain_b2 (GenP.V24 m c)).trans (congrArg (fun (f : FVec Ideal S4096 .f32) => fun i => Spec.qbits (f i)) (arg_b2 m c)))

/-- When the first region starts, `main_v50` holds the quantized `main_arg8`. -/
theorem b3q (c : Dev nD) :
    (GenP.V33 m c (Proc.devRef .tc main_v50) : FVec Ideal S4096 .f32)
      = fun i => Spec.qbits ((m ((c.tc : Thread nD τ).loc main_arg8) : FVec Ideal S4096 .f32) i) :=
  (chain_b3 (GenP.V28 m c)).trans (congrArg (fun (f : FVec Ideal S4096 .f32) => fun i => Spec.qbits (f i)) (arg_b3 m c))

/-- When the first region starts, the one-row view `main_v51` holds the quantized `main_arg2`: entry `j` is `qbits` of entry `j 1`. -/
theorem b0q_apply (c : Dev nD) (j : S1x1024.Idx) :
    (GenP.V33 m c (Proc.devRef .tc main_v51) : FVec Ideal S1x1024 .f32) j
      = Spec.qbits ((m ((c.tc : Thread nD τ).loc main_arg2) : FVec Ideal S1024 .f32) (ix1 (j 1))) :=
  (row0 (GenP.V32 m c) j).trans (congrFun (((GenP.V33_of m c main_v32 (by decide)).symm).trans (b0vec m c)) (ix1 (j 1)))

/-- The same as an equation of arrays. -/
theorem b0q (c : Dev nD) :
    (GenP.V33 m c (Proc.devRef .tc main_v51) : FVec Ideal S1x1024 .f32)
      = fun j => Spec.qbits ((m ((c.tc : Thread nD τ).loc main_arg2) : FVec Ideal S1024 .f32) (ix1 (j 1))) :=
  funext fun j => b0q_apply m c j

end Cert.KernelIdeal.Host

end
-- ==== Proof.KI.Val0.lean ====
/- Region 0: what the body's stores leave, as the skeleton's payloads of the blocks it loaded — each store covers its whole
   buffer, and each load reads either an input block or what the last store into the accumulator left. -/
import proofs.«114415_j6030134084248_2_alg».proof.Proof.KI.Body0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block a point leaves: the bias added to the block product over a cleared accumulator, activated. -/
theorem out0_val (c : Dev nD) (i : grid0.Coords) (arg3 : Memref sig .tc .vmem S1024x128 .f32) (harg3 : arg3.IsWhole) (arg4 : Memref sig .tc .vmem S128x1024 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c0a i) (hcb : c0b i) (x0 : Vec F S1024x128 .f32) (x1 : Vec F S128x1024 .f32) (x2 : Vec F S1x1024 .f32) :
    out0 c i arg3 harg3 arg4 harg4 arg5 harg5 arg6 harg6 arg7 harg7 hca hcb x0 x1 x2 = k0_pay3 (k0_pay2 x0 x1 (k0_pay1 (F := F))) x2 := by
  unfold out0
  rw [View.read_writes_eq_canon _ _ _ (cover0 c i arg3 harg3 arg4 harg4 arg5 harg5 arg6 harg6 arg7 harg7 hca hcb x0 x1 x2)]
  unfold run0
  dsimp only
  have hz : (![0, 0] : Fin 2 → ℕ) = fun _ => 0 := by funext a; fin_cases a <;> rfl
  sl_unfold_words
  simp only [View.readCov_cons_toLoadRect, View.readAt_eq_ld, harg3.read_unread, harg4.read_unread, harg5.read_unread, harg7.read_unread, View.ld_unit_zero (S := S1024x128) hz, View.ld_unit_zero (S := S128x1024) hz, View.ld_unit_zero (S := S1x1024) hz, View.ld_unit_zero (S := S1024x1024) hz]
  first | rw [View.canon_unit_zero hz] | rw [View.canon_cons_unit_zero hz]

end Cert.KernelIdeal.Gen

end
-- ==== Proof.KI.Payloads.lean ====
/-
  The three values a grid point of each of the four dense-layer kernels writes, read at one index of the tile, on the
  extended reals: the cleared accumulator is zero; the accumulated block product at (p, q) is the accumulator there plus
  the sum over the block's contraction coordinate k of x(p, k) * w(k, q); the final value is the activation quantizer of
  the accumulator plus the bias of column q (for the last layer: that sum itself).
-/
import proofs.«114415_j6030134084248_2_alg».proof.Proof.Gen.KernelIdeal.Skeleton
import proofs.«114415_j6030134084248_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Idealize.SL.Sem

/-! ## The cleared accumulator -/

/-- Layer 0: the cleared accumulator reads zero everywhere. -/
theorem k0_pay1_apply (p q : Fin 1024) : Gen.k0_pay1 (F := Ideal) (ix2 p q) = 0 := by
  unfold Gen.k0_pay1
  rw [shapeCast_self]
  exact Ideal.ofBits_zero_f32

/-- Layer 1: the cleared accumulator reads zero everywhere. -/
theorem k1_pay1_apply (p q : Fin 1024) : Gen.k1_pay1 (F := Ideal) (ix2 p q) = 0 := by
  unfold Gen.k1_pay1
  rw [shapeCast_self]
  exact Ideal.ofBits_zero_f32

/-- Layer 2: the cleared accumulator reads zero everywhere. -/
theorem k2_pay1_apply (p q : Fin 1024) : Gen.k2_pay1 (F := Ideal) (ix2 p q) = 0 := by
  unfold Gen.k2_pay1
  rw [shapeCast_self]
  exact Ideal.ofBits_zero_f32

/-- Layer 3: the cleared accumulator reads zero everywhere. -/
theorem k3_pay1_apply (p q : Fin 1024) : Gen.k3_pay1 (F := Ideal) (ix2 p q) = 0 := by
  unfold Gen.k3_pay1
  rw [shapeCast_self]
  exact Ideal.ofBits_zero_f32

/-! ## The bias row broadcast down the rows -/

/-- A row vector broadcast to 1024 rows reads, at (p, q), the row's entry of column q. -/
theorem bias_apply (b : FVec Ideal S1x1024 .f32) (p q : Fin 1024) :
    broadcastTo S1024x1024 b broadcasts_S1x1024_S1024x1024 (ix2 p q) = b (ix2 (0 : Fin 1) q) :=
  broadcastTo_apply b broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! ## The value written on the last block -/

/-- Layer 0: the value written on the last block is the activation quantizer of the accumulator plus the bias. -/
theorem k0_pay3_apply (acc : Vec Ideal S1024x1024 .f32) (b : Vec Ideal S1x1024 .f32) (p q : Fin 1024) :
    Gen.k0_pay3 (F := Ideal) acc b (ix2 p q) = Cert.Spec.qrelu (acc (ix2 p q) + b (ix2 (0 : Fin 1) q)) := by
  unfold Gen.k0_pay3 Cert.Spec.qrelu
  rw [shapeCast_self]
  show min _ (max _ (Ideal.liftRound Ideal.roundHalfEven
      ((acc (ix2 p q) + broadcastTo S1024x1024 b broadcasts_S1x1024_S1024x1024 (ix2 p q)) * _))) * _ = _
  rw [bias_apply]
  rfl

/-- Layer 1: the value written on the last block is the activation quantizer of the accumulator plus the bias. -/
theorem k1_pay3_apply (acc : Vec Ideal S1024x1024 .f32) (b : Vec Ideal S1x1024 .f32) (p q : Fin 1024) :
    Gen.k1_pay3 (F := Ideal) acc b (ix2 p q) = Cert.Spec.qrelu (acc (ix2 p q) + b (ix2 (0 : Fin 1) q)) := by
  unfold Gen.k1_pay3 Cert.Spec.qrelu
  rw [shapeCast_self]
  show min _ (max _ (Ideal.liftRound Ideal.roundHalfEven
      ((acc (ix2 p q) + broadcastTo S1024x1024 b broadcasts_S1x1024_S1024x1024 (ix2 p q)) * _))) * _ = _
  rw [bias_apply]
  rfl

/-- Layer 2: the value written on the last block is the activation quantizer of the accumulator plus the bias. -/
theorem k2_pay3_apply (acc : Vec Ideal S1024x1024 .f32) (b : Vec Ideal S1x1024 .f32) (p q : Fin 1024) :
    Gen.k2_pay3 (F := Ideal) acc b (ix2 p q) = Cert.Spec.qrelu (acc (ix2 p q) + b (ix2 (0 : Fin 1) q)) := by
  unfold Gen.k2_pay3 Cert.Spec.qrelu
  rw [shapeCast_self]
  show min _ (max _ (Ideal.liftRound Ideal.roundHalfEven
      ((acc (ix2 p q) + broadcastTo S1024x1024 b broadcasts_S1x1024_S1024x1024 (ix2 p q)) * _))) * _ = _
  rw [bias_apply]
  rfl

/-- Layer 3: the value written on the last block is the accumulator plus the bias. -/
theorem k3_pay3_apply (acc : Vec Ideal S1024x1024 .f32) (b : Vec Ideal S1x1024 .f32) (p q : Fin 1024) :
    Gen.k3_pay3 (F := Ideal) acc b (ix2 p q) = acc (ix2 p q) + b (ix2 (0 : Fin 1) q) := by
  unfold Gen.k3_pay3
  rw [shapeCast_self]
  show acc (ix2 p q) + broadcastTo S1024x1024 b broadcasts_S1x1024_S1024x1024 (ix2 p q) = _
  rw [bias_apply]

/-! ## The accumulated block product -/

/-- Layer 0: the left operand of the block product at (p, q) and contraction coordinate k is row p, column k. -/
theorem k0_lhsIdx (p q : Fin 1024) (k : Fin 128) :
    dot_S1024x128_S128x1024_S1024x1024_1_0_0_1_n_n.lhsIdx (ix2 p q) ((contrEquiv1 dot_S1024x128_S128x1024_S1024x1024_1_0_0_1_n_n 128 rfl rfl).symm k) = ix2 p k := by
  have hk := contrEquiv1_symm_val dot_S1024x128_S128x1024_S1024x1024_1_0_0_1_n_n 128 rfl rfl k
  refine funext fun a => Fin.ext ?_
  match a with
  | ⟨0, _⟩ =>
    show (dot_S1024x128_S128x1024_S1024x1024_1_0_0_1_n_n.lhsIdx (ix2 p q) _ 0).val = p.val
    unfold DotDims.lhsIdx
    rw [dif_neg (show ¬(0 : Fin S1024x128.rank) ∈ dot_S1024x128_S128x1024_S1024x1024_1_0_0_1_n_n.lhsBatch by decide),
      dif_pos (show (0 : Fin S1024x128.rank) ∈ dot_S1024x128_S128x1024_S1024x1024_1_0_0_1_n_n.lhsNonContracting by decide)]
    rfl
  | ⟨1, _⟩ => exact (dot_S1024x128_S128x1024_S1024x1024_1_0_0_1_n_n.lhsIdx_val_of_single rfl (ix2 p q) _).trans hk

/-- Layer 0: the right operand there is row k, column q. -/
theorem k0_rhsIdx (p q : Fin 1024) (k : Fin 128) :
    dot_S1024x128_S128x1024_S1024x1024_1_0_0_1_n_n.rhsIdx (ix2 p q) ((contrEquiv1 dot_S1024x128_S128x1024_S1024x1024_1_0_0_1_n_n 128 rfl rfl).symm k) = ix2 k q := by
  have hk := contrEquiv1_symm_val dot_S1024x128_S128x1024_S1024x1024_1_0_0_1_n_n 128 rfl rfl k
  refine funext fun a => Fin.ext ?_
  match a with
  | ⟨0, _⟩ => exact (dot_S1024x128_S128x1024_S1024x1024_1_0_0_1_n_n.rhsIdx_val_of_single rfl (ix2 p q) _).trans hk
  | ⟨1, _⟩ =>
    show (dot_S1024x128_S128x1024_S1024x1024_1_0_0_1_n_n.rhsIdx (ix2 p q) _ 1).val = q.val
    unfold DotDims.rhsIdx
    rw [dif_neg (show ¬(1 : Fin S128x1024.rank) ∈ dot_S1024x128_S128x1024_S1024x1024_1_0_0_1_n_n.rhsBatch by decide),
      dif_pos (show (1 : Fin S128x1024.rank) ∈ dot_S1024x128_S128x1024_S1024x1024_1_0_0_1_n_n.rhsNonContracting by decide)]
    rfl

/-- Layer 0: the accumulated block product at (p, q). -/
theorem k0_pay2_apply (x : Vec Ideal S1024x128 .f32) (w : Vec Ideal S128x1024 .f32) (acc : Vec Ideal S1024x1024 .f32)
    (p q : Fin 1024) :
    Gen.k0_pay2 (F := Ideal) x w acc (ix2 p q) = acc (ix2 p q) + ∑ k : Fin 128, x (ix2 p k) * w (ix2 k q) := by
  unfold Gen.k0_pay2
  rw [shapeCast_self, shapeCast_self]
  refine (addf_apply (φ := .f32) acc _ (ix2 p q)).trans ?_
  refine congrArg (acc (ix2 p q) + ·) ?_
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  rw [k0_lhsIdx, k0_rhsIdx]

/-- Layers 1 to 3: the left operand of the block product at (p, q) and contraction coordinate k is row p, column k. -/
theorem kB_lhsIdx (p q : Fin 1024) (k : Fin 1024) :
    dot_S1024x1024_S1024x1024_S1024x1024_1_0_0_1_n_n.lhsIdx (ix2 p q) ((contrEquiv1 dot_S1024x1024_S1024x1024_S1024x1024_1_0_0_1_n_n 1024 rfl rfl).symm k) = ix2 p k := by
  have hk := contrEquiv1_symm_val dot_S1024x1024_S1024x1024_S1024x1024_1_0_0_1_n_n 1024 rfl rfl k
  refine funext fun a => Fin.ext ?_
  match a with
  | ⟨0, _⟩ =>
    show (dot_S1024x1024_S1024x1024_S1024x1024_1_0_0_1_n_n.lhsIdx (ix2 p q) _ 0).val = p.val
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  | ⟨1, _⟩ => exact (dot_S1024x1024_S1024x1024_S1024x1024_1_0_0_1_n_n.lhsIdx_val_of_single rfl (ix2 p q) _).trans hk

/-- Layers 1 to 3: the right operand there is row k, column q. -/
theorem kB_rhsIdx (p q : Fin 1024) (k : Fin 1024) :
    dot_S1024x1024_S1024x1024_S1024x1024_1_0_0_1_n_n.rhsIdx (ix2 p q) ((contrEquiv1 dot_S1024x1024_S1024x1024_S1024x1024_1_0_0_1_n_n 1024 rfl rfl).symm k) = ix2 k q := by
  have hk := contrEquiv1_symm_val dot_S1024x1024_S1024x1024_S1024x1024_1_0_0_1_n_n 1024 rfl rfl k
  refine funext fun a => Fin.ext ?_
  match a with
  | ⟨0, _⟩ => exact (dot_S1024x1024_S1024x1024_S1024x1024_1_0_0_1_n_n.rhsIdx_val_of_single rfl (ix2 p q) _).trans hk
  | ⟨1, _⟩ =>
    show (dot_S1024x1024_S1024x1024_S1024x1024_1_0_0_1_n_n.rhsIdx (ix2 p q) _ 1).val = q.val
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- Layer 1: the accumulated block product at (p, q). -/
theorem k1_pay2_apply (x w : Vec Ideal S1024x1024 .bf16) (acc : Vec Ideal S1024x1024 .f32) (p q : Fin 1024) :
    Gen.k1_pay2 (F := Ideal) x w acc (ix2 p q) = acc (ix2 p q) + ∑ k : Fin 1024, x (ix2 p k) * w (ix2 k q) := by
  unfold Gen.k1_pay2
  rw [shapeCast_self, shapeCast_self, shapeCast_self]
  refine (addf_apply (φ := .f32) acc _ (ix2 p q)).trans ?_
  refine congrArg (acc (ix2 p q) + ·) ?_
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  rw [kB_lhsIdx, kB_rhsIdx]

/-- Layer 2: the accumulated block product at (p, q). -/
theorem k2_pay2_apply (x w : Vec Ideal S1024x1024 .bf16) (acc : Vec Ideal S1024x1024 .f32) (p q : Fin 1024) :
    Gen.k2_pay2 (F := Ideal) x w acc (ix2 p q) = acc (ix2 p q) + ∑ k : Fin 1024, x (ix2 p k) * w (ix2 k q) := by
  unfold Gen.k2_pay2
  rw [shapeCast_self, shapeCast_self, shapeCast_self]
  refine (addf_apply (φ := .f32) acc _ (ix2 p q)).trans ?_
  refine congrArg (acc (ix2 p q) + ·) ?_
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  rw [kB_lhsIdx, kB_rhsIdx]

/-- Layer 3: the accumulated block product at (p, q). -/
theorem k3_pay2_apply (x w : Vec Ideal S1024x1024 .bf16) (acc : Vec Ideal S1024x1024 .f32) (p q : Fin 1024) :
    Gen.k3_pay2 (F := Ideal) x w acc (ix2 p q) = acc (ix2 p q) + ∑ k : Fin 1024, x (ix2 p k) * w (ix2 k q) := by
  unfold Gen.k3_pay2
  rw [shapeCast_self, shapeCast_self, shapeCast_self]
  refine (addf_apply (φ := .f32) acc _ (ix2 p q)).trans ?_
  refine congrArg (acc (ix2 p q) + ·) ?_
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  rw [kB_lhsIdx, kB_rhsIdx]

end Cert.KernelIdeal.Pay

end
-- ==== Proof.KI.Arr0.lean ====
/-
  Region 0, from blocks to the whole output array, on the extended reals. Every grid point writes one 1024 × 1024 block
  of the output, and what it writes at (a, b) of the block is the activation quantizer of the row of the left operand
  against the column of the weights, over the whole contracted axis, plus the bias of that column — read at the array's
  own coordinates: row (block row) · 1024 + a, column (block column) · 1024 + b. The blocks tile the array, so the
  array after the region is that one function of the three argument arrays, index by index.
-/
import proofs.«114415_j6030134084248_2_alg».proof.Proof.KI.Val0
import proofs.«114415_j6030134084248_2_alg».proof.Proof.KI.Payloads
import Idealize.ShloMosaic.Lib.Pipeline.Value
import Idealize.ShloMosaic.Lib.ValueIdx

set_option maxRecDepth 16384

noncomputable section

open scoped BigOperators

namespace Cert.KernelIdeal.ArrV

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The block a point writes, at an index of the block -/

/-- The activated affine value of three blocks at (a, b): the block product over a cleared accumulator, plus the bias. -/
theorem point0_apply (x0 : Vec Ideal S1024x128 .f32) (x1 : Vec Ideal S128x1024 .f32) (x2 : Vec Ideal S1x1024 .f32) (a b : Fin 1024) :
    k0_pay3 (k0_pay2 x0 x1 (k0_pay1 (F := Ideal))) x2 (ix2 a b)
      = Spec.qrelu ((∑ k : Fin 128, x0 (ix2 a k) * x1 (ix2 k b)) + x2 (ix2 (0 : Fin 1) b)) := by
  rw [Pay.k0_pay3_apply, Pay.k0_pay2_apply, Pay.k0_pay1_apply, zero_add]

/-! ## The block indices over the grid -/

/-- The windows' index maps of region 0, decided over its 8 points: the left operand moves with the output's block row and has one
    block of columns; the weights and the bias move with the output's block column and have one block of rows; the
    output's block row is the point's number and it has one block of columns. -/
theorem idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) = t.val ∧ win0_3.index t (1 : Fin 2) = 0 :=
  (by decide +kernel : ∀ t : Fin grid0.N, _)

/-! ## Each input block read off its array -/

/-- The left operand's block at a point: rows (block row) · 1024 + a of the array, all 128 columns. -/
theorem iblk0_0_apply (c : Dev nD) (t : Fin cfg0.N) (a : Fin 1024) (k : Fin 128) (P : Fin 8192)
    (hP : P.val = win0_3.index t (0 : Fin 2) * 1024 + a.val) :
    (iblk0 V c 0 t : Vec Ideal S1024x128 .f32) (ix2 a k) = (V c main_arg0 : S8192x128.Idx → EReal) (ix2 P k) := by
  obtain ⟨e00, e01, -⟩ := idx0 t
  unfold iblk0
  rw [View.read_apply]
  show (V c main_arg0 : S8192x128.Idx → EReal) _ = _
  refine congrArg _ (funext fun ax => Fin.ext ?_)
  match ax with
  | ⟨0, _⟩ => show win0_0.index t (0 : Fin 2) * 1024 + 1 * a.val = P.val; omega
  | ⟨1, _⟩ => show win0_0.index t (1 : Fin 2) * 128 + 1 * k.val = k.val; omega

/-- The weights' block at a point: all 128 rows, columns (block column) · 1024 + b. -/
theorem iblk0_1_apply (c : Dev nD) (t : Fin cfg0.N) (k : Fin 128) (b : Fin 1024) (Q : Fin 1024)
    (hQ : Q.val = win0_3.index t (1 : Fin 2) * 1024 + b.val) :
    (iblk0 V c 1 t : Vec Ideal S128x1024 .f32) (ix2 k b) = (V c main_v5 : S128x1024.Idx → EReal) (ix2 k Q) := by
  obtain ⟨-, -, e10, e11, -⟩ := idx0 t
  unfold iblk0
  rw [View.read_apply]
  show (V c main_v5 : S128x1024.Idx → EReal) _ = _
  refine congrArg _ (funext fun ax => Fin.ext ?_)
  match ax with
  | ⟨0, _⟩ => show win0_1.index t (0 : Fin 2) * 128 + 1 * k.val = k.val; omega
  | ⟨1, _⟩ => show win0_1.index t (1 : Fin 2) * 1024 + 1 * b.val = Q.val; omega

/-- The bias row's block at a point: columns (block column) · 1024 + b. -/
theorem iblk0_2_apply (c : Dev nD) (t : Fin cfg0.N) (b : Fin 1024) (Q : Fin 1024)
    (hQ : Q.val = win0_3.index t (1 : Fin 2) * 1024 + b.val) :
    (iblk0 V c 2 t : Vec Ideal S1x1024 .f32) (ix2 (0 : Fin 1) b) = (V c main_v51 : S1x1024.Idx → EReal) (ix2 (0 : Fin 1) Q) := by
  obtain ⟨-, -, -, -, e20, e21, -⟩ := idx0 t
  unfold iblk0
  rw [View.read_apply]
  show (V c main_v51 : S1x1024.Idx → EReal) _ = _
  refine congrArg _ (funext fun ax => Fin.ext ?_)
  match ax with
  | ⟨0, _⟩ => show win0_2.index t (0 : Fin 2) * 1 + 1 * 0 = 0; omega
  | ⟨1, _⟩ => show win0_2.index t (1 : Fin 2) * 1024 + 1 * b.val = Q.val; omega

/-! ## The whole output array as one function of the argument arrays -/

/-- The layer at an index of the output array, as a function of the three argument arrays: the activation quantizer of
    the row of the left operand against the column of the weights, plus the bias of the column. -/
def G0 (A : S8192x128.Idx → EReal) (W : S128x1024.Idx → EReal) (B : S1x1024.Idx → EReal) : S8192x1024.Idx → EReal := fun i =>
  Spec.qrelu ((∑ k : Fin 128, A (ix2 (⟨(i 0).val, (i 0).isLt⟩ : Fin 8192) k) * W (ix2 k (⟨(i 1).val, (i 1).isLt⟩ : Fin 1024)))
      + B (ix2 (0 : Fin 1) (⟨(i 1).val, (i 1).isLt⟩ : Fin 1024)))

/-- What a point writes back is its block of that function. -/
theorem flushed0_eq (c : Dev nD) (t : Fin cfg0.N) :
    (dat0 (F := Ideal) V c).flushed 3 t = ((cfg0.win 3).blk t).view.read (Elt Ideal) (G0 (V c main_arg0) (V c main_v5) (V c main_v51)) := by
  show (cfg0.win 3).cut (grid0.coords t) ((dat0 (F := Ideal) V c).after 3 t) = _
  rw [after0_3, out0_val]
  funext y
  obtain ⟨a, b, rfl⟩ : ∃ (a : Fin 1024) (b : Fin 1024), y = ix2 a b := ⟨y 0, y 1, eq_ix2 y⟩
  show k0_pay3 (k0_pay2 (iblk0 V c 0 t) (iblk0 V c 1 t) (k0_pay1 (F := Ideal))) (iblk0 V c 2 t) (ix2 a b)
    = G0 (V c main_arg0) (V c main_v5) (V c main_v51) (((cfg0.win 3).blk t).view.emb (ix2 a b))
  rw [point0_apply]
  unfold G0
  have h0 : ((((cfg0.win 3).blk t).view.emb (ix2 a b)) 0).val = win0_3.index t (0 : Fin 2) * 1024 + a.val := by
    show win0_3.index t (0 : Fin 2) * 1024 + 1 * a.val = _; omega
  have h1 : ((((cfg0.win 3).blk t).view.emb (ix2 a b)) 1).val = win0_3.index t (1 : Fin 2) * 1024 + b.val := by
    show win0_3.index t (1 : Fin 2) * 1024 + 1 * b.val = _; omega
  refine congrArg Spec.qrelu (congrArg₂ (· + ·) (Finset.sum_congr rfl fun k _ => congrArg₂ (· * ·) ?_ ?_) ?_)
  · exact iblk0_0_apply V c t a k _ h0
  · exact iblk0_1_apply V c t k b _ h1
  · exact iblk0_2_apply V c t b _ h1

/-! ## The blocks tile the array -/

/-- An index of the array is in a point's block iff each coordinate is in the block's range on its axis. -/
theorem mem_blk0 (t : Fin cfg0.N) (i : S8192x1024.Idx) :
    i ∈ ((cfg0.win 3).blk t).view.set ↔ ∀ ax : Fin 2, win0_3.index t ax * S1024x1024.size ax ≤ (i ax).val ∧ (i ax).val < win0_3.index t ax * S1024x1024.size ax + S1024x1024.size ax := by
  show i ∈ ((View.whole main_v52).slice (win0_3.rect t)).set ↔ _
  rw [View.set_slice_whole, Rect.mem_set_unit]
  exact Iff.rfl

/-- Every index of the array is in some point's block. -/
theorem cover0_3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  let t : Fin cfg0.N := ⟨(i 0).val / 1024, by omega⟩
  refine ⟨t, flush0_3 t, ?_⟩
  obtain ⟨-, -, -, -, -, -, e30, e31⟩ := idx0 t
  have ht : t.val = (i 0).val / 1024 := rfl
  rw [mem_blk0]
  intro ax
  match ax with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-! ## The array after the region -/

/-- The output array after the region is the layer, index by index. -/
theorem final0 (c : Dev nD) : (dat0 (F := Ideal) V c).arrAt 3 cfg0.N = G0 (V c main_arg0) (V c main_v5) (V c main_v51) :=
  (dat0 (F := Ideal) V c).arrAt_eq_of_cover 3 (G0 (V c main_arg0) (V c main_v5) (V c main_v51)) (fun t _ => flushed0_eq V c t) cover0_3

/-- The output array after the region at (p, q), the three argument arrays named: the activation quantizer of row p of
    the left operand against column q of the weights, plus the bias of column q. -/
theorem arr0 (c : Dev nD) (A : S8192x128.Idx → EReal) (W : S128x1024.Idx → EReal) (B : S1x1024.Idx → EReal)
    (hA : A = V c main_arg0) (hW : W = V c main_v5) (hB : B = V c main_v51) (p : Fin 8192) (q : Fin 1024) :
    ((dat0 (F := Ideal) V c).arrAt 3 cfg0.N) (ix2 p q)
      = Spec.qrelu ((∑ k : Fin 128, A (ix2 p k) * W (ix2 k q)) + B (ix2 (0 : Fin 1) q)) := by
  subst hA hW hB
  rw [final0]
  rfl

end Cert.KernelIdeal.ArrV

end
-- ==== Proof.KI.Val1.lean ====
/- Region 1: what the body's stores leave, as the skeleton's payloads of the blocks it loaded — each store covers its whole
   buffer, and each load reads either an input block or what the last store into the accumulator left. -/
import proofs.«114415_j6030134084248_2_alg».proof.Proof.KI.Body1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block a point leaves: the bias added to the block product over a cleared accumulator, activated. -/
theorem out1_val (c : Dev nD) (i : grid1.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c1a i) (hcb : c1b i) (x0 : Vec F S1024x1024 .bf16) (x1 : Vec F S1024x1024 .bf16) (x2 : Vec F S1x1024 .f32) :
    out1 c i arg3 harg3 arg4 harg4 arg5 harg5 arg6 harg6 arg7 harg7 hca hcb x0 x1 x2 = k1_pay3 (k1_pay2 x0 x1 (k1_pay1 (F := F))) x2 := by
  unfold out1
  rw [View.read_writes_eq_canon _ _ _ (cover1 c i arg3 harg3 arg4 harg4 arg5 harg5 arg6 harg6 arg7 harg7 hca hcb x0 x1 x2)]
  unfold run1
  dsimp only
  have hz : (![0, 0] : Fin 2 → ℕ) = fun _ => 0 := by funext a; fin_cases a <;> rfl
  sl_unfold_words
  simp only [View.readCov_cons_toLoadRect, View.readAt_eq_ld, harg3.read_unread, harg4.read_unread, harg5.read_unread, harg7.read_unread, View.ld_unit_zero (S := S1024x1024) hz, View.ld_unit_zero (S := S1024x1024) hz, View.ld_unit_zero (S := S1x1024) hz, View.ld_unit_zero (S := S1024x1024) hz]
  first | rw [View.canon_unit_zero hz] | rw [View.canon_cons_unit_zero hz]

end Cert.KernelIdeal.Gen

end
-- ==== Proof.KI.Arr1.lean ====
/-
  Region 1, from blocks to the whole output array, on the extended reals. Every grid point writes one 1024 × 1024 block
  of the output, and what it writes at (a, b) of the block is the activation quantizer of the row of the left operand
  against the column of the weights, over the whole contracted axis, plus the bias of that column — read at the array's
  own coordinates: row (block row) · 1024 + a, column (block column) · 1024 + b. The blocks tile the array, so the
  array after the region is that one function of the three argument arrays, index by index.
-/
import proofs.«114415_j6030134084248_2_alg».proof.Proof.KI.Val1
import proofs.«114415_j6030134084248_2_alg».proof.Proof.KI.Payloads
import Idealize.ShloMosaic.Lib.Pipeline.Value
import Idealize.ShloMosaic.Lib.ValueIdx

set_option maxRecDepth 16384

noncomputable section

open scoped BigOperators

namespace Cert.KernelIdeal.ArrV

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The block a point writes, at an index of the block -/

/-- The activated affine value of three blocks at (a, b): the block product over a cleared accumulator, plus the bias. -/
theorem point1_apply (x0 : Vec Ideal S1024x1024 .bf16) (x1 : Vec Ideal S1024x1024 .bf16) (x2 : Vec Ideal S1x1024 .f32) (a b : Fin 1024) :
    k1_pay3 (k1_pay2 x0 x1 (k1_pay1 (F := Ideal))) x2 (ix2 a b)
      = Spec.qrelu ((∑ k : Fin 1024, x0 (ix2 a k) * x1 (ix2 k b)) + x2 (ix2 (0 : Fin 1) b)) := by
  rw [Pay.k1_pay3_apply, Pay.k1_pay2_apply, Pay.k1_pay1_apply, zero_add]

/-! ## The block indices over the grid -/

/-- The windows' index maps of region 1, decided over its 16 points: the left operand moves with the output's block row and has one
    block of columns; the weights and the bias move with the output's block column and have one block of rows; the
    output's block row and block column are the point's number divided by two and its remainder. -/
theorem idx1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) = t.val / 2 ∧ win1_3.index t (1 : Fin 2) = t.val % 2 :=
  (by decide +kernel : ∀ t : Fin grid1.N, _)

/-! ## Each input block read off its array -/

/-- The left operand's block at a point: rows (block row) · 1024 + a of the array, all 1024 columns. -/
theorem iblk1_0_apply (c : Dev nD) (t : Fin cfg1.N) (a : Fin 1024) (k : Fin 1024) (P : Fin 8192)
    (hP : P.val = win1_3.index t (0 : Fin 2) * 1024 + a.val) :
    (iblk1 V c 0 t : Vec Ideal S1024x1024 .bf16) (ix2 a k) = (V c main_v52 : S8192x1024.Idx → EReal) (ix2 P k) := by
  obtain ⟨e00, e01, -⟩ := idx1 t
  unfold iblk1
  rw [View.read_apply]
  show (V c main_v52 : S8192x1024.Idx → EReal) _ = _
  refine congrArg _ (funext fun ax => Fin.ext ?_)
  match ax with
  | ⟨0, _⟩ => show win1_0.index t (0 : Fin 2) * 1024 + 1 * a.val = P.val; omega
  | ⟨1, _⟩ => show win1_0.index t (1 : Fin 2) * 1024 + 1 * k.val = k.val; omega

/-- The weights' block at a point: all 1024 rows, columns (block column) · 1024 + b. -/
theorem iblk1_1_apply (c : Dev nD) (t : Fin cfg1.N) (k : Fin 1024) (b : Fin 1024) (Q : Fin 2048)
    (hQ : Q.val = win1_3.index t (1 : Fin 2) * 1024 + b.val) :
    (iblk1 V c 1 t : Vec Ideal S1024x1024 .bf16) (ix2 k b) = (V c main_v12 : S1024x2048.Idx → EReal) (ix2 k Q) := by
  obtain ⟨-, -, e10, e11, -⟩ := idx1 t
  unfold iblk1
  rw [View.read_apply]
  show (V c main_v12 : S1024x2048.Idx → EReal) _ = _
  refine congrArg _ (funext fun ax => Fin.ext ?_)
  match ax with
  | ⟨0, _⟩ => show win1_1.index t (0 : Fin 2) * 1024 + 1 * k.val = k.val; omega
  | ⟨1, _⟩ => show win1_1.index t (1 : Fin 2) * 1024 + 1 * b.val = Q.val; omega

/-- The bias row's block at a point: columns (block column) · 1024 + b. -/
theorem iblk1_2_apply (c : Dev nD) (t : Fin cfg1.N) (b : Fin 1024) (Q : Fin 2048)
    (hQ : Q.val = win1_3.index t (1 : Fin 2) * 1024 + b.val) :
    (iblk1 V c 2 t : Vec Ideal S1x1024 .f32) (ix2 (0 : Fin 1) b) = (V c main_v53 : S1x2048.Idx → EReal) (ix2 (0 : Fin 1) Q) := by
  obtain ⟨-, -, -, -, e20, e21, -⟩ := idx1 t
  unfold iblk1
  rw [View.read_apply]
  show (V c main_v53 : S1x2048.Idx → EReal) _ = _
  refine congrArg _ (funext fun ax => Fin.ext ?_)
  match ax with
  | ⟨0, _⟩ => show win1_2.index t (0 : Fin 2) * 1 + 1 * 0 = 0; omega
  | ⟨1, _⟩ => show win1_2.index t (1 : Fin 2) * 1024 + 1 * b.val = Q.val; omega

/-! ## The whole output array as one function of the argument arrays -/

/-- The layer at an index of the output array, as a function of the three argument arrays: the activation quantizer of
    the row of the left operand against the column of the weights, plus the bias of the column. -/
def G1 (A : S8192x1024.Idx → EReal) (W : S1024x2048.Idx → EReal) (B : S1x2048.Idx → EReal) : S8192x2048.Idx → EReal := fun i =>
  Spec.qrelu ((∑ k : Fin 1024, A (ix2 (⟨(i 0).val, (i 0).isLt⟩ : Fin 8192) k) * W (ix2 k (⟨(i 1).val, (i 1).isLt⟩ : Fin 2048)))
      + B (ix2 (0 : Fin 1) (⟨(i 1).val, (i 1).isLt⟩ : Fin 2048)))

/-- What a point writes back is its block of that function. -/
theorem flushed1_eq (c : Dev nD) (t : Fin cfg1.N) :
    (dat1 (F := Ideal) V c).flushed 3 t = ((cfg1.win 3).blk t).view.read (Elt Ideal) (G1 (V c main_v52) (V c main_v12) (V c main_v53)) := by
  show (cfg1.win 3).cut (grid1.coords t) ((dat1 (F := Ideal) V c).after 3 t) = _
  rw [after1_3, out1_val]
  funext y
  obtain ⟨a, b, rfl⟩ : ∃ (a : Fin 1024) (b : Fin 1024), y = ix2 a b := ⟨y 0, y 1, eq_ix2 y⟩
  show k1_pay3 (k1_pay2 (iblk1 V c 0 t) (iblk1 V c 1 t) (k1_pay1 (F := Ideal))) (iblk1 V c 2 t) (ix2 a b)
    = G1 (V c main_v52) (V c main_v12) (V c main_v53) (((cfg1.win 3).blk t).view.emb (ix2 a b))
  rw [point1_apply]
  unfold G1
  have h0 : ((((cfg1.win 3).blk t).view.emb (ix2 a b)) 0).val = win1_3.index t (0 : Fin 2) * 1024 + a.val := by
    show win1_3.index t (0 : Fin 2) * 1024 + 1 * a.val = _; omega
  have h1 : ((((cfg1.win 3).blk t).view.emb (ix2 a b)) 1).val = win1_3.index t (1 : Fin 2) * 1024 + b.val := by
    show win1_3.index t (1 : Fin 2) * 1024 + 1 * b.val = _; omega
  refine congrArg Spec.qrelu (congrArg₂ (· + ·) (Finset.sum_congr rfl fun k _ => congrArg₂ (· * ·) ?_ ?_) ?_)
  · exact iblk1_0_apply V c t a k _ h0
  · exact iblk1_1_apply V c t k b _ h1
  · exact iblk1_2_apply V c t b _ h1

/-! ## The blocks tile the array -/

/-- An index of the array is in a point's block iff each coordinate is in the block's range on its axis. -/
theorem mem_blk1 (t : Fin cfg1.N) (i : S8192x2048.Idx) :
    i ∈ ((cfg1.win 3).blk t).view.set ↔ ∀ ax : Fin 2, win1_3.index t ax * S1024x1024.size ax ≤ (i ax).val ∧ (i ax).val < win1_3.index t ax * S1024x1024.size ax + S1024x1024.size ax := by
  show i ∈ ((View.whole main_v54).slice (win1_3.rect t)).set ↔ _
  rw [View.set_slice_whole, Rect.mem_set_unit]
  exact Iff.rfl

/-- Every index of the array is in some point's block. -/
theorem cover1_3 (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  have hN : cfg1.N = 16 := N_1
  let t : Fin cfg1.N := ⟨(i 0).val / 1024 * 2 + (i 1).val / 1024, by omega⟩
  refine ⟨t, flush1_3 t, ?_⟩
  obtain ⟨-, -, -, -, -, -, e30, e31⟩ := idx1 t
  have ht : t.val = (i 0).val / 1024 * 2 + (i 1).val / 1024 := rfl
  rw [mem_blk1]
  intro ax
  match ax with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-! ## The array after the region -/

/-- The output array after the region is the layer, index by index. -/
theorem final1 (c : Dev nD) : (dat1 (F := Ideal) V c).arrAt 3 cfg1.N = G1 (V c main_v52) (V c main_v12) (V c main_v53) :=
  (dat1 (F := Ideal) V c).arrAt_eq_of_cover 3 (G1 (V c main_v52) (V c main_v12) (V c main_v53)) (fun t _ => flushed1_eq V c t) cover1_3

/-- The output array after the region at (p, q), the three argument arrays named: the activation quantizer of row p of
    the left operand against column q of the weights, plus the bias of column q. -/
theorem arr1 (c : Dev nD) (A : S8192x1024.Idx → EReal) (W : S1024x2048.Idx → EReal) (B : S1x2048.Idx → EReal)
    (hA : A = V c main_v52) (hW : W = V c main_v12) (hB : B = V c main_v53) (p : Fin 8192) (q : Fin 2048) :
    ((dat1 (F := Ideal) V c).arrAt 3 cfg1.N) (ix2 p q)
      = Spec.qrelu ((∑ k : Fin 1024, A (ix2 p k) * W (ix2 k q)) + B (ix2 (0 : Fin 1) q)) := by
  subst hA hW hB
  rw [final1]
  rfl

end Cert.KernelIdeal.ArrV

end
-- ==== Proof.KI.Val2.lean ====
/- Region 2: what the body's stores leave, as the skeleton's payloads of the blocks it loaded — each store covers its whole
   buffer, and each load reads either an input block or what the last store into the accumulator left. -/
import proofs.«114415_j6030134084248_2_alg».proof.Proof.KI.Body2
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- After the first position along the contracted axis the accumulator holds the block product over a cleared accumulator. -/
theorem sA2_val (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : c2a i) (hcb : ¬c2b i) (x0 : Vec F S1024x1024 .bf16) (x1 : Vec F S1024x1024 .bf16) (x2 : Vec F S1x1024 .f32) :
    sA2 c i arg3 harg3 arg4 harg4 arg5 harg5 arg6 harg6 arg7 harg7 hca hcb x0 x1 x2 = k2_pay2 x0 x1 (k2_pay1 (F := F)) := by
  unfold sA2
  rw [View.read_writes_eq_canon _ _ _ (scoverA2 c i arg3 harg3 arg4 harg4 arg5 harg5 arg6 harg6 arg7 harg7 hca hcb x0 x1 x2)]
  unfold run2A
  dsimp only
  have hz : (![0, 0] : Fin 2 → ℕ) = fun _ => 0 := by funext a; fin_cases a <;> rfl
  sl_unfold_words
  simp only [View.readCov_cons_toLoadRect, View.readAt_eq_ld, harg3.read_unread, harg4.read_unread, harg5.read_unread, harg7.read_unread, View.ld_unit_zero (S := S1024x1024) hz, View.ld_unit_zero (S := S1024x1024) hz, View.ld_unit_zero (S := S1x1024) hz, View.ld_unit_zero (S := S1024x1024) hz]
  first | rw [View.canon_unit_zero hz] | rw [View.canon_cons_unit_zero hz]

/-- After the last position the accumulator holds the block product added to what it held, -/
theorem sC2_val (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) :
    sC2 c i arg3 harg3 arg4 harg4 arg5 harg5 arg6 harg6 arg7 harg7 hca hcb x0 x1 x2 xs = k2_pay2 x0 x1 xs := by
  unfold sC2
  rw [View.read_writes_eq_canon _ _ _ (scoverC2 c i arg3 harg3 arg4 harg4 arg5 harg5 arg6 harg6 arg7 harg7 hca hcb x0 x1 x2 xs)]
  unfold run2C
  dsimp only
  have hz : (![0, 0] : Fin 2 → ℕ) = fun _ => 0 := by funext a; fin_cases a <;> rfl
  sl_unfold_words
  simp only [View.readCov_cons_toLoadRect, View.readAt_eq_ld, harg3.read_unread, harg4.read_unread, harg5.read_unread, harg7.read_unread, View.ld_unit_zero (S := S1024x1024) hz, View.ld_unit_zero (S := S1024x1024) hz, View.ld_unit_zero (S := S1x1024) hz, View.ld_unit_zero (S := S1024x1024) hz]
  first | rw [View.canon_unit_zero hz] | rw [View.canon_cons_unit_zero hz]

/-- and the output block holds the bias added to that sum, activated. -/
theorem outC2_val (c : Dev nD) (i : grid2.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hca : ¬c2a i) (hcb : c2b i) (x0 : Vec F S1024x1024 .bf16) (x1 : Vec F S1024x1024 .bf16) (x2 : Vec F S1x1024 .f32) (xs : Vec F S1024x1024 .f32) :
    outC2 c i arg3 harg3 arg4 harg4 arg5 harg5 arg6 harg6 arg7 harg7 hca hcb x0 x1 x2 xs = k2_pay3 (k2_pay2 x0 x1 xs) x2 := by
  unfold outC2
  rw [View.read_writes_eq_canon _ _ _ (coverC2 c i arg3 harg3 arg4 harg4 arg5 harg5 arg6 harg6 arg7 harg7 hca hcb x0 x1 x2 xs)]
  unfold run2C
  dsimp only
  have hz : (![0, 0] : Fin 2 → ℕ) = fun _ => 0 := by funext a; fin_cases a <;> rfl
  sl_unfold_words
  simp only [View.readCov_cons_toLoadRect, View.readAt_eq_ld, harg3.read_unread, harg4.read_unread, harg5.read_unread, harg7.read_unread, View.ld_unit_zero (S := S1024x1024) hz, View.ld_unit_zero (S := S1024x1024) hz, View.ld_unit_zero (S := S1x1024) hz, View.ld_unit_zero (S := S1024x1024) hz]
  first | rw [View.canon_unit_zero hz] | rw [View.canon_cons_unit_zero hz]

end Cert.KernelIdeal.Gen

end
-- ==== Proof.KI.SumBlocks.lean ====
/-
  Sums over consecutive blocks of a range, on the extended reals. A sum over `Fin n` with `n = a + b` is the sum over
  the first `a` coordinates plus the sum over the last `b`, shifted by `a`; iterating, an accumulator that starts at
  zero and adds one block of 1024 coordinates at a time holds, after the last block, the sum over the whole range.
  Addition of extended reals is commutative and associative with neutral element zero, so nothing about finiteness
  is needed.
-/
import Mathlib.Algebra.BigOperators.Fin
import Mathlib.Data.EReal.Basic

open scoped BigOperators

namespace Cert.KernelIdeal.Pay

/-- A range of `n = a + b` coordinates splits into its first `a` and its last `b`. -/
theorem sum_split {M : Type*} [AddCommMonoid M] {n : ℕ} (a b : ℕ) (h : a + b = n) (f : Fin n → M) :
    ∑ k : Fin n, f k = (∑ k : Fin a, f ⟨k.val, by omega⟩) + ∑ k : Fin b, f ⟨a + k.val, by omega⟩ := by
  subst h
  exact Fin.sum_univ_add f

/-- One block: the accumulator starts at zero. -/
theorem sum_one_block {n : ℕ} (g : Fin n → EReal) : 0 + ∑ k : Fin n, g k = ∑ k : Fin n, g k := zero_add _

/-- One block of 128 coordinates. -/
theorem sum_one_block_128 (g : Fin 128 → EReal) : 0 + ∑ k : Fin 128, g k = ∑ k : Fin 128, g k := zero_add _

/-- Two blocks of 1024 coordinates make the range of 2048. -/
theorem sum_two_blocks (f : Fin 2048 → EReal) :
    ((0 + ∑ k : Fin 1024, f ⟨k.val, by omega⟩) + ∑ k : Fin 1024, f ⟨1024 + k.val, by omega⟩) = ∑ k : Fin 2048, f k := by
  rw [zero_add]
  exact (sum_split 1024 1024 rfl f).symm

/-- Four blocks of 1024 coordinates make the range of 4096. -/
theorem sum_four_blocks (f : Fin 4096 → EReal) :
    ((((0 + ∑ k : Fin 1024, f ⟨k.val, by omega⟩) + ∑ k : Fin 1024, f ⟨1024 + k.val, by omega⟩)
        + ∑ k : Fin 1024, f ⟨2048 + k.val, by omega⟩) + ∑ k : Fin 1024, f ⟨3072 + k.val, by omega⟩)
      = ∑ k : Fin 4096, f k := by
  rw [zero_add]
  refine Eq.symm ?_
  refine (sum_split 3072 1024 rfl f).trans ?_
  refine congrArg (· + _) ?_
  refine (sum_split 2048 1024 rfl (fun k : Fin 3072 => f ⟨k.val, by omega⟩)).trans ?_
  refine congrArg (· + _) ?_
  exact sum_split 1024 1024 rfl (fun k : Fin 2048 => f ⟨k.val, by omega⟩)

end Cert.KernelIdeal.Pay
-- ==== Proof.KI.Arr2.lean ====
/-
  Region 2, from blocks to the whole output array, on the extended reals. The contracted axis of 2048 is cut in two blocks
  of 1024: a pair of consecutive grid points shares one 1024 × 1024 output block; the first clears the accumulator and adds
  its block product, the second adds its own, adds the bias, quantizes, and writes the block back. So what the second point
  of a pair writes at (a, b) of the block is the activation quantizer of the row of the left operand against the column of
  the weights over the WHOLE contracted axis, plus the bias of the column — read at the array's own coordinates: row
  (block row) · 1024 + a, column (block column) · 1024 + b. The written blocks tile the array, so the array after the
  region is that one function of the three operand arrays, index by index.
-/
import proofs.«114415_j6030134084248_2_alg».proof.Proof.KI.Val2
import proofs.«114415_j6030134084248_2_alg».proof.Proof.KI.Payloads
import proofs.«114415_j6030134084248_2_alg».proof.Proof.KI.SumBlocks
import proofs.«114415_j6030134084248_2_alg».proof.Proof.Gen.KernelIdeal.Points
import Idealize.ShloMosaic.Lib.Pipeline.Value
import Idealize.ShloMosaic.Lib.ValueIdx

set_option maxRecDepth 16384

noncomputable section

open scoped BigOperators

namespace Cert.KernelIdeal.ArrV

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- One quantized-activation layer at row `P`, column `Q`, of whole operand arrays. -/
def layer2 (x : S8192x2048.Idx → EReal) (w : S2048x4096.Idx → EReal) (b : S1x4096.Idx → EReal) (P : Fin 8192) (Q : Fin 4096) : EReal :=
  Spec.qrelu ((∑ k : Fin 2048, x (ix2 P k) * w (ix2 k Q)) + b (ix2 (0 : Fin 1) Q))

/-- The layer's value as one array, of the arrays the region finds. -/
def G2 (c : Dev nD) : S8192x4096.Idx → EReal :=
  fun i => layer2 (V c main_v54) (V c main_v19) (V c main_v55) ⟨(i 0).val, idx2_lt0 i⟩ ⟨(i 1).val, idx2_lt1 i⟩

/-- ONE ELEMENT OF A WRITTEN-BACK BLOCK. The accumulator starts at zero, takes the first half of the contracted axis at
    the first point of a pair and the second half at the second, which then adds the bias and quantizes: if the blocks
    read are the operand arrays' blocks at those positions, the element is the layer's value at its place in the array. -/
theorem point2 (X0 W0 X1 W1 : Vec Ideal S1024x1024 .bf16) (B : Vec Ideal S1x1024 .f32)
    (x : S8192x2048.Idx → EReal) (w : S2048x4096.Idx → EReal) (b : S1x4096.Idx → EReal)
    (P : Fin 8192) (Q : Fin 4096) (p q : Fin 1024)
    (hX0 : ∀ k : Fin 1024, X0 (ix2 p k) = x (ix2 P ⟨k.val, by omega⟩))
    (hW0 : ∀ k : Fin 1024, W0 (ix2 k q) = w (ix2 ⟨k.val, by omega⟩ Q))
    (hX1 : ∀ k : Fin 1024, X1 (ix2 p k) = x (ix2 P ⟨1024 + k.val, by omega⟩))
    (hW1 : ∀ k : Fin 1024, W1 (ix2 k q) = w (ix2 ⟨1024 + k.val, by omega⟩ Q))
    (hB : B (ix2 (0 : Fin 1) q) = b (ix2 (0 : Fin 1) Q)) :
    Gen.k2_pay3 (F := Ideal) (Gen.k2_pay2 X1 W1 (Gen.k2_pay2 X0 W0 (Gen.k2_pay1 (F := Ideal)))) B (ix2 p q) = layer2 x w b P Q := by
  rw [Pay.k2_pay3_apply, Pay.k2_pay2_apply, Pay.k2_pay2_apply, Pay.k2_pay1_apply]
  simp only [hX0, hW0, hX1, hW1, hB]
  exact congrArg (fun s => Spec.qrelu (s + b (ix2 (0 : Fin 1) Q))) (Pay.sum_two_blocks (fun k => x (ix2 P k) * w (ix2 k Q)))

/-- Where the windows' blocks sit at a point that writes back (the last of its pair) and at the point before it. -/
theorem idx_facts2 : ∀ t : Fin cfg2.N, t.val % 2 = 1 →
    win2_0.index t (0 : Fin 2) = win2_3.index t (0 : Fin 2) ∧ win2_0.index t (1 : Fin 2) = 1
    ∧ win2_1.index t (0 : Fin 2) = 1 ∧ win2_1.index t (1 : Fin 2) = win2_3.index t (1 : Fin 2)
    ∧ win2_2.index t (0 : Fin 2) = 0 ∧ win2_2.index t (1 : Fin 2) = win2_3.index t (1 : Fin 2)
    ∧ win2_0.index ⟨t.val - 1, Nat.lt_of_le_of_lt (Nat.sub_le _ _) t.isLt⟩ (0 : Fin 2) = win2_3.index t (0 : Fin 2)
    ∧ win2_0.index ⟨t.val - 1, Nat.lt_of_le_of_lt (Nat.sub_le _ _) t.isLt⟩ (1 : Fin 2) = 0
    ∧ win2_1.index ⟨t.val - 1, Nat.lt_of_le_of_lt (Nat.sub_le _ _) t.isLt⟩ (0 : Fin 2) = 0
    ∧ win2_1.index ⟨t.val - 1, Nat.lt_of_le_of_lt (Nat.sub_le _ _) t.isLt⟩ (1 : Fin 2) = win2_3.index t (1 : Fin 2)
    ∧ win2_3.index t (0 : Fin 2) < 8 ∧ win2_3.index t (1 : Fin 2) < 4 :=
  (by decide +kernel : ∀ t : Fin grid2.N, _)

/-- Every output block is some writing point's. -/
theorem idx_onto2 : ∀ (a : Fin 8) (b : Fin 4), ∃ t : Fin cfg2.N, t.val % 2 = 1 ∧ win2_3.index t = ![a.val, b.val] :=
  (by decide +kernel : ∀ (a : Fin 8) (b : Fin 4), ∃ t : Fin grid2.N, t.val % 2 = 1 ∧ win2_3.index t = ![a.val, b.val])

/-- An index of the output array is in point `t`'s block iff each coordinate is in the block's range. -/
theorem mem_blk2 (t : Fin cfg2.N) (i : S8192x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v56).slice (win2_3.rect t)).set ↔ _
  rw [View.set_slice_whole, Rect.mem_set_unit]
  exact Iff.rfl

/-- The writing points' blocks cover the output array. -/
theorem cover2 (i : S8192x4096.Idx) : ∃ t : Fin cfg2.N, (cfg2.win 3).flush t = true ∧ i ∈ ((cfg2.win 3).blk t).view.set := by
  have hi0 : (i 0).val < 8192 := idx2_lt0 i
  have hi1 : (i 1).val < 4096 := idx2_lt1 i
  obtain ⟨t, ht, hq⟩ := idx_onto2 ⟨(i 0).val / 1024, by omega⟩ ⟨(i 1).val / 1024, by omega⟩
  have q0 : win2_3.index t (0 : Fin 2) = (i 0).val / 1024 := congrFun hq 0
  have q1 : win2_3.index t (1 : Fin 2) = (i 1).val / 1024 := congrFun hq 1
  refine ⟨t, (flush2_3 t).mpr ht, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-! ## Each input block read off its array -/

/-- The left operand's block at a point `s`: row (block row) · 1024 + a, column (block column) · 1024 + k of the array. -/
theorem iblk2_0_apply (c : Dev nD) (s : Fin cfg2.N) (a k : Fin 1024) (P : Fin 8192) (Kk : Fin 2048)
    (hP : P.val = win2_0.index s (0 : Fin 2) * 1024 + a.val) (hK : Kk.val = win2_0.index s (1 : Fin 2) * 1024 + k.val) :
    (iblk2 V c 0 s : Vec Ideal S1024x1024 .bf16) (ix2 a k) = (V c main_v54 : S8192x2048.Idx → EReal) (ix2 P Kk) := by
  unfold iblk2
  rw [View.read_apply]
  show (V c main_v54 : S8192x2048.Idx → EReal) _ = _
  refine congrArg _ (funext fun ax => Fin.ext ?_)
  match ax with
  | ⟨0, _⟩ => show win2_0.index s (0 : Fin 2) * 1024 + 1 * a.val = P.val; omega
  | ⟨1, _⟩ => show win2_0.index s (1 : Fin 2) * 1024 + 1 * k.val = Kk.val; omega

/-- The weights' block at a point `s`: row (block row) · 1024 + k, column (block column) · 1024 + b of the array. -/
theorem iblk2_1_apply (c : Dev nD) (s : Fin cfg2.N) (k b : Fin 1024) (Kk : Fin 2048) (Q : Fin 4096)
    (hK : Kk.val = win2_1.index s (0 : Fin 2) * 1024 + k.val) (hQ : Q.val = win2_1.index s (1 : Fin 2) * 1024 + b.val) :
    (iblk2 V c 1 s : Vec Ideal S1024x1024 .bf16) (ix2 k b) = (V c main_v19 : S2048x4096.Idx → EReal) (ix2 Kk Q) := by
  unfold iblk2
  rw [View.read_apply]
  show (V c main_v19 : S2048x4096.Idx → EReal) _ = _
  refine congrArg _ (funext fun ax => Fin.ext ?_)
  match ax with
  | ⟨0, _⟩ => show win2_1.index s (0 : Fin 2) * 1024 + 1 * k.val = Kk.val; omega
  | ⟨1, _⟩ => show win2_1.index s (1 : Fin 2) * 1024 + 1 * b.val = Q.val; omega

/-- The bias row's block at a point `s`: column (block column) · 1024 + b of the one-row array. -/
theorem iblk2_2_apply (c : Dev nD) (s : Fin cfg2.N) (b : Fin 1024) (Q : Fin 4096)
    (h0 : win2_2.index s (0 : Fin 2) = 0) (hQ : Q.val = win2_2.index s (1 : Fin 2) * 1024 + b.val) :
    (iblk2 V c 2 s : Vec Ideal S1x1024 .f32) (ix2 (0 : Fin 1) b) = (V c main_v55 : S1x4096.Idx → EReal) (ix2 (0 : Fin 1) Q) := by
  unfold iblk2
  rw [View.read_apply]
  show (V c main_v55 : S1x4096.Idx → EReal) _ = _
  refine congrArg _ (funext fun ax => Fin.ext ?_)
  match ax with
  | ⟨0, _⟩ => show win2_2.index s (0 : Fin 2) * 1 + 1 * 0 = 0; omega
  | ⟨1, _⟩ => show win2_2.index s (1 : Fin 2) * 1024 + 1 * b.val = Q.val; omega

/-- WHAT A WRITING POINT WRITES BACK is its block of the layer's array. -/
theorem flushed2_eq (c : Dev nD) (t : Fin cfg2.N) (h1 : t.val % 2 = 1) :
    (dat2 (F := Ideal) V c).flushed 3 t = ((cfg2.win 3).blk t).view.read (Elt Ideal) (G2 V c) := by
  show (cfg2.win 3).cut (grid2.coords t) ((dat2 (F := Ideal) V c).after 3 t) = _
  rw [after2_3, dif_pos h1, outC2_val]
  have hp : (t.val - 1) % 2 = 0 := by omega
  rw [accAt2_A V c ⟨t.val - 1, Nat.lt_of_le_of_lt (Nat.sub_le _ _) t.isLt⟩ hp, sA2_val]
  funext y
  obtain ⟨p, q, rfl⟩ : ∃ (p q : Fin 1024), y = ix2 p q := ⟨y 0, y 1, eq_ix2 y⟩
  obtain ⟨e0, e1, e2, e3, e4, e5, f0, f1, f2, f3, b0, b1⟩ := idx_facts2 t h1
  have hemb : ((cfg2.win 3).blk t).view.emb (ix2 p q)
      = ix2 (⟨win2_3.index t (0 : Fin 2) * 1024 + p.val, by omega⟩ : Fin 8192) (⟨win2_3.index t (1 : Fin 2) * 1024 + q.val, by omega⟩ : Fin 4096) := by
    funext a; apply Fin.ext
    match a with
    | ⟨0, _⟩ => show win2_3.index t (0 : Fin 2) * 1024 + 1 * p.val = win2_3.index t (0 : Fin 2) * 1024 + p.val; omega
    | ⟨1, _⟩ => show win2_3.index t (1 : Fin 2) * 1024 + 1 * q.val = win2_3.index t (1 : Fin 2) * 1024 + q.val; omega
  show Gen.k2_pay3 (F := Ideal) (Gen.k2_pay2 (iblk2 V c 0 t) (iblk2 V c 1 t) (Gen.k2_pay2 (iblk2 V c 0 ⟨t.val - 1, Nat.lt_of_le_of_lt (Nat.sub_le _ _) t.isLt⟩) (iblk2 V c 1 ⟨t.val - 1, Nat.lt_of_le_of_lt (Nat.sub_le _ _) t.isLt⟩) (Gen.k2_pay1 (F := Ideal)))) (iblk2 V c 2 t) (ix2 p q)
    = G2 V c (((cfg2.win 3).blk t).view.emb (ix2 p q))
  refine Eq.trans ?_ (congrArg (G2 V c) hemb).symm
  refine point2 (iblk2 V c 0 ⟨t.val - 1, Nat.lt_of_le_of_lt (Nat.sub_le _ _) t.isLt⟩) (iblk2 V c 1 ⟨t.val - 1, Nat.lt_of_le_of_lt (Nat.sub_le _ _) t.isLt⟩) (iblk2 V c 0 t) (iblk2 V c 1 t) (iblk2 V c 2 t)
    (V c main_v54) (V c main_v19) (V c main_v55) _ _ p q ?_ ?_ ?_ ?_ ?_
  · intro k
    exact iblk2_0_apply V c ⟨t.val - 1, Nat.lt_of_le_of_lt (Nat.sub_le _ _) t.isLt⟩ p k _ _ (by show win2_3.index t (0 : Fin 2) * 1024 + p.val = _; omega) (by show k.val = _; omega)
  · intro k
    exact iblk2_1_apply V c ⟨t.val - 1, Nat.lt_of_le_of_lt (Nat.sub_le _ _) t.isLt⟩ k q _ _ (by show k.val = _; omega) (by show win2_3.index t (1 : Fin 2) * 1024 + q.val = _; omega)
  · intro k
    exact iblk2_0_apply V c t p k _ _ (by show win2_3.index t (0 : Fin 2) * 1024 + p.val = _; omega) (by show 1024 + k.val = _; omega)
  · intro k
    exact iblk2_1_apply V c t k q _ _ (by show 1024 + k.val = _; omega) (by show win2_3.index t (1 : Fin 2) * 1024 + q.val = _; omega)
  · exact iblk2_2_apply V c t q _ e4 (by show win2_3.index t (1 : Fin 2) * 1024 + q.val = _; omega)

/-- THE OUTPUT ARRAY after the region's run is the layer's array. -/
theorem final2 (c : Dev nD) : (dat2 (F := Ideal) V c).arrAt 3 cfg2.N = G2 V c :=
  (dat2 (F := Ideal) V c).arrAt_eq_of_cover 3 (G2 V c) (fun t hf => flushed2_eq V c t ((flush2_3 t).mp hf)) cover2

/-- Entry by entry, the three operand arrays named: row `p`, column `q` of the output array is the activation quantizer of the row
    of the left operand against the column of the weights, over the whole contracted axis, plus the bias of the column. -/
theorem arr2 (c : Dev nD) (A : S8192x2048.Idx → EReal) (W : S2048x4096.Idx → EReal) (B : S1x4096.Idx → EReal)
    (hA : A = V c main_v54) (hW : W = V c main_v19) (hB : B = V c main_v55) (p : Fin 8192) (q : Fin 4096) :
    ((dat2 (F := Ideal) V c).arrAt 3 cfg2.N) (ix2 p q)
      = Spec.qrelu ((∑ k : Fin 2048, A (ix2 p k) * W (ix2 k q)) + B (ix2 (0 : Fin 1) q)) := by
  subst hA hW hB
  rw [final2]
  rfl

end Cert.KernelIdeal.ArrV

end
-- ==== Proof.KI.Val3.lean ====
/- Region 3: what the body's stores leave, as the skeleton's payloads of the blocks it loaded — each store covers its whole
   buffer, and each load reads either an input block or what the last store into the accumulator left. -/
import proofs.«114415_j6030134084248_2_alg».proof.Proof.KI.Body3
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- After the first position along the contracted axis the accumulator holds the block product over a cleared accumulator. -/
theorem sA3_val (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : c3a i) (hcb : ¬c3b i) (x0 : Vec F S1024x1024 .bf16) (x1 : Vec F S1024x1024 .bf16) (x2 : Vec F S1x1024 .f32) :
    sA3 c i arg3 harg3 arg4 harg4 arg5 harg5 arg6 harg6 arg7 harg7 hca hcb x0 x1 x2 = k3_pay2 x0 x1 (k3_pay1 (F := F)) := by
  unfold sA3
  rw [View.read_writes_eq_canon _ _ _ (scoverA3 c i arg3 harg3 arg4 harg4 arg5 harg5 arg6 harg6 arg7 harg7 hca hcb x0 x1 x2)]
  unfold run3A
  dsimp only
  have hz : (![0, 0] : Fin 2 → ℕ) = fun _ => 0 := by funext a; fin_cases a <;> rfl
  sl_unfold_words
  simp only [View.readCov_cons_toLoadRect, View.readAt_eq_ld, harg3.read_unread, harg4.read_unread, harg5.read_unread, harg7.read_unread, View.ld_unit_zero (S := S1024x1024) hz, View.ld_unit_zero (S := S1024x1024) hz, View.ld_unit_zero (S := S1x1024) hz, View.ld_unit_zero (S := S1024x1024) hz]
  first | rw [View.canon_unit_zero hz] | rw [View.canon_cons_unit_zero hz]

/-- After a middle position the accumulator holds the block product added to what it held. -/
theorem sB3_val (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : ¬c3b i) (x0 : Vec F S1024x1024 .bf16) (x1 : Vec F S1024x1024 .bf16) (x2 : Vec F S1x1024 .f32) (xs : Vec F S1024x1024 .f32) :
    sB3 c i arg3 harg3 arg4 harg4 arg5 harg5 arg6 harg6 arg7 harg7 hca hcb x0 x1 x2 xs = k3_pay2 x0 x1 xs := by
  unfold sB3
  rw [View.read_writes_eq_canon _ _ _ (scoverB3 c i arg3 harg3 arg4 harg4 arg5 harg5 arg6 harg6 arg7 harg7 hca hcb x0 x1 x2 xs)]
  unfold run3B
  dsimp only
  have hz : (![0, 0] : Fin 2 → ℕ) = fun _ => 0 := by funext a; fin_cases a <;> rfl
  sl_unfold_words
  simp only [View.readCov_cons_toLoadRect, View.readAt_eq_ld, harg3.read_unread, harg4.read_unread, harg5.read_unread, harg7.read_unread, View.ld_unit_zero (S := S1024x1024) hz, View.ld_unit_zero (S := S1024x1024) hz, View.ld_unit_zero (S := S1x1024) hz, View.ld_unit_zero (S := S1024x1024) hz]
  first | rw [View.canon_unit_zero hz] | rw [View.canon_cons_unit_zero hz]

/-- After the last position the accumulator holds the block product added to what it held, -/
theorem sC3_val (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) :
    sC3 c i arg3 harg3 arg4 harg4 arg5 harg5 arg6 harg6 arg7 harg7 hca hcb x0 x1 x2 xs = k3_pay2 x0 x1 xs := by
  unfold sC3
  rw [View.read_writes_eq_canon _ _ _ (scoverC3 c i arg3 harg3 arg4 harg4 arg5 harg5 arg6 harg6 arg7 harg7 hca hcb x0 x1 x2 xs)]
  unfold run3C
  dsimp only
  have hz : (![0, 0] : Fin 2 → ℕ) = fun _ => 0 := by funext a; fin_cases a <;> rfl
  sl_unfold_words
  simp only [View.readCov_cons_toLoadRect, View.readAt_eq_ld, harg3.read_unread, harg4.read_unread, harg5.read_unread, harg7.read_unread, View.ld_unit_zero (S := S1024x1024) hz, View.ld_unit_zero (S := S1024x1024) hz, View.ld_unit_zero (S := S1x1024) hz, View.ld_unit_zero (S := S1024x1024) hz]
  first | rw [View.canon_unit_zero hz] | rw [View.canon_cons_unit_zero hz]

/-- and the output block holds the bias added to that sum. -/
theorem outC3_val (c : Dev nD) (i : grid3.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hca : ¬c3a i) (hcb : c3b i) (x0 : Vec F S1024x1024 .bf16) (x1 : Vec F S1024x1024 .bf16) (x2 : Vec F S1x1024 .f32) (xs : Vec F S1024x1024 .f32) :
    outC3 c i arg3 harg3 arg4 harg4 arg5 harg5 arg6 harg6 arg7 harg7 hca hcb x0 x1 x2 xs = k3_pay3 (k3_pay2 x0 x1 xs) x2 := by
  unfold outC3
  rw [View.read_writes_eq_canon _ _ _ (coverC3 c i arg3 harg3 arg4 harg4 arg5 harg5 arg6 harg6 arg7 harg7 hca hcb x0 x1 x2 xs)]
  unfold run3C
  dsimp only
  have hz : (![0, 0] : Fin 2 → ℕ) = fun _ => 0 := by funext a; fin_cases a <;> rfl
  sl_unfold_words
  simp only [View.readCov_cons_toLoadRect, View.readAt_eq_ld, harg3.read_unread, harg4.read_unread, harg5.read_unread, harg7.read_unread, View.ld_unit_zero (S := S1024x1024) hz, View.ld_unit_zero (S := S1024x1024) hz, View.ld_unit_zero (S := S1x1024) hz, View.ld_unit_zero (S := S1024x1024) hz]
  first | rw [View.canon_unit_zero hz] | rw [View.canon_cons_unit_zero hz]

end Cert.KernelIdeal.Gen

end
-- ==== Proof.KI.Arr3.lean ====
/-
  Region 3, from blocks to the whole output array, on the extended reals. The contracted axis is cut into four blocks of
  1024 coordinates, visited at four consecutive grid points that share one output block: the first clears the
  accumulator and adds its block product, the next two add theirs, the fourth adds its own and writes the sum plus the
  bias to the output block. At (a, b) of the block the four partial sums are the sums over k of row · column over the
  four quarters of the contracted axis, so their total is the sum over the whole axis — read at the array's own
  coordinates: row (block row) · 1024 + a, column (block column) · 1024 + b. The written blocks tile the array, so the
  array after the region is that one function of the three argument arrays, index by index.
-/
import proofs.«114415_j6030134084248_2_alg».proof.Proof.KI.Val3
import proofs.«114415_j6030134084248_2_alg».proof.Proof.KI.Payloads
import proofs.«114415_j6030134084248_2_alg».proof.Proof.KI.SumBlocks
import Idealize.ShloMosaic.Lib.Pipeline.Value
import Idealize.ShloMosaic.Lib.ValueIdx

set_option maxRecDepth 16384

noncomputable section

open scoped BigOperators

namespace Cert.KernelIdeal.ArrV

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## Four accumulated block products and the bias, at an index of the block -/

/-- The value written after four accumulation steps from a cleared accumulator, at (a, b): the four partial sums added in
    order, plus the bias. -/
theorem run3_apply (x0 x1 x2 x3 w0 w1 w2 w3 : Vec Ideal S1024x1024 .bf16) (x : Vec Ideal S1x1024 .f32) (a b : Fin 1024) :
    k3_pay3 (k3_pay2 x3 w3 (k3_pay2 x2 w2 (k3_pay2 x1 w1 (k3_pay2 x0 w0 (k3_pay1 (F := Ideal)))))) x (ix2 a b)
      = ((((0 + ∑ k : Fin 1024, x0 (ix2 a k) * w0 (ix2 k b)) + ∑ k : Fin 1024, x1 (ix2 a k) * w1 (ix2 k b))
          + ∑ k : Fin 1024, x2 (ix2 a k) * w2 (ix2 k b)) + ∑ k : Fin 1024, x3 (ix2 a k) * w3 (ix2 k b))
        + x (ix2 (0 : Fin 1) b) := by
  rw [Pay.k3_pay3_apply, Pay.k3_pay2_apply, Pay.k3_pay2_apply, Pay.k3_pay2_apply, Pay.k3_pay2_apply, Pay.k3_pay1_apply]

/-- Four partial sums over the quarters of the contracted axis are the sum over the whole axis, when each quarter's
    factors are the row's and the column's entries at the quarter's offset. -/
theorem quarters_sum (A : S8192x4096.Idx → EReal) (W : S4096x4096.Idx → EReal) (P : Fin 8192) (Q : Fin 4096)
    (x0 x1 x2 x3 w0 w1 w2 w3 : Vec Ideal S1024x1024 .bf16) (a b : Fin 1024)
    (hx0 : ∀ k : Fin 1024, x0 (ix2 a k) = A (ix2 P (⟨k.val, by omega⟩ : Fin 4096)))
    (hw0 : ∀ k : Fin 1024, w0 (ix2 k b) = W (ix2 (⟨k.val, by omega⟩ : Fin 4096) Q))
    (hx1 : ∀ k : Fin 1024, x1 (ix2 a k) = A (ix2 P (⟨1024 + k.val, by omega⟩ : Fin 4096)))
    (hw1 : ∀ k : Fin 1024, w1 (ix2 k b) = W (ix2 (⟨1024 + k.val, by omega⟩ : Fin 4096) Q))
    (hx2 : ∀ k : Fin 1024, x2 (ix2 a k) = A (ix2 P (⟨2048 + k.val, by omega⟩ : Fin 4096)))
    (hw2 : ∀ k : Fin 1024, w2 (ix2 k b) = W (ix2 (⟨2048 + k.val, by omega⟩ : Fin 4096) Q))
    (hx3 : ∀ k : Fin 1024, x3 (ix2 a k) = A (ix2 P (⟨3072 + k.val, by omega⟩ : Fin 4096)))
    (hw3 : ∀ k : Fin 1024, w3 (ix2 k b) = W (ix2 (⟨3072 + k.val, by omega⟩ : Fin 4096) Q)) :
    ((((0 + ∑ k : Fin 1024, x0 (ix2 a k) * w0 (ix2 k b)) + ∑ k : Fin 1024, x1 (ix2 a k) * w1 (ix2 k b))
        + ∑ k : Fin 1024, x2 (ix2 a k) * w2 (ix2 k b)) + ∑ k : Fin 1024, x3 (ix2 a k) * w3 (ix2 k b))
      = ∑ k : Fin 4096, A (ix2 P k) * W (ix2 k Q) := by
  refine Eq.trans ?_ (Pay.sum_four_blocks (fun k : Fin 4096 => A (ix2 P k) * W (ix2 k Q)))
  refine congrArg₂ (· + ·) (congrArg₂ (· + ·) (congrArg₂ (· + ·) (congrArg (0 + ·) ?_) ?_) ?_) ?_
  · exact Finset.sum_congr rfl fun k _ => congrArg₂ (· * ·) (hx0 k) (hw0 k)
  · exact Finset.sum_congr rfl fun k _ => congrArg₂ (· * ·) (hx1 k) (hw1 k)
  · exact Finset.sum_congr rfl fun k _ => congrArg₂ (· * ·) (hx2 k) (hw2 k)
  · exact Finset.sum_congr rfl fun k _ => congrArg₂ (· * ·) (hx3 k) (hw3 k)

/-! ## The accumulator along a run of four points -/

/-- The accumulator's contents after a position do not depend on how the position is written. -/
theorem accAt3_congr (c : Dev nD) {n n' : ℕ} (h : n = n') (hn : n < cfg3.N) (hn' : n' < cfg3.N) :
    accAt3 V c n hn = accAt3 V c n' hn' := by
  subst h; rfl

/-- After the first point of a run: the block product over a cleared accumulator. -/
theorem acc3_first (c : Dev nD) (t : Fin cfg3.N) (h0 : t.val % 4 = 0) :
    accAt3 V c t.val t.isLt = k3_pay2 (iblk3 V c 0 t) (iblk3 V c 1 t) (k3_pay1 (F := Ideal)) := by
  rw [accAt3_A V c t h0, sA3_val]

/-- After a middle point of a run: the block product added to what the point before left. -/
theorem acc3_mid (c : Dev nD) (t s : Fin cfg3.N) (h0 : ¬t.val % 4 = 0) (h1 : ¬t.val % 4 = 3) (hs : s.val = t.val - 1) :
    accAt3 V c t.val t.isLt = k3_pay2 (iblk3 V c 0 t) (iblk3 V c 1 t) (accAt3 V c s.val s.isLt) := by
  rw [accAt3_B V c t h0 h1, sB3_val]
  exact congrArg (k3_pay2 (iblk3 V c 0 t) (iblk3 V c 1 t)) (accAt3_congr V c hs.symm _ _)

/-- What the last point of a run leaves in the output block: the bias added to the block product added to what the
    point before left in the accumulator. -/
theorem out3_last (c : Dev nD) (t s : Fin cfg3.N) (h1 : t.val % 4 = 3) (hs : s.val = t.val - 1) :
    (dat3 (F := Ideal) V c).after 3 t
      = k3_pay3 (k3_pay2 (iblk3 V c 0 t) (iblk3 V c 1 t) (accAt3 V c s.val s.isLt)) (iblk3 V c 2 t) := by
  rw [after3_3, dif_pos h1, outC3_val]
  exact congrArg (fun xs => k3_pay3 (k3_pay2 (iblk3 V c 0 t) (iblk3 V c 1 t) xs) (iblk3 V c 2 t)) (accAt3_congr V c hs.symm _ _)

/-! ## The block indices over the grid -/

/-- The windows' index maps of region 3, decided over its 128 points, the last grid coordinate fastest: the point's number
    is ((block row) · 4 + block column) · 4 + contracted block; the left operand's block is (block row, contracted
    block), the weights' (contracted block, block column), the bias's (0, block column), the output's (block row,
    block column). -/
theorem idx3 : ∀ t : Fin cfg3.N,
    win3_0.index t (0 : Fin 2) = t.val / 16 ∧ win3_0.index t (1 : Fin 2) = t.val % 4
    ∧ win3_1.index t (0 : Fin 2) = t.val % 4 ∧ win3_1.index t (1 : Fin 2) = t.val / 4 % 4
    ∧ win3_2.index t (0 : Fin 2) = 0 ∧ win3_2.index t (1 : Fin 2) = t.val / 4 % 4
    ∧ win3_3.index t (0 : Fin 2) = t.val / 16 ∧ win3_3.index t (1 : Fin 2) = t.val / 4 % 4 :=
  (by decide +kernel : ∀ t : Fin grid3.N, _)

/-! ## Each input block read off its array -/

/-- The left operand's block at a point: rows (block row) · 1024 + a, columns (contracted block) · 1024 + k. -/
theorem iblk3_0_apply (c : Dev nD) (t : Fin cfg3.N) (a k : Fin 1024) (P : Fin 8192) (K : Fin 4096)
    (hP : P.val = t.val / 16 * 1024 + a.val) (hK : K.val = t.val % 4 * 1024 + k.val) :
    (iblk3 V c 0 t : Vec Ideal S1024x1024 .bf16) (ix2 a k) = (V c main_v56 : S8192x4096.Idx → EReal) (ix2 P K) := by
  obtain ⟨e00, e01, -⟩ := idx3 t
  unfold iblk3
  rw [View.read_apply]
  show (V c main_v56 : S8192x4096.Idx → EReal) _ = _
  refine congrArg _ (funext fun ax => Fin.ext ?_)
  match ax with
  | ⟨0, _⟩ => show win3_0.index t (0 : Fin 2) * 1024 + 1 * a.val = P.val; omega
  | ⟨1, _⟩ => show win3_0.index t (1 : Fin 2) * 1024 + 1 * k.val = K.val; omega

/-- The weights' block at a point: rows (contracted block) · 1024 + k, columns (block column) · 1024 + b. -/
theorem iblk3_1_apply (c : Dev nD) (t : Fin cfg3.N) (k b : Fin 1024) (K : Fin 4096) (Q : Fin 4096)
    (hK : K.val = t.val % 4 * 1024 + k.val) (hQ : Q.val = t.val / 4 % 4 * 1024 + b.val) :
    (iblk3 V c 1 t : Vec Ideal S1024x1024 .bf16) (ix2 k b) = (V c main_v26 : S4096x4096.Idx → EReal) (ix2 K Q) := by
  obtain ⟨-, -, e10, e11, -⟩ := idx3 t
  unfold iblk3
  rw [View.read_apply]
  show (V c main_v26 : S4096x4096.Idx → EReal) _ = _
  refine congrArg _ (funext fun ax => Fin.ext ?_)
  match ax with
  | ⟨0, _⟩ => show win3_1.index t (0 : Fin 2) * 1024 + 1 * k.val = K.val; omega
  | ⟨1, _⟩ => show win3_1.index t (1 : Fin 2) * 1024 + 1 * b.val = Q.val; omega

/-- The bias row's block at a point: columns (block column) · 1024 + b. -/
theorem iblk3_2_apply (c : Dev nD) (t : Fin cfg3.N) (b : Fin 1024) (Q : Fin 4096)
    (hQ : Q.val = t.val / 4 % 4 * 1024 + b.val) :
    (iblk3 V c 2 t : Vec Ideal S1x1024 .f32) (ix2 (0 : Fin 1) b) = (V c main_v57 : S1x4096.Idx → EReal) (ix2 (0 : Fin 1) Q) := by
  obtain ⟨-, -, -, -, e20, e21, -⟩ := idx3 t
  unfold iblk3
  rw [View.read_apply]
  show (V c main_v57 : S1x4096.Idx → EReal) _ = _
  refine congrArg _ (funext fun ax => Fin.ext ?_)
  match ax with
  | ⟨0, _⟩ => show win3_2.index t (0 : Fin 2) * 1 + 1 * 0 = 0; omega
  | ⟨1, _⟩ => show win3_2.index t (1 : Fin 2) * 1024 + 1 * b.val = Q.val; omega

/-! ## The whole output array as one function of the argument arrays -/

/-- The last layer at an index of the output array, as a function of the three argument arrays: the row of the left
    operand against the column of the weights, plus the bias of the column. -/
def G3 (A : S8192x4096.Idx → EReal) (W : S4096x4096.Idx → EReal) (B : S1x4096.Idx → EReal) : S8192x4096.Idx → EReal := fun i =>
  (∑ k : Fin 4096, A (ix2 (⟨(i 0).val, (i 0).isLt⟩ : Fin 8192) k) * W (ix2 k (⟨(i 1).val, (i 1).isLt⟩ : Fin 4096)))
    + B (ix2 (0 : Fin 1) (⟨(i 1).val, (i 1).isLt⟩ : Fin 4096))

/-- What the last point of a run writes back is its block of that function. -/
theorem flushed3_eq (c : Dev nD) (t : Fin cfg3.N) (hf : (cfg3.win 3).flush t = true) :
    (dat3 (F := Ideal) V c).flushed 3 t
      = ((cfg3.win 3).blk t).view.read (Elt Ideal) (G3 (V c main_v56) (V c main_v26) (V c main_v57)) := by
  have h3 : t.val % 4 = 3 := (flush3_3 t).mp hf
  have hN : cfg3.N = 128 := N_3
  have hlt : t.val < cfg3.N := t.isLt
  obtain ⟨t2, e2⟩ : ∃ s : Fin cfg3.N, s.val = t.val - 1 := ⟨⟨t.val - 1, by omega⟩, rfl⟩
  obtain ⟨t1, e1⟩ : ∃ s : Fin cfg3.N, s.val = t2.val - 1 := ⟨⟨t2.val - 1, by omega⟩, rfl⟩
  obtain ⟨t0, e0⟩ : ∃ s : Fin cfg3.N, s.val = t1.val - 1 := ⟨⟨t1.val - 1, by omega⟩, rfl⟩
  show (cfg3.win 3).cut (grid3.coords t) ((dat3 (F := Ideal) V c).after 3 t) = _
  rw [out3_last V c t t2 h3 e2, acc3_mid V c t2 t1 (by omega) (by omega) e1, acc3_mid V c t1 t0 (by omega) (by omega) e0,
    acc3_first V c t0 (by omega)]
  funext y
  obtain ⟨a, b, rfl⟩ : ∃ (a : Fin 1024) (b : Fin 1024), y = ix2 a b := ⟨y 0, y 1, eq_ix2 y⟩
  show k3_pay3 (k3_pay2 (iblk3 V c 0 t) (iblk3 V c 1 t) (k3_pay2 (iblk3 V c 0 t2) (iblk3 V c 1 t2)
        (k3_pay2 (iblk3 V c 0 t1) (iblk3 V c 1 t1) (k3_pay2 (iblk3 V c 0 t0) (iblk3 V c 1 t0) (k3_pay1 (F := Ideal))))))
      (iblk3 V c 2 t) (ix2 a b)
    = G3 (V c main_v56) (V c main_v26) (V c main_v57) (((cfg3.win 3).blk t).view.emb (ix2 a b))
  rw [run3_apply]
  unfold G3
  obtain ⟨-, -, -, -, -, -, e30, e31⟩ := idx3 t
  have hP : ((((cfg3.win 3).blk t).view.emb (ix2 a b)) 0).val = t.val / 16 * 1024 + a.val := by
    show win3_3.index t (0 : Fin 2) * 1024 + 1 * a.val = _; omega
  have hQ : ((((cfg3.win 3).blk t).view.emb (ix2 a b)) 1).val = t.val / 4 % 4 * 1024 + b.val := by
    show win3_3.index t (1 : Fin 2) * 1024 + 1 * b.val = _; omega
  have ha : a.val < 1024 := a.isLt
  have hb : b.val < 1024 := b.isLt
  refine congrArg₂ (· + ·) ?_ (iblk3_2_apply V c t b _ hQ)
  refine quarters_sum _ _ _ _ _ _ _ _ _ _ _ _ a b ?_ ?_ ?_ ?_ ?_ ?_ ?_ ?_
  · exact fun k => iblk3_0_apply V c t0 a k _ _ (hP.trans (by omega)) (by show k.val = t0.val % 4 * 1024 + k.val; omega)
  · exact fun k => iblk3_1_apply V c t0 k b _ _ (by show k.val = t0.val % 4 * 1024 + k.val; omega) (hQ.trans (by omega))
  · exact fun k => iblk3_0_apply V c t1 a k _ _ (hP.trans (by omega)) (by show 1024 + k.val = t1.val % 4 * 1024 + k.val; omega)
  · exact fun k => iblk3_1_apply V c t1 k b _ _ (by show 1024 + k.val = t1.val % 4 * 1024 + k.val; omega) (hQ.trans (by omega))
  · exact fun k => iblk3_0_apply V c t2 a k _ _ (hP.trans (by omega)) (by show 2048 + k.val = t2.val % 4 * 1024 + k.val; omega)
  · exact fun k => iblk3_1_apply V c t2 k b _ _ (by show 2048 + k.val = t2.val % 4 * 1024 + k.val; omega) (hQ.trans (by omega))
  · exact fun k => iblk3_0_apply V c t a k _ _ (hP.trans (by omega)) (by show 3072 + k.val = t.val % 4 * 1024 + k.val; omega)
  · exact fun k => iblk3_1_apply V c t k b _ _ (by show 3072 + k.val = t.val % 4 * 1024 + k.val; omega) (hQ.trans (by omega))

/-! ## The written blocks tile the array -/

/-- An index of the array is in a point's block iff each coordinate is in the block's range on its axis. -/
theorem mem_blk3 (t : Fin cfg3.N) (i : S8192x4096.Idx) :
    i ∈ ((cfg3.win 3).blk t).view.set ↔ ∀ ax : Fin 2, win3_3.index t ax * S1024x1024.size ax ≤ (i ax).val ∧ (i ax).val < win3_3.index t ax * S1024x1024.size ax + S1024x1024.size ax := by
  show i ∈ ((View.whole main_v58).slice (win3_3.rect t)).set ↔ _
  rw [View.set_slice_whole, Rect.mem_set_unit]
  exact Iff.rfl

/-- Every index of the array is in the block of some point that writes back: the last point of the run of its block
    row and block column. -/
theorem cover3_3 (i : S8192x4096.Idx) : ∃ t : Fin cfg3.N, (cfg3.win 3).flush t = true ∧ i ∈ ((cfg3.win 3).blk t).view.set := by
  have hi0 : (i 0).val < 8192 := (i 0).isLt
  have hi1 : (i 1).val < 4096 := (i 1).isLt
  have hN : cfg3.N = 128 := N_3
  obtain ⟨t, ht⟩ : ∃ s : Fin cfg3.N, s.val = ((i 0).val / 1024 * 4 + (i 1).val / 1024) * 4 + 3 :=
    ⟨⟨((i 0).val / 1024 * 4 + (i 1).val / 1024) * 4 + 3, by omega⟩, rfl⟩
  refine ⟨t, (flush3_3 t).mpr (by omega), ?_⟩
  obtain ⟨-, -, -, -, -, -, e30, e31⟩ := idx3 t
  rw [mem_blk3]
  intro ax
  match ax with
  | ⟨0, _⟩ => show win3_3.index t (0 : Fin 2) * 1024 ≤ (i 0).val ∧ (i 0).val < win3_3.index t (0 : Fin 2) * 1024 + 1024; omega
  | ⟨1, _⟩ => show win3_3.index t (1 : Fin 2) * 1024 ≤ (i 1).val ∧ (i 1).val < win3_3.index t (1 : Fin 2) * 1024 + 1024; omega

/-! ## The array after the region -/

/-- The output array after the region is the last layer, index by index. -/
theorem final3 (c : Dev nD) : (dat3 (F := Ideal) V c).arrAt 3 cfg3.N = G3 (V c main_v56) (V c main_v26) (V c main_v57) :=
  (dat3 (F := Ideal) V c).arrAt_eq_of_cover 3 (G3 (V c main_v56) (V c main_v26) (V c main_v57)) (fun t hf => flushed3_eq V c t hf) cover3_3

/-- The output array after the region at (p, q), the three argument arrays named: row p of the left operand against
    column q of the weights over the whole contracted axis, plus the bias of column q. -/
theorem arr3 (c : Dev nD) (A : S8192x4096.Idx → EReal) (W : S4096x4096.Idx → EReal) (B : S1x4096.Idx → EReal)
    (hA : A = V c main_v56) (hW : W = V c main_v26) (hB : B = V c main_v57) (p : Fin 8192) (q : Fin 4096) :
    ((dat3 (F := Ideal) V c).arrAt 3 cfg3.N) (ix2 p q)
      = (∑ k : Fin 4096, A (ix2 p k) * W (ix2 k q)) + B (ix2 (0 : Fin 1) q) := by
  subst hA hW hB
  rw [final3]
  rfl

end Cert.KernelIdeal.ArrV

end
-- ==== Proof.KI.Chain.lean ====
/- The idealized kernel program's result as one function of the argument arrays: four dense layers, each the product of the
   previous activation with the quantized weights plus the quantized bias, the first three quantized to the activation's
   levels. Region by region: a region's output array is the layer's function of the arrays it is entered with; the arrays it
   is entered with are the previous region's output (untouched by the host stretch in between, which only reshapes the next
   bias), the quantized weights and biases the host operations before the first region left, and the input. -/
import proofs.«114415_j6030134084248_2_alg».proof.Proof.KI.Frames
import proofs.«114415_j6030134084248_2_alg».proof.Proof.KI.HostStages
import proofs.«114415_j6030134084248_2_alg».proof.Proof.KI.Arr0
import proofs.«114415_j6030134084248_2_alg».proof.Proof.KI.Arr1
import proofs.«114415_j6030134084248_2_alg».proof.Proof.KI.Arr2
import proofs.«114415_j6030134084248_2_alg».proof.Proof.KI.Arr3
import proofs.«114415_j6030134084248_2_alg».proof.Proof.Spec

set_option maxRecDepth 16384

noncomputable section

namespace Cert.KernelIdeal.Chain

open Cert.KernelIdeal Cert.KernelIdeal.Gen Cert.KernelIdeal.GenP
open Idealize.ShloMosaic Idealize.ShloMosaic.TcCoe Idealize.ShloMosaic.ValueIdx Idealize.SL.Sem
open Cert.Spec

variable (m : (ℓ : Loc nD τ sig) → Buf (Elt Ideal) ℓ) (c : Dev nD)

/-! ## The argument arrays by coordinates -/

abbrev aX : Fin 8192 → Fin 128 → EReal := fun p k => m ((c.tc : Thread nD τ).loc main_arg0) (ix2 p k)
abbrev aW0 : Fin 128 → Fin 1024 → EReal := fun k q => m ((c.tc : Thread nD τ).loc main_arg1) (ix2 k q)
abbrev ab0 : Fin 1024 → EReal := fun q => m ((c.tc : Thread nD τ).loc main_arg2) (ix1 q)
abbrev aW1 : Fin 1024 → Fin 2048 → EReal := fun k q => m ((c.tc : Thread nD τ).loc main_arg3) (ix2 k q)
abbrev ab1 : Fin 2048 → EReal := fun q => m ((c.tc : Thread nD τ).loc main_arg4) (ix1 q)
abbrev aW2 : Fin 2048 → Fin 4096 → EReal := fun k q => m ((c.tc : Thread nD τ).loc main_arg5) (ix2 k q)
abbrev ab2 : Fin 4096 → EReal := fun q => m ((c.tc : Thread nD τ).loc main_arg6) (ix1 q)
abbrev aW3 : Fin 4096 → Fin 4096 → EReal := fun k q => m ((c.tc : Thread nD τ).loc main_arg7) (ix2 k q)
abbrev ab3 : Fin 4096 → EReal := fun q => m ((c.tc : Thread nD τ).loc main_arg8) (ix1 q)

/-- The activations after the first three layers. -/
def A0 : Fin 8192 → Fin 1024 → EReal := fun p q => qrelu (dense (aX m c) (aW0 m c) (ab0 m c) p q)
def A1 : Fin 8192 → Fin 2048 → EReal := fun p q => qrelu (dense (A0 m c) (aW1 m c) (ab1 m c) p q)
def A2 : Fin 8192 → Fin 4096 → EReal := fun p q => qrelu (dense (A1 m c) (aW2 m c) (ab2 m c) p q)

/-! ## A host stretch between two regions keeps what it does not write -/

theorem keep1 (V : Valuation τ sig (Elt Ideal)) (r : Ref sig .tc) (h : r ∉ GenP.hostOps1_W) : StableHlo.after hostOps1 V r = V r :=
  StableHlo.after_of_writes_sub hostOps1 _ GenP.hostOps1_writes h
theorem keep2 (V : Valuation τ sig (Elt Ideal)) (r : Ref sig .tc) (h : r ∉ GenP.hostOps2_W) : StableHlo.after hostOps2 V r = V r :=
  StableHlo.after_of_writes_sub hostOps2 _ GenP.hostOps2_writes h
theorem keep3 (V : Valuation τ sig (Elt Ideal)) (r : Ref sig .tc) (h : r ∉ GenP.hostOps3_W) : StableHlo.after hostOps3 V r = V r :=
  StableHlo.after_of_writes_sub hostOps3 _ GenP.hostOps3_writes h

/-- A buffer no region writes and no stretch between regions writes holds, at any later boundary, what the host operations
    before the first region left. -/
theorem Y34_of (r : Ref sig .tc) (h : r ≠ main_v52) : Y34 m c r = GenP.V33 m c r :=
  Function.update_of_ne (StableHlo.devRef_ne_of_ne h) _ _
theorem Y35_of (r : Ref sig .tc) (h : r ≠ main_v52) (h1 : r ∉ GenP.hostOps1_W) : Y35 m c r = GenP.V33 m c r :=
  (keep1 _ r h1).trans (Y34_of m c r h)
theorem Y36_of (r : Ref sig .tc) (h : r ≠ main_v52) (h1 : r ∉ GenP.hostOps1_W) (h' : r ≠ main_v54) : Y36 m c r = GenP.V33 m c r :=
  (Function.update_of_ne (StableHlo.devRef_ne_of_ne h') _ _).trans (Y35_of m c r h h1)
theorem Y37_of (r : Ref sig .tc) (h : r ≠ main_v52) (h1 : r ∉ GenP.hostOps1_W) (h' : r ≠ main_v54) (h2 : r ∉ GenP.hostOps2_W) : Y37 m c r = GenP.V33 m c r :=
  (keep2 _ r h2).trans (Y36_of m c r h h1 h')
theorem Y38_of (r : Ref sig .tc) (h : r ≠ main_v52) (h1 : r ∉ GenP.hostOps1_W) (h' : r ≠ main_v54) (h2 : r ∉ GenP.hostOps2_W) (h'' : r ≠ main_v56) : Y38 m c r = GenP.V33 m c r :=
  (Function.update_of_ne (StableHlo.devRef_ne_of_ne h'') _ _).trans (Y37_of m c r h h1 h' h2)
theorem Y39_of (r : Ref sig .tc) (h : r ≠ main_v52) (h1 : r ∉ GenP.hostOps1_W) (h' : r ≠ main_v54) (h2 : r ∉ GenP.hostOps2_W) (h'' : r ≠ main_v56) (h3 : r ∉ GenP.hostOps3_W) : Y39 m c r = GenP.V33 m c r :=
  (keep3 _ r h3).trans (Y38_of m c r h h1 h' h2 h'')

/-! ## Region by region -/

/-- Region 0's output is the first activation. -/
theorem o34_eq (p : Fin 8192) (q : Fin 1024) : o34 m c (ix2 p q) = A0 m c p q :=
  (ArrV.arr0 (Vr0 m) c _ _ _ (Host.x_kept m c).symm (Host.W0q m c).symm (Host.b0q m c).symm p q).trans rfl

theorem Vr1_in : Vr1 m c main_v52 = o34 m c := (keep1 _ main_v52 (by decide)).trans (Y34_self m c)
theorem Vr1_w : Vr1 m c main_v12 = GenP.V33 m c main_v12 := Y35_of m c main_v12 (by decide) (by decide)
theorem Vr1_b (j : S1x2048.Idx) : Vr1 m c main_v53 j = GenP.V33 m c main_v38 (ix1 (j 1)) :=
  (Host.bias1 (Y34 m c) j).trans (congrFun (Y34_of m c main_v38 (by decide)) _)

/-- Region 1's output is the second activation. -/
theorem o36_eq (p : Fin 8192) (q : Fin 2048) : o36 m c (ix2 p q) = A1 m c p q := by
  have h := ArrV.arr1 (Vr1 m) c (o34 m c) _ (fun j => Spec.qbits (m ((c.tc : Thread nD τ).loc main_arg4) (ix1 (j 1))))
    (Vr1_in m c).symm ((Vr1_w m c).trans (Host.W1q m c)).symm
    (funext fun j => ((Vr1_b m c j).trans (congrFun (Host.b1q m c) (ix1 (j 1)))).symm) p q
  refine h.trans ?_
  simp only [o34_eq m c]
  rfl

theorem Vr2_in : Vr2 m c main_v54 = o36 m c := (keep2 _ main_v54 (by decide)).trans (Y36_self m c)
theorem Vr2_w : Vr2 m c main_v19 = GenP.V33 m c main_v19 := Y37_of m c main_v19 (by decide) (by decide) (by decide) (by decide)
theorem Vr2_b (j : S1x4096.Idx) : Vr2 m c main_v55 j = GenP.V33 m c main_v44 (ix1 (j 1)) :=
  (Host.bias2 (Y36 m c) j).trans (congrFun (Y36_of m c main_v44 (by decide) (by decide) (by decide)) _)

/-- Region 2's output is the third activation. -/
theorem o38_eq (p : Fin 8192) (q : Fin 4096) : o38 m c (ix2 p q) = A2 m c p q := by
  have h := ArrV.arr2 (Vr2 m) c (o36 m c) _ (fun j => Spec.qbits (m ((c.tc : Thread nD τ).loc main_arg6) (ix1 (j 1))))
    (Vr2_in m c).symm ((Vr2_w m c).trans (Host.W2q m c)).symm
    (funext fun j => ((Vr2_b m c j).trans (congrFun (Host.b2q m c) (ix1 (j 1)))).symm) p q
  refine h.trans ?_
  simp only [o36_eq m c]
  rfl

theorem Vr3_in : Vr3 m c main_v56 = o38 m c := (keep3 _ main_v56 (by decide)).trans (Y38_self m c)
theorem Vr3_w : Vr3 m c main_v26 = GenP.V33 m c main_v26 := Y39_of m c main_v26 (by decide) (by decide) (by decide) (by decide) (by decide) (by decide)
theorem Vr3_b (j : S1x4096.Idx) : Vr3 m c main_v57 j = GenP.V33 m c main_v50 (ix1 (j 1)) :=
  (Host.bias3 (Y38 m c) j).trans (congrFun (Y38_of m c main_v50 (by decide) (by decide) (by decide) (by decide) (by decide)) _)

/-- THE RESULT: the last region's output is the specification's function of the argument arrays. -/
theorem o40_eq (p : Fin 8192) (q : Fin 4096) :
    o40 m c (ix2 p q) = Spec.out (aX m c) (aW0 m c) (ab0 m c) (aW1 m c) (ab1 m c) (aW2 m c) (ab2 m c) (aW3 m c) (ab3 m c) p q := by
  have h := ArrV.arr3 (Vr3 m) c (o38 m c) _ (fun j => Spec.qbits (m ((c.tc : Thread nD τ).loc main_arg8) (ix1 (j 1))))
    (Vr3_in m c).symm ((Vr3_w m c).trans (Host.W3q m c)).symm
    (funext fun j => ((Vr3_b m c j).trans (congrFun (Host.b3q m c) (ix1 (j 1)))).symm) p q
  refine h.trans ?_
  simp only [o38_eq m c]
  rfl

end Cert.KernelIdeal.Chain

end
-- ==== Proof.RefQuant.lean ====
/-
  The reference's quantizers, read at an index. Each weight matrix and bias vector goes through the same eight
  elementwise stages (scale by 32, round, the straight-through correction, clip into [-32, 31], scale by 1/32), and each
  hidden activation through the same stages with 64, [0, 63] and 1/64: read at one index, each is the scalar
  straight-through quantizer of the specification applied to the operand's element there — for every operand, finite
  or not. On a finite element the straight-through quantizer is the plain one.
-/
import proofs.«114415_j6030134084248_2_alg».proof.Proof.Gen.ReferenceIdeal.Read
import proofs.«114415_j6030134084248_2_alg».proof.Proof.Spec

noncomputable section

namespace Cert.RefQuant

open Cert.ReferenceIdeal Cert.ReferenceIdeal.Gen Idealize.ShloMosaic Idealize.ShloMosaic.TcCoe Idealize.SL.Sem Idealize.ShloMosaic.StableHlo

/-- The quantized `x1` at an index, in the straight-through spelling. -/
theorem w0_ste (x1 : (⟨S128x1024, .f32⟩ : BufTy).Contents (Elt Ideal)) (i : S128x1024.Idx) :
    Read.val_main_v7 (F := Ideal) x1 i = Spec.qbitsSte (x1 i) := by
  simp only [Read.val_main_v7_apply, Read.val_main_v6_apply, Read.val_main_v5_apply, Read.val_main_call1_v4_apply, Read.val_main_call1_v3_apply, Read.val_main_call1_v2_apply, Read.val_main_call1_v1_apply, Read.val_main_call1_v0_apply, Read.val_main_v4_apply, Read.val_main_v3_apply, Read.val_main_v2_apply, Read.val_main_v1_apply, Read.val_main_v0_apply]
  rfl

/-- The quantized `x1` at an index, for a finite `x1`. -/
theorem w0 (x1 : (⟨S128x1024, .f32⟩ : BufTy).Contents (Elt Ideal)) (h : ∀ i, Spec.IsReal (x1 i)) (i : S128x1024.Idx) :
    Read.val_main_v7 (F := Ideal) x1 i = Spec.qbits (x1 i) :=
  (w0_ste x1 i).trans (Spec.qbitsSte_eq (h i))

/-- The quantized `x2` at an index, in the straight-through spelling. -/
theorem b0_ste (x2 : (⟨S1024, .f32⟩ : BufTy).Contents (Elt Ideal)) (i : S1024.Idx) :
    Read.val_main_v15 (F := Ideal) x2 i = Spec.qbitsSte (x2 i) := by
  simp only [Read.val_main_v15_apply, Read.val_main_v14_apply, Read.val_main_v13_apply, Read.val_main_call3_v4_apply, Read.val_main_call3_v3_apply, Read.val_main_call3_v2_apply, Read.val_main_call3_v1_apply, Read.val_main_call3_v0_apply, Read.val_main_v12_apply, Read.val_main_v11_apply, Read.val_main_v10_apply, Read.val_main_v9_apply, Read.val_main_v8_apply]
  rfl

/-- The quantized `x2` at an index, for a finite `x2`. -/
theorem b0 (x2 : (⟨S1024, .f32⟩ : BufTy).Contents (Elt Ideal)) (h : ∀ i, Spec.IsReal (x2 i)) (i : S1024.Idx) :
    Read.val_main_v15 (F := Ideal) x2 i = Spec.qbits (x2 i) :=
  (b0_ste x2 i).trans (Spec.qbitsSte_eq (h i))

/-- The quantized `x3` at an index, in the straight-through spelling. -/
theorem w1_ste (x3 : (⟨S1024x2048, .f32⟩ : BufTy).Contents (Elt Ideal)) (i : S1024x2048.Idx) :
    Read.val_main_v35 (F := Ideal) x3 i = Spec.qbitsSte (x3 i) := by
  simp only [Read.val_main_v35_apply, Read.val_main_v34_apply, Read.val_main_v33_apply, Read.val_main_call7_v4_apply, Read.val_main_call7_v3_apply, Read.val_main_call7_v2_apply, Read.val_main_call7_v1_apply, Read.val_main_call7_v0_apply, Read.val_main_v32_apply, Read.val_main_v31_apply, Read.val_main_v30_apply, Read.val_main_v29_apply, Read.val_main_v28_apply]
  rfl

/-- The quantized `x3` at an index, for a finite `x3`. -/
theorem w1 (x3 : (⟨S1024x2048, .f32⟩ : BufTy).Contents (Elt Ideal)) (h : ∀ i, Spec.IsReal (x3 i)) (i : S1024x2048.Idx) :
    Read.val_main_v35 (F := Ideal) x3 i = Spec.qbits (x3 i) :=
  (w1_ste x3 i).trans (Spec.qbitsSte_eq (h i))

/-- The quantized `x4` at an index, in the straight-through spelling. -/
theorem b1_ste (x4 : (⟨S2048, .f32⟩ : BufTy).Contents (Elt Ideal)) (i : S2048.Idx) :
    Read.val_main_v43 (F := Ideal) x4 i = Spec.qbitsSte (x4 i) := by
  simp only [Read.val_main_v43_apply, Read.val_main_v42_apply, Read.val_main_v41_apply, Read.val_main_call9_v4_apply, Read.val_main_call9_v3_apply, Read.val_main_call9_v2_apply, Read.val_main_call9_v1_apply, Read.val_main_call9_v0_apply, Read.val_main_v40_apply, Read.val_main_v39_apply, Read.val_main_v38_apply, Read.val_main_v37_apply, Read.val_main_v36_apply]
  rfl

/-- The quantized `x4` at an index, for a finite `x4`. -/
theorem b1 (x4 : (⟨S2048, .f32⟩ : BufTy).Contents (Elt Ideal)) (h : ∀ i, Spec.IsReal (x4 i)) (i : S2048.Idx) :
    Read.val_main_v43 (F := Ideal) x4 i = Spec.qbits (x4 i) :=
  (b1_ste x4 i).trans (Spec.qbitsSte_eq (h i))

/-- The quantized `x5` at an index, in the straight-through spelling. -/
theorem w2_ste (x5 : (⟨S2048x4096, .f32⟩ : BufTy).Contents (Elt Ideal)) (i : S2048x4096.Idx) :
    Read.val_main_v63 (F := Ideal) x5 i = Spec.qbitsSte (x5 i) := by
  simp only [Read.val_main_v63_apply, Read.val_main_v62_apply, Read.val_main_v61_apply, Read.val_main_call13_v4_apply, Read.val_main_call13_v3_apply, Read.val_main_call13_v2_apply, Read.val_main_call13_v1_apply, Read.val_main_call13_v0_apply, Read.val_main_v60_apply, Read.val_main_v59_apply, Read.val_main_v58_apply, Read.val_main_v57_apply, Read.val_main_v56_apply]
  rfl

/-- The quantized `x5` at an index, for a finite `x5`. -/
theorem w2 (x5 : (⟨S2048x4096, .f32⟩ : BufTy).Contents (Elt Ideal)) (h : ∀ i, Spec.IsReal (x5 i)) (i : S2048x4096.Idx) :
    Read.val_main_v63 (F := Ideal) x5 i = Spec.qbits (x5 i) :=
  (w2_ste x5 i).trans (Spec.qbitsSte_eq (h i))

/-- The quantized `x6` at an index, in the straight-through spelling. -/
theorem b2_ste (x6 : (⟨S4096, .f32⟩ : BufTy).Contents (Elt Ideal)) (i : S4096.Idx) :
    Read.val_main_v71 (F := Ideal) x6 i = Spec.qbitsSte (x6 i) := by
  simp only [Read.val_main_v71_apply, Read.val_main_v70_apply, Read.val_main_v69_apply, Read.val_main_call15_v4_apply, Read.val_main_call15_v3_apply, Read.val_main_call15_v2_apply, Read.val_main_call15_v1_apply, Read.val_main_call15_v0_apply, Read.val_main_v68_apply, Read.val_main_v67_apply, Read.val_main_v66_apply, Read.val_main_v65_apply, Read.val_main_v64_apply]
  rfl

/-- The quantized `x6` at an index, for a finite `x6`. -/
theorem b2 (x6 : (⟨S4096, .f32⟩ : BufTy).Contents (Elt Ideal)) (h : ∀ i, Spec.IsReal (x6 i)) (i : S4096.Idx) :
    Read.val_main_v71 (F := Ideal) x6 i = Spec.qbits (x6 i) :=
  (b2_ste x6 i).trans (Spec.qbitsSte_eq (h i))

/-- The quantized `x7` at an index, in the straight-through spelling. -/
theorem w3_ste (x7 : (⟨S4096x4096, .f32⟩ : BufTy).Contents (Elt Ideal)) (i : S4096x4096.Idx) :
    Read.val_main_v91 (F := Ideal) x7 i = Spec.qbitsSte (x7 i) := by
  simp only [Read.val_main_v91_apply, Read.val_main_v90_apply, Read.val_main_v89_apply, Read.val_main_call19_v4_apply, Read.val_main_call19_v3_apply, Read.val_main_call19_v2_apply, Read.val_main_call19_v1_apply, Read.val_main_call19_v0_apply, Read.val_main_v88_apply, Read.val_main_v87_apply, Read.val_main_v86_apply, Read.val_main_v85_apply, Read.val_main_v84_apply]
  rfl

/-- The quantized `x7` at an index, for a finite `x7`. -/
theorem w3 (x7 : (⟨S4096x4096, .f32⟩ : BufTy).Contents (Elt Ideal)) (h : ∀ i, Spec.IsReal (x7 i)) (i : S4096x4096.Idx) :
    Read.val_main_v91 (F := Ideal) x7 i = Spec.qbits (x7 i) :=
  (w3_ste x7 i).trans (Spec.qbitsSte_eq (h i))

/-- The quantized `x8` at an index, in the straight-through spelling. -/
theorem b3_ste (x8 : (⟨S4096, .f32⟩ : BufTy).Contents (Elt Ideal)) (i : S4096.Idx) :
    Read.val_main_v99 (F := Ideal) x8 i = Spec.qbitsSte (x8 i) := by
  simp only [Read.val_main_v99_apply, Read.val_main_v98_apply, Read.val_main_v97_apply, Read.val_main_call21_v4_apply, Read.val_main_call21_v3_apply, Read.val_main_call21_v2_apply, Read.val_main_call21_v1_apply, Read.val_main_call21_v0_apply, Read.val_main_v96_apply, Read.val_main_v95_apply, Read.val_main_v94_apply, Read.val_main_v93_apply, Read.val_main_v92_apply]
  rfl

/-- The quantized `x8` at an index, for a finite `x8`. -/
theorem b3 (x8 : (⟨S4096, .f32⟩ : BufTy).Contents (Elt Ideal)) (h : ∀ i, Spec.IsReal (x8 i)) (i : S4096.Idx) :
    Read.val_main_v99 (F := Ideal) x8 i = Spec.qbits (x8 i) :=
  (b3_ste x8 i).trans (Spec.qbitsSte_eq (h i))

/-- The quantized activation after the layer whose result is `val_main_v19`, at an index, in the straight-through spelling. -/
theorem a0_ste (x0 : (⟨S8192x128, .f32⟩ : BufTy).Contents (Elt Ideal)) (x1 : (⟨S128x1024, .f32⟩ : BufTy).Contents (Elt Ideal)) (x2 : (⟨S1024, .f32⟩ : BufTy).Contents (Elt Ideal)) (i : S8192x1024.Idx) :
    Read.val_main_v27 (F := Ideal) x0 x1 x2 i = Spec.qreluSte (Read.val_main_v19 (F := Ideal) x0 x1 x2 i) := by
  simp only [Read.val_main_v27_apply, Read.val_main_v26_apply, Read.val_main_v25_apply, Read.val_main_call5_v4_apply, Read.val_main_call5_v3_apply, Read.val_main_call5_v2_apply, Read.val_main_call5_v1_apply, Read.val_main_call5_v0_apply, Read.val_main_v24_apply, Read.val_main_v23_apply, Read.val_main_v22_apply, Read.val_main_v21_apply, Read.val_main_v20_apply]
  generalize Read.val_main_v19 (F := Ideal) x0 x1 x2 i = a
  rfl

/-- The quantized activation after the layer whose result is `val_main_v47`, at an index, in the straight-through spelling. -/
theorem a1_ste (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) (i : S8192x2048.Idx) :
    Read.val_main_v55 (F := Ideal) x0 x1 x2 x3 x4 i = Spec.qreluSte (Read.val_main_v47 (F := Ideal) x0 x1 x2 x3 x4 i) := by
  simp only [Read.val_main_v55_apply, Read.val_main_v54_apply, Read.val_main_v53_apply, Read.val_main_call11_v4_apply, Read.val_main_call11_v3_apply, Read.val_main_call11_v2_apply, Read.val_main_call11_v1_apply, Read.val_main_call11_v0_apply, Read.val_main_v52_apply, Read.val_main_v51_apply, Read.val_main_v50_apply, Read.val_main_v49_apply, Read.val_main_v48_apply]
  generalize Read.val_main_v47 (F := Ideal) x0 x1 x2 x3 x4 i = a
  rfl

/-- The quantized activation after the layer whose result is `val_main_v75`, at an index, in the straight-through spelling. -/
theorem a2_ste (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) (x5 : (⟨S2048x4096, .f32⟩ : BufTy).Contents (Elt Ideal)) (x6 : (⟨S4096, .f32⟩ : BufTy).Contents (Elt Ideal)) (i : S8192x4096.Idx) :
    Read.val_main_v83 (F := Ideal) x0 x1 x2 x3 x4 x5 x6 i = Spec.qreluSte (Read.val_main_v75 (F := Ideal) x0 x1 x2 x3 x4 x5 x6 i) := by
  simp only [Read.val_main_v83_apply, Read.val_main_v82_apply, Read.val_main_v81_apply, Read.val_main_call17_v4_apply, Read.val_main_call17_v3_apply, Read.val_main_call17_v2_apply, Read.val_main_call17_v1_apply, Read.val_main_call17_v0_apply, Read.val_main_v80_apply, Read.val_main_v79_apply, Read.val_main_v78_apply, Read.val_main_v77_apply, Read.val_main_v76_apply]
  generalize Read.val_main_v75 (F := Ideal) x0 x1 x2 x3 x4 x5 x6 i = a
  rfl

end Cert.RefQuant

end
-- ==== Proof.RefValue.lean ====
/-
  The reference computes the specification. Layer by layer: the reference's pre-activation at row `p`, column `q` is
  the sum over the contracted axis of the previous activation times the quantized weight, plus the quantized bias —
  the specification's `dense` —, and the activation that follows is the specification's `qrelu` of it. The reference
  spells rounding straight-through, which is plain rounding on finite arguments only; so each step carries the fact
  that the value it produced is finite: the inputs are finite by hypothesis, a quantizer's value always is, and a
  finite sum of products of finite numbers is finite.
-/
import proofs.«114415_j6030134084248_2_alg».proof.Proof.RefQuant

noncomputable section

namespace Cert.RefValue

open Cert.ReferenceIdeal Cert.ReferenceIdeal.Gen Idealize.ShloMosaic Idealize.ShloMosaic.TcCoe Idealize.SL.Sem Idealize.ShloMosaic.StableHlo Idealize.ShloMosaic.ValueIdx

/-- The input as a function of its two coordinates. -/
abbrev X (x0 : (⟨S8192x128, .f32⟩ : BufTy).Contents (Elt Ideal)) : Fin 8192 → Fin 128 → EReal := fun p k => x0 (ix2 p k)

/-- The first hidden activation of the specification. -/
abbrev A0 (x0 : (⟨S8192x128, .f32⟩ : BufTy).Contents (Elt Ideal)) (x1 : (⟨S128x1024, .f32⟩ : BufTy).Contents (Elt Ideal)) (x2 : (⟨S1024, .f32⟩ : BufTy).Contents (Elt Ideal)) : Fin 8192 → Fin 1024 → EReal :=
  fun p k => Spec.qrelu (Spec.dense (X x0) (fun k q => x1 (ix2 k q)) (fun q => x2 (ix1 q)) p k)

/-- The second hidden activation of the specification. -/
abbrev A1 (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) : Fin 8192 → Fin 2048 → EReal :=
  fun p k => Spec.qrelu (Spec.dense (A0 x0 x1 x2) (fun k q => x3 (ix2 k q)) (fun q => x4 (ix1 q)) p k)

/-- The third hidden activation of the specification. -/
abbrev A2 (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) (x5 : (⟨S2048x4096, .f32⟩ : BufTy).Contents (Elt Ideal)) (x6 : (⟨S4096, .f32⟩ : BufTy).Contents (Elt Ideal)) : Fin 8192 → Fin 4096 → EReal :=
  fun p k => Spec.qrelu (Spec.dense (A1 x0 x1 x2 x3 x4) (fun k q => x5 (ix2 k q)) (fun q => x6 (ix1 q)) p k)

/-- Layer 0 before its activation: the reference's value at row `p`, column `q` is the specification's. -/
theorem pre0 (x0 : (⟨S8192x128, .f32⟩ : BufTy).Contents (Elt Ideal)) (x1 : (⟨S128x1024, .f32⟩ : BufTy).Contents (Elt Ideal)) (x2 : (⟨S1024, .f32⟩ : BufTy).Contents (Elt Ideal)) (h1 : ∀ i, Spec.IsReal (x1 i)) (h2 : ∀ i, Spec.IsReal (x2 i)) (p : Fin 8192) (q : Fin 1024) :
    Read.val_main_v19 (F := Ideal) x0 x1 x2 (ix2 p q)
      = Spec.dense (X x0) (fun k q => x1 (ix2 k q)) (fun q => x2 (ix1 q)) p q := by
  have hl : ∀ k : Fin 128, Read.lidx_main_v16 (ix2 p q) k = ix2 p k := fun k => funext fun a => by match a with | ⟨0, _⟩ => rfl | ⟨1, _⟩ => rfl
  have hr : ∀ k : Fin 128, Read.ridx_main_v16 (ix2 p q) k = ix2 k q := fun k => funext fun a => by match a with | ⟨0, _⟩ => rfl | ⟨1, _⟩ => rfl
  have hb : Read.idx_main_v17 (Read.idx_main_v18 (ix2 p q)) = ix1 q := funext fun a => by match a with | ⟨0, _⟩ => rfl
  rw [Read.val_main_v19_apply, Read.val_main_v16_apply, Read.val_main_v18_apply, Read.val_main_v17_apply]
  simp only [hl, hr, hb, RefQuant.w0 x1 h1, RefQuant.b0 x2 h2]
  rfl

/-- The activation after layer 0: the reference's value at row `p`, column `k` is the specification's, a real. -/
theorem act0 (x0 : (⟨S8192x128, .f32⟩ : BufTy).Contents (Elt Ideal)) (x1 : (⟨S128x1024, .f32⟩ : BufTy).Contents (Elt Ideal)) (x2 : (⟨S1024, .f32⟩ : BufTy).Contents (Elt Ideal)) (h0 : ∀ i, Spec.IsReal (x0 i)) (h1 : ∀ i, Spec.IsReal (x1 i)) (h2 : ∀ i, Spec.IsReal (x2 i)) (p : Fin 8192) (k : Fin 1024) :
    Read.val_main_v27 (F := Ideal) x0 x1 x2 (ix2 p k) = A0 x0 x1 x2 p k := by
  rw [RefQuant.a0_ste, pre0 x0 x1 x2 h1 h2 p k]
  exact Spec.qreluSte_eq (Spec.dense_isReal _ _ _ (fun p k => h0 _) p k)

/-- Layer 1 before its activation: the reference's value at row `p`, column `q` is the specification's. -/
theorem pre1 (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) (h0 : ∀ i, Spec.IsReal (x0 i)) (h1 : ∀ i, Spec.IsReal (x1 i)) (h2 : ∀ i, Spec.IsReal (x2 i)) (h3 : ∀ i, Spec.IsReal (x3 i)) (h4 : ∀ i, Spec.IsReal (x4 i)) (p : Fin 8192) (q : Fin 2048) :
    Read.val_main_v47 (F := Ideal) x0 x1 x2 x3 x4 (ix2 p q)
      = Spec.dense (A0 x0 x1 x2) (fun k q => x3 (ix2 k q)) (fun q => x4 (ix1 q)) p q := by
  have hl : ∀ k : Fin 1024, Read.lidx_main_v44 (ix2 p q) k = ix2 p k := fun k => funext fun a => by match a with | ⟨0, _⟩ => rfl | ⟨1, _⟩ => rfl
  have hr : ∀ k : Fin 1024, Read.ridx_main_v44 (ix2 p q) k = ix2 k q := fun k => funext fun a => by match a with | ⟨0, _⟩ => rfl | ⟨1, _⟩ => rfl
  have hb : Read.idx_main_v45 (Read.idx_main_v46 (ix2 p q)) = ix1 q := funext fun a => by match a with | ⟨0, _⟩ => rfl
  rw [Read.val_main_v47_apply, Read.val_main_v44_apply, Read.val_main_v46_apply, Read.val_main_v45_apply]
  simp only [hl, hr, hb, act0 x0 x1 x2 h0 h1 h2, RefQuant.w1 x3 h3, RefQuant.b1 x4 h4]
  rfl

/-- The activation after layer 1: the reference's value at row `p`, column `k` is the specification's, a real. -/
theorem act1 (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) (h0 : ∀ i, Spec.IsReal (x0 i)) (h1 : ∀ i, Spec.IsReal (x1 i)) (h2 : ∀ i, Spec.IsReal (x2 i)) (h3 : ∀ i, Spec.IsReal (x3 i)) (h4 : ∀ i, Spec.IsReal (x4 i)) (p : Fin 8192) (k : Fin 2048) :
    Read.val_main_v55 (F := Ideal) x0 x1 x2 x3 x4 (ix2 p k) = A1 x0 x1 x2 x3 x4 p k := by
  rw [RefQuant.a1_ste, pre1 x0 x1 x2 x3 x4 h0 h1 h2 h3 h4 p k]
  exact Spec.qreluSte_eq (Spec.dense_isReal _ _ _ (fun p k => Spec.qrelu_isReal _) p k)

/-- Layer 2 before its activation: the reference's value at row `p`, column `q` is the specification's. -/
theorem pre2 (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) (x5 : (⟨S2048x4096, .f32⟩ : BufTy).Contents (Elt Ideal)) (x6 : (⟨S4096, .f32⟩ : BufTy).Contents (Elt Ideal)) (h0 : ∀ i, Spec.IsReal (x0 i)) (h1 : ∀ i, Spec.IsReal (x1 i)) (h2 : ∀ i, Spec.IsReal (x2 i)) (h3 : ∀ i, Spec.IsReal (x3 i)) (h4 : ∀ i, Spec.IsReal (x4 i)) (h5 : ∀ i, Spec.IsReal (x5 i)) (h6 : ∀ i, Spec.IsReal (x6 i)) (p : Fin 8192) (q : Fin 4096) :
    Read.val_main_v75 (F := Ideal) x0 x1 x2 x3 x4 x5 x6 (ix2 p q)
      = Spec.dense (A1 x0 x1 x2 x3 x4) (fun k q => x5 (ix2 k q)) (fun q => x6 (ix1 q)) p q := by
  have hl : ∀ k : Fin 2048, Read.lidx_main_v72 (ix2 p q) k = ix2 p k := fun k => funext fun a => by match a with | ⟨0, _⟩ => rfl | ⟨1, _⟩ => rfl
  have hr : ∀ k : Fin 2048, Read.ridx_main_v72 (ix2 p q) k = ix2 k q := fun k => funext fun a => by match a with | ⟨0, _⟩ => rfl | ⟨1, _⟩ => rfl
  have hb : Read.idx_main_v73 (Read.idx_main_v74 (ix2 p q)) = ix1 q := funext fun a => by match a with | ⟨0, _⟩ => rfl
  rw [Read.val_main_v75_apply, Read.val_main_v72_apply, Read.val_main_v74_apply, Read.val_main_v73_apply]
  simp only [hl, hr, hb, act1 x0 x1 x2 x3 x4 h0 h1 h2 h3 h4, RefQuant.w2 x5 h5, RefQuant.b2 x6 h6]
  rfl

/-- The activation after layer 2: the reference's value at row `p`, column `k` is the specification's, a real. -/
theorem act2 (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) (x5 : (⟨S2048x4096, .f32⟩ : BufTy).Contents (Elt Ideal)) (x6 : (⟨S4096, .f32⟩ : BufTy).Contents (Elt Ideal)) (h0 : ∀ i, Spec.IsReal (x0 i)) (h1 : ∀ i, Spec.IsReal (x1 i)) (h2 : ∀ i, Spec.IsReal (x2 i)) (h3 : ∀ i, Spec.IsReal (x3 i)) (h4 : ∀ i, Spec.IsReal (x4 i)) (h5 : ∀ i, Spec.IsReal (x5 i)) (h6 : ∀ i, Spec.IsReal (x6 i)) (p : Fin 8192) (k : Fin 4096) :
    Read.val_main_v83 (F := Ideal) x0 x1 x2 x3 x4 x5 x6 (ix2 p k) = A2 x0 x1 x2 x3 x4 x5 x6 p k := by
  rw [RefQuant.a2_ste, pre2 x0 x1 x2 x3 x4 x5 x6 h0 h1 h2 h3 h4 h5 h6 p k]
  exact Spec.qreluSte_eq (Spec.dense_isReal _ _ _ (fun p k => Spec.qrelu_isReal _) p k)

/-- Layer 3 before its activation: the reference's value at row `p`, column `q` is the specification's. -/
theorem pre3 (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) (x5 : (⟨S2048x4096, .f32⟩ : BufTy).Contents (Elt Ideal)) (x6 : (⟨S4096, .f32⟩ : BufTy).Contents (Elt Ideal)) (x7 : (⟨S4096x4096, .f32⟩ : BufTy).Contents (Elt Ideal)) (x8 : (⟨S4096, .f32⟩ : BufTy).Contents (Elt Ideal)) (h0 : ∀ i, Spec.IsReal (x0 i)) (h1 : ∀ i, Spec.IsReal (x1 i)) (h2 : ∀ i, Spec.IsReal (x2 i)) (h3 : ∀ i, Spec.IsReal (x3 i)) (h4 : ∀ i, Spec.IsReal (x4 i)) (h5 : ∀ i, Spec.IsReal (x5 i)) (h6 : ∀ i, Spec.IsReal (x6 i)) (h7 : ∀ i, Spec.IsReal (x7 i)) (h8 : ∀ i, Spec.IsReal (x8 i)) (p : Fin 8192) (q : Fin 4096) :
    Read.val_main_v103 (F := Ideal) x0 x1 x2 x3 x4 x5 x6 x7 x8 (ix2 p q)
      = Spec.dense (A2 x0 x1 x2 x3 x4 x5 x6) (fun k q => x7 (ix2 k q)) (fun q => x8 (ix1 q)) p q := by
  have hl : ∀ k : Fin 4096, Read.lidx_main_v100 (ix2 p q) k = ix2 p k := fun k => funext fun a => by match a with | ⟨0, _⟩ => rfl | ⟨1, _⟩ => rfl
  have hr : ∀ k : Fin 4096, Read.ridx_main_v100 (ix2 p q) k = ix2 k q := fun k => funext fun a => by match a with | ⟨0, _⟩ => rfl | ⟨1, _⟩ => rfl
  have hb : Read.idx_main_v101 (Read.idx_main_v102 (ix2 p q)) = ix1 q := funext fun a => by match a with | ⟨0, _⟩ => rfl
  rw [Read.val_main_v103_apply, Read.val_main_v100_apply, Read.val_main_v102_apply, Read.val_main_v101_apply]
  simp only [hl, hr, hb, act2 x0 x1 x2 x3 x4 x5 x6 h0 h1 h2 h3 h4 h5 h6, RefQuant.w3 x7 h7, RefQuant.b3 x8 h8]
  rfl

/-- THE REFERENCE IS THE SPECIFICATION: on argument arrays all of whose entries are real, the reference's result at row
    `p`, column `q` is the specification's network output of the arrays read by coordinates. -/
theorem ref_eq (x0 : (⟨S8192x128, .f32⟩ : BufTy).Contents (Elt Ideal)) (x1 : (⟨S128x1024, .f32⟩ : BufTy).Contents (Elt Ideal)) (x2 : (⟨S1024, .f32⟩ : BufTy).Contents (Elt Ideal)) (x3 : (⟨S1024x2048, .f32⟩ : BufTy).Contents (Elt Ideal)) (x4 : (⟨S2048, .f32⟩ : BufTy).Contents (Elt Ideal)) (x5 : (⟨S2048x4096, .f32⟩ : BufTy).Contents (Elt Ideal)) (x6 : (⟨S4096, .f32⟩ : BufTy).Contents (Elt Ideal)) (x7 : (⟨S4096x4096, .f32⟩ : BufTy).Contents (Elt Ideal)) (x8 : (⟨S4096, .f32⟩ : BufTy).Contents (Elt Ideal))
    (h0 : ∀ i, Spec.IsReal (x0 i)) (h1 : ∀ i, Spec.IsReal (x1 i)) (h2 : ∀ i, Spec.IsReal (x2 i)) (h3 : ∀ i, Spec.IsReal (x3 i)) (h4 : ∀ i, Spec.IsReal (x4 i)) (h5 : ∀ i, Spec.IsReal (x5 i)) (h6 : ∀ i, Spec.IsReal (x6 i)) (h7 : ∀ i, Spec.IsReal (x7 i)) (h8 : ∀ i, Spec.IsReal (x8 i)) (p : Fin 8192) (q : Fin 4096) :
    Read.val_main_v103 (F := Ideal) x0 x1 x2 x3 x4 x5 x6 x7 x8 (ix2 p q)
      = Spec.out (fun p k => x0 (ix2 p k)) (fun k q => x1 (ix2 k q)) (fun q => x2 (ix1 q)) (fun k q => x3 (ix2 k q)) (fun q => x4 (ix1 q)) (fun k q => x5 (ix2 k q)) (fun q => x6 (ix1 q)) (fun k q => x7 (ix2 k q)) (fun q => x8 (ix1 q)) p q :=
  pre3 x0 x1 x2 x3 x4 x5 x6 x7 x8 h0 h1 h2 h3 h4 h5 h6 h7 h8 p q

/-- The same about the reference run's result term: at memory `m` whose nine argument buffers hold only reals, the term
    the run ends with, read at row `p`, column `q`, is the specification's output of those buffers. -/
theorem res_eq (m : (ℓ : Loc nD τ sig) → Buf (Elt Ideal) ℓ) (c : Dev nD)
    (h0 : ∀ i, Spec.IsReal (m ((c.tc : Thread nD τ).loc main_arg0) i))
    (h1 : ∀ i, Spec.IsReal (m ((c.tc : Thread nD τ).loc main_arg1) i))
    (h2 : ∀ i, Spec.IsReal (m ((c.tc : Thread nD τ).loc main_arg2) i))
    (h3 : ∀ i, Spec.IsReal (m ((c.tc : Thread nD τ).loc main_arg3) i))
    (h4 : ∀ i, Spec.IsReal (m ((c.tc : Thread nD τ).loc main_arg4) i))
    (h5 : ∀ i, Spec.IsReal (m ((c.tc : Thread nD τ).loc main_arg5) i))
    (h6 : ∀ i, Spec.IsReal (m ((c.tc : Thread nD τ).loc main_arg6) i))
    (h7 : ∀ i, Spec.IsReal (m ((c.tc : Thread nD τ).loc main_arg7) i))
    (h8 : ∀ i, Spec.IsReal (m ((c.tc : Thread nD τ).loc main_arg8) i))
    (p : Fin 8192) (q : Fin 4096) :
    Cert.ReferenceIdeal.Value.res_main_v103 (F := Ideal) m c (ix2 p q)
      = Spec.out (fun p k => m ((c.tc : Thread nD τ).loc main_arg0) (ix2 p k))
          (fun k q => m ((c.tc : Thread nD τ).loc main_arg1) (ix2 k q)) (fun q => m ((c.tc : Thread nD τ).loc main_arg2) (ix1 q))
          (fun k q => m ((c.tc : Thread nD τ).loc main_arg3) (ix2 k q)) (fun q => m ((c.tc : Thread nD τ).loc main_arg4) (ix1 q))
          (fun k q => m ((c.tc : Thread nD τ).loc main_arg5) (ix2 k q)) (fun q => m ((c.tc : Thread nD τ).loc main_arg6) (ix1 q))
          (fun k q => m ((c.tc : Thread nD τ).loc main_arg7) (ix2 k q)) (fun q => m ((c.tc : Thread nD τ).loc main_arg8) (ix1 q)) p q := by
  rw [Read.val_main_v103_eq]
  exact ref_eq _ _ _ _ _ _ _ _ _ h0 h1 h2 h3 h4 h5 h6 h7 h8 p q

end Cert.RefValue

end
-- ==== Proof.FiniteInputs.lean ====
/-
  From the precondition to finiteness. The precondition says that, for each of the nine argument arrays, the
  conjunction over all entries of `|a i| < +∞` holds, and that the nine conjunctions hold together. An extended real
  whose absolute value `max x (-x)` is below `+∞` is neither infinity, so it is a real: every entry of every argument
  array is a real.
-/
import proofs.«114415_j6030134084248_2_alg».proof.Defs
import proofs.«114415_j6030134084248_2_alg».proof.Proof.Spec
import Idealize.ShloMosaic.Lib.ReduceAll
import Idealize.ShloMosaic.Lib.Pipeline.Value

noncomputable section

namespace Cert.FiniteInputs

open Idealize.ShloMosaic Idealize.SL.Sem Idealize.ShloMosaic.ValueIdx

/-- The scalar shape has one index. -/
instance subsingleton_scalarIdx : Subsingleton (⟨0, ![]⟩ : Shape).Idx := ⟨fun a b => funext fun d => d.elim0⟩

/-- The word of `+∞`. -/
theorem lit_top : Ideal.ofBits .f32 0x7F800000#32 = (⊤ : EReal) := by
  simp [Ideal.ofBits, Ideal.ieee]

/-- An extended real whose absolute value compares below `+∞` is a real. -/
theorem isReal_of_abs_lt (x : EReal)
    (h : FloatOps.cmpf (F := Ideal) (φ := .f32) .olt (FloatOps.hostAbsf (F := Ideal) (φ := .f32) x) (Ideal.ofBits .f32 0x7F800000#32) = 1#1) :
    Spec.IsReal x := by
  rw [lit_top] at h
  have hlt : max x (-x) < ⊤ := by
    by_contra hn
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [this] at h
    exact absurd h (by decide)
  refine Spec.isReal_of_ne (ne_of_lt (lt_of_le_of_lt (le_max_left _ _) hlt)) fun hb => ?_
  rw [hb] at hlt
  exact absurd hlt (by simp)

/-- The conjunction of two bits that is one has both bits one, at the scalar shape's index. -/
theorem andi_split (A B : IVec (⟨0, ![]⟩ : Shape) 1) (h : andi A B ix0 = 1#1) : A ix0 = 1#1 ∧ B ix0 = 1#1 :=
  IntOp.andi_eq_one.1 h

/-- One array's conjunct: if every entry's absolute value compares below `+∞`, every entry is a real. -/
theorem all_real {s : Shape} {axes : List (Fin s.rank)}
    (hb : (⟨0, ![]⟩ : Shape).BroadcastsInDim s (![] : Fin 0 → Fin s.rank))
    (hr : s.ReducesTo axes (⟨0, ![]⟩ : Shape)) (h0 : 0 < (⟨0, ![]⟩ : Shape).numel) (a : FVec Ideal s .f32)
    (h : Host.reduce IntOp.andi (cmpf .olt (Host.absf a) (broadcastInDim s ![] hb (constant (F := Ideal) (⟨0, ![]⟩ : Shape) .f32 0x7F800000#32)))
          (constantI (⟨0, ![]⟩ : Shape) 1 1#1) hr h0 ix0 = 1#1) (i : s.Idx) : Spec.IsReal (a i) := by
  have e := Host.reduce_andi_all _ _ hr h0 ix0 h i
  have eb : broadcastInDim s ![] hb (constant (F := Ideal) (⟨0, ![]⟩ : Shape) .f32 0x7F800000#32) i = Ideal.ofBits .f32 0x7F800000#32 :=
    broadcastInDim_apply _ hb _ i ix0 (fun a => a.elim0)
  refine isReal_of_abs_lt (a i) ?_
  rw [← eb]
  exact e

/-- Under the precondition's function being all ones, every entry of every argument array is a real. -/
theorem of_fn [Cert.Pre_finite_inputs.Facts]
    (a0 : FVec Ideal Cert.Pre_finite_inputs.S8192x128 .f32) (a1 : FVec Ideal Cert.Pre_finite_inputs.S128x1024 .f32)
    (a2 : FVec Ideal Cert.Pre_finite_inputs.S1024 .f32) (a3 : FVec Ideal Cert.Pre_finite_inputs.S1024x2048 .f32)
    (a4 : FVec Ideal Cert.Pre_finite_inputs.S2048 .f32) (a5 : FVec Ideal Cert.Pre_finite_inputs.S2048x4096 .f32)
    (a6 : FVec Ideal Cert.Pre_finite_inputs.S4096 .f32) (a7 : FVec Ideal Cert.Pre_finite_inputs.S4096x4096 .f32)
    (a8 : FVec Ideal Cert.Pre_finite_inputs.S4096 .f32)
    (h : Cert.Pre_finite_inputs.fn (F := Ideal) a0 a1 a2 a3 a4 a5 a6 a7 a8 = fun _ => 1#1) :
    (∀ i, Spec.IsReal (a0 i)) ∧ (∀ i, Spec.IsReal (a1 i)) ∧ (∀ i, Spec.IsReal (a2 i)) ∧ (∀ i, Spec.IsReal (a3 i))
      ∧ (∀ i, Spec.IsReal (a4 i)) ∧ (∀ i, Spec.IsReal (a5 i)) ∧ (∀ i, Spec.IsReal (a6 i)) ∧ (∀ i, Spec.IsReal (a7 i))
      ∧ (∀ i, Spec.IsReal (a8 i)) := by
  have h := congrFun h ix0
  dsimp only [Cert.Pre_finite_inputs.fn, Cert.Pre_finite_inputs.fn_part1, Cert.Pre_finite_inputs.fn_part2] at h
  obtain ⟨h, h8⟩ := andi_split _ _ h
  obtain ⟨h, h7⟩ := andi_split _ _ h
  obtain ⟨h, h6⟩ := andi_split _ _ h
  obtain ⟨h, h5⟩ := andi_split _ _ h
  obtain ⟨h, h4⟩ := andi_split _ _ h
  obtain ⟨h, h3⟩ := andi_split _ _ h
  obtain ⟨h, h2⟩ := andi_split _ _ h
  obtain ⟨h0, h1⟩ := andi_split _ _ h
  exact ⟨all_real _ _ _ a0 h0, all_real _ _ _ a1 h1, all_real _ _ _ a2 h2, all_real _ _ _ a3 h3, all_real _ _ _ a4 h4,
    all_real _ _ _ a5 h5, all_real _ _ _ a6 h6, all_real _ _ _ a7 h7, all_real _ _ _ a8 h8⟩

/-- Under the kernel's precondition every entry of every argument buffer is a real, on every device. -/
theorem of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, Spec.IsReal (m ((c.tc : Thread Cert.KernelIdeal.nD Cert.KernelIdeal.τ).loc Cert.KernelIdeal.main_arg0) i))
      ∧ (∀ i, Spec.IsReal (m ((c.tc : Thread Cert.KernelIdeal.nD Cert.KernelIdeal.τ).loc Cert.KernelIdeal.main_arg1) i))
      ∧ (∀ i, Spec.IsReal (m ((c.tc : Thread Cert.KernelIdeal.nD Cert.KernelIdeal.τ).loc Cert.KernelIdeal.main_arg2) i))
      ∧ (∀ i, Spec.IsReal (m ((c.tc : Thread Cert.KernelIdeal.nD Cert.KernelIdeal.τ).loc Cert.KernelIdeal.main_arg3) i))
      ∧ (∀ i, Spec.IsReal (m ((c.tc : Thread Cert.KernelIdeal.nD Cert.KernelIdeal.τ).loc Cert.KernelIdeal.main_arg4) i))
      ∧ (∀ i, Spec.IsReal (m ((c.tc : Thread Cert.KernelIdeal.nD Cert.KernelIdeal.τ).loc Cert.KernelIdeal.main_arg5) i))
      ∧ (∀ i, Spec.IsReal (m ((c.tc : Thread Cert.KernelIdeal.nD Cert.KernelIdeal.τ).loc Cert.KernelIdeal.main_arg6) i))
      ∧ (∀ i, Spec.IsReal (m ((c.tc : Thread Cert.KernelIdeal.nD Cert.KernelIdeal.τ).loc Cert.KernelIdeal.main_arg7) i))
      ∧ (∀ i, Spec.IsReal (m ((c.tc : Thread Cert.KernelIdeal.nD Cert.KernelIdeal.τ).loc Cert.KernelIdeal.main_arg8) i)) :=
  of_fn _ _ _ _ _ _ _ _ _ (hpre c)

end Cert.FiniteInputs

end
-- ==== Proof.lean ====
/- A four-layer quantized dense network on the extended reals: the tiled kernel program against the plain reference.
   Each layer multiplies the previous activation by the weights quantized to the levels k/32, -32 ≤ k ≤ 31, adds the bias
   quantized likewise, and (but for the last layer) quantizes the sum to the levels k/64, 0 ≤ k ≤ 63. The kernel program
   quantizes the weights and biases on the host once, then runs one tiled matrix product per layer: the output is cut into
   1024 x 1024 blocks, the contracted axis into blocks of at most 1024, and an accumulator is cleared at the first block,
   added to at each block, and at the last block added to the bias, activated and stored. The reference rounds
   "straight through", p + (round p - p), which is round p exactly when p is finite: the precondition (every input entry
   finite) makes every weight and bias finite, and every activation is finite because it is a finite sum of products of finite
   numbers, or a value clipped between two finite bounds. Block-by-block accumulation is the whole sum because addition on the
   extended reals is commutative and associative and 0 is neutral. So both programs end at one function of the argument
   arrays (Proof/Spec.lean, `Spec.out`).
   The three frames: every weakly fair execution terminates, nothing faults, the argument arrays end as launched — for the
   kernel program at the word level and at the extended reals from one segment record per kernel region (Proof/KB, Proof/KI),
   for the reference from its generated run. The ideal pass rewrote nothing, so `preserves` asks nothing. -/
import proofs.«114415_j6030134084248_2_alg».proof.Defs
import proofs.«114415_j6030134084248_2_alg».proof.Proof.Gen.Kernel
import proofs.«114415_j6030134084248_2_alg».proof.Proof.Gen.KernelIdeal
import proofs.«114415_j6030134084248_2_alg».proof.Proof.Gen.ReferenceIdeal
import proofs.«114415_j6030134084248_2_alg».proof.Proof.Gen.ReferenceIdeal.Run
import proofs.«114415_j6030134084248_2_alg».proof.Proof.Gen.ReferenceIdeal.Read
import proofs.«114415_j6030134084248_2_alg».proof.Proof.Gen.Pre_finite_inputs
import proofs.«114415_j6030134084248_2_alg».proof.Proof.KB.Frames
import proofs.«114415_j6030134084248_2_alg».proof.Proof.KI.RunMain
import proofs.«114415_j6030134084248_2_alg».proof.Proof.KI.Chain
import proofs.«114415_j6030134084248_2_alg».proof.Proof.RefValue
import proofs.«114415_j6030134084248_2_alg».proof.Proof.FiniteInputs
import Idealize.ShloMosaic.Adequacy
import Idealize.ShloMosaic.Init

noncomputable section

namespace Cert.Proof

open Idealize.ShloMosaic Idealize.SL.Sem Idealize.ShloMosaic.ValueIdx

/-- The kernel program at the word level runs, faults nowhere and leaves its arguments unchanged. -/
theorem frame_k : Cert.frame_Kernel := fun m ρ _ => Cert.Kernel.Gen.frame m ρ
/-- The same at the extended reals. -/
theorem frame_ki : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, all finite, both programs end with the result at `Spec.out` of the arguments. -/
theorem algebraic : Cert.algebraic_KernelIdeal_ReferenceIdeal := by
  intro m ρ m' ρ' hpre hagree
  refine ⟨fun c => Cert.KernelIdeal.Gen.o40 m c, Cert.KernelIdeal.Gen.run_out m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := Cert.FiniteInputs.of_pre m hpre c
  obtain ⟨e0, e1, e2, e3, e4, e5, e6, e7, e8⟩ := hagree c
  funext j
  obtain ⟨p, q, rfl⟩ : ∃ (p : Fin 8192) (q : Fin 4096), j = ix2 p q := ⟨j 0, j 1, eq_ix2 j⟩
  show Cert.ReferenceIdeal.Value.res_main_v103 (F := Ideal) m' c (ix2 p q) = Cert.KernelIdeal.Gen.o40 m c (ix2 p q)
  rw [Cert.RefValue.res_eq m' c (fun i => by rw [e0]; exact h0 i) (fun i => by rw [e1]; exact h1 i) (fun i => by rw [e2]; exact h2 i)
      (fun i => by rw [e3]; exact h3 i) (fun i => by rw [e4]; exact h4 i) (fun i => by rw [e5]; exact h5 i) (fun i => by rw [e6]; exact h6 i)
      (fun i => by rw [e7]; exact h7 i) (fun i => by rw [e8]; exact h8 i) p q,
    Cert.KernelIdeal.Chain.o40_eq m c p q]
  simp only [e0, e1, e2, e3, e4, e5, e6, e7, e8]
  try rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
